-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000 : Shape := ⟨1, ![100000]⟩
abbrev S10x256x256 : Shape := ⟨3, ![10, 256, 256]⟩
abbrev S10x256 : Shape := ⟨2, ![10, 256]⟩
abbrev S10x256x1 : Shape := ⟨3, ![10, 256, 1]⟩
abbrev S10x1 : Shape := ⟨2, ![10, 1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S10x256x256 : S_.BroadcastsInDim S10x256x256 (![] : Fin 0 → Fin S10x256x256.rank)
  reducesTo_S10x256x256_S_d0_1_2 : S10x256x256.ReducesTo [0, 1, 2] S_
  bcast_S_S10x256 : S_.BroadcastsInDim S10x256 (![] : Fin 0 → Fin S10x256.rank)
  reducesTo_S10x256_S_d0_1 : S10x256.ReducesTo [0, 1] S_
  bcast_S_S10x256x1 : S_.BroadcastsInDim S10x256x1 (![] : Fin 0 → Fin S10x256x1.rank)
  reducesTo_S10x256x1_S_d0_1_2 : S10x256x1.ReducesTo [0, 1, 2] S_
  bcast_S_S10x1 : S_.BroadcastsInDim S10x1 (![] : Fin 0 → Fin S10x1.rank)
  reducesTo_S10x1_S_d0_1 : S10x1.ReducesTo [0, 1] S_

variable [Facts]

def fn_part1 {F : FTy → Type} [FloatOps F] (main_arg5 : FVec F S10x1 .f32) (main_v13 : IVec S_ 1) (main_v16 : IVec S10x256x1 1) : IVec S_ 1 :=
  let main_c_5 : IVec S_ 1 := constantI S_ 1 1#1
  let main_v17 : IVec S_ 1 := (fun x v => Host.reduce IntOp.andi x v reducesTo_S10x256x1_S_d0_1_2 h_S_) main_v16 main_c_5
  let main_v18 : IVec S_ 1 := andi main_v13 main_v17
  let main_v19 : FVec F S10x1 .f32 := Host.absf main_arg5
  let main_cst_6 : FVec F S_ .f32 := constant S_ .f32 0x7F800000#32
  let main_v20 : FVec F S10x1 .f32 := broadcastInDim S10x1 ![] bcast_S_S10x1 main_cst_6
  let main_v21 : IVec S10x1 1 := cmpf .olt main_v19 main_v20
  let main_c_7 : IVec S_ 1 := constantI S_ 1 1#1
  let main_v22 : IVec S_ 1 := (fun x v => Host.reduce IntOp.andi x v reducesTo_S10x1_S_d0_1 h_S_) main_v21 main_c_7
  let main_v23 : IVec S_ 1 := andi main_v18 main_v22
  main_v23

def fn {F : FTy → Type} [FloatOps F] (main_arg0 : FVec F S100000x256 .f32) (main_arg1 : IVec S100000 32) (main_arg2 : FVec F S10x256x256 .f32) (main_arg3 : FVec F S10x256 .f32) (main_arg4 : FVec F S10x256x1 .f32) (main_arg5 : FVec F S10x1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S10x256x256 .f32 := Host.absf main_arg2
  let main_cst_0 : FVec F S_ .f32 := constant S_ .f32 0x7F800000#32
  let main_v5 : FVec F S10x256x256 .f32 := broadcastInDim S10x256x256 ![] bcast_S_S10x256x256 main_cst_0
  let main_v6 : IVec S10x256x256 1 := cmpf .olt main_v4 main_v5
  let main_c_1 : IVec S_ 1 := constantI S_ 1 1#1
  let main_v7 : IVec S_ 1 := (fun x v => Host.reduce IntOp.andi x v reducesTo_S10x256x256_S_d0_1_2 h_S_) main_v6 main_c_1
  let main_v8 : IVec S_ 1 := andi main_v3 main_v7
  let main_v9 : FVec F S10x256 .f32 := Host.absf main_arg3
  let main_cst_2 : FVec F S_ .f32 := constant S_ .f32 0x7F800000#32
  let main_v10 : FVec F S10x256 .f32 := broadcastInDim S10x256 ![] bcast_S_S10x256 main_cst_2
  let main_v11 : IVec S10x256 1 := cmpf .olt main_v9 main_v10
  let main_c_3 : IVec S_ 1 := constantI S_ 1 1#1
  let main_v12 : IVec S_ 1 := (fun x v => Host.reduce IntOp.andi x v reducesTo_S10x256_S_d0_1 h_S_) main_v11 main_c_3
  let main_v13 : IVec S_ 1 := andi main_v8 main_v12
  let main_v14 : FVec F S10x256x1 .f32 := Host.absf main_arg4
  let main_cst_4 : FVec F S_ .f32 := constant S_ .f32 0x7F800000#32
  let main_v15 : FVec F S10x256x1 .f32 := broadcastInDim S10x256x1 ![] bcast_S_S10x256x1 main_cst_4
  let main_v16 : IVec S10x256x1 1 := cmpf .olt main_v14 main_v15
  fn_part1 (F := F) main_arg5 main_v13 main_v16
-- ==== Kernel.lean ====
abbrev S100000x256 : Shape := ⟨2, ![100000, 256]⟩
abbrev S100000 : Shape := ⟨1, ![100000]⟩
abbrev S10x256x256 : Shape := ⟨3, ![10, 256, 256]⟩
abbrev S10x256 : Shape := ⟨2, ![10, 256]⟩
abbrev S10x256x1 : Shape := ⟨3, ![10, 256, 1]⟩
abbrev S10x1 : Shape := ⟨2, ![10, 1]⟩
abbrev S100000x1 : Shape := ⟨2, ![100000, 1]⟩
abbrev S2000x256 : Shape := ⟨2, ![2000, 256]⟩
abbrev S2000x1 : Shape := ⟨2, ![2000, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x256x1 : Shape := ⟨3, ![1, 256, 1]⟩
abbrev S256x1 : Shape := ⟨2, ![256, 1]⟩
abbrev S1x1 : Shape := ⟨2, ![1, 1]⟩
abbrev S1 : Shape := ⟨1, ![1]⟩

abbrev nBuf : Space → Nat
  | .hbm => 10
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S100000, .i32⟩
  | .hbm, ⟨2, _⟩ => ⟨S10x256x256, .f32⟩
  | .hbm, ⟨3, _⟩ => ⟨S10x256, .f32⟩
  | .hbm, ⟨4, _⟩ => ⟨S10x256x1, .f32⟩
  | .hbm, ⟨5, _⟩ => ⟨S10x1, .f32⟩
  | .hbm, ⟨6, _⟩ => ⟨S100000x1, .i32⟩
  | .hbm, ⟨7, _⟩ => ⟨S10x256x256, .bf16⟩
  | .hbm, ⟨8, _⟩ => ⟨S10x256x1, .bf16⟩
  | .hbm, ⟨9, _⟩ => ⟨S100000x1, .f32⟩
  | .local _ .vmem, ⟨0, _⟩ => ⟨S2000x256, .f32⟩
  | .local _ .vmem, ⟨1, _⟩ => ⟨S2000x256, .f32⟩
  | .local _ .vmem, ⟨2, _⟩ => ⟨S2000x1, .i32⟩
  | .local _ .vmem, ⟨3, _⟩ => ⟨S2000x1, .i32⟩
  | .local _ .vmem, ⟨4, _⟩ => ⟨S10x256x256, .bf16⟩
  | .local _ .vmem, ⟨5, _⟩ => ⟨S10x256, .f32⟩
  | .local _ .vmem, ⟨6, _⟩ => ⟨S10x256x1, .bf16⟩
  | .local _ .vmem, ⟨7, _⟩ => ⟨S10x1, .f32⟩
  | .local _ .vmem, ⟨8, _⟩ => ⟨S2000x1, .f32⟩
  | .local _ .vmem, ⟨9, _⟩ => ⟨S2000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x256x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S100000_S100000x1 : S100000.ShapeCasts S100000x1
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S10x256x256_S1x256x256_0_0_0 : ∀ a, (![0, 0, 0] : Fin 3 → Nat) a + S1x256x256.size a ≤ S10x256x256.size a
  h_S1x256x256 : 0 < S1x256x256.numel
  shapeCasts_S1x256x256_S256x256 : S1x256x256.ShapeCasts S256x256
  inb_S10x256_S1x256_0_0 : ∀ a, (![0, 0] : Fin 2 → Nat) a + S1x256.size a ≤ S10x256.size a
  h_S1x256 : 0 < S1x256.numel
  shapeCasts_S1x256_S256 : S1x256.ShapeCasts S256
  inb_S10x256x1_S1x256x1_0_0_0 : ∀ a, (![0, 0, 0] : Fin 3 → Nat) a + S1x256x1.size a ≤ S10x256x1.size a
  h_S1x256x1 : 0 < S1x256x1.numel
  shapeCasts_S1x256x1_S256x1 : S1x256x1.ShapeCasts S256x1
  inb_S10x1_S1x1_0_0 : ∀ a, (![0, 0] : Fin 2 → Nat) a + S1x1.size a ≤ S10x1.size a
  h_S1x1 : 0 < S1x1.numel
  shapeCasts_S1x1_S1 : S1x1.ShapeCasts S1
  shapeCasts_S256_S1x256 : S256.ShapeCasts S1x256
  broadcasts_S1x256_S2000x256 : S1x256.Broadcasts S2000x256
  shapeCasts_S1_S1x1 : S1.ShapeCasts S1x1
  broadcasts_S1x1_S2000x1 : S1x1.Broadcasts S2000x1
  inb_S10x256x256_S1x256x256_1_0_0 : ∀ a, (![1, 0, 0] : Fin 3 → Nat) a + S1x256x256.size a ≤ S10x256x256.size a
  inb_S10x256_S1x256_1_0 : ∀ a, (![1, 0] : Fin 2 → Nat) a + S1x256.size a ≤ S10x256.size a
  inb_S10x256x1_S1x256x1_1_0_0 : ∀ a, (![1, 0, 0] : Fin 3 → Nat) a + S1x256x1.size a ≤ S10x256x1.size a
  inb_S10x1_S1x1_1_0 : ∀ a, (![1, 0] : Fin 2 → Nat) a + S1x1.size a ≤ S10x1.size a
  inb_S10x256x256_S1x256x256_2_0_0 : ∀ a, (![2, 0, 0] : Fin 3 → Nat) a + S1x256x256.size a ≤ S10x256x256.size a
  inb_S10x256_S1x256_2_0 : ∀ a, (![2, 0] : Fin 2 → Nat) a + S1x256.size a ≤ S10x256.size a
  inb_S10x256x1_S1x256x1_2_0_0 : ∀ a, (![2, 0, 0] : Fin 3 → Nat) a + S1x256x1.size a ≤ S10x256x1.size a
  inb_S10x1_S1x1_2_0 : ∀ a, (![2, 0] : Fin 2 → Nat) a + S1x1.size a ≤ S10x1.size a
  inb_S10x256x256_S1x256x256_3_0_0 : ∀ a, (![3, 0, 0] : Fin 3 → Nat) a + S1x256x256.size a ≤ S10x256x256.size a
  inb_S10x256_S1x256_3_0 : ∀ a, (![3, 0] : Fin 2 → Nat) a + S1x256.size a ≤ S10x256.size a
  inb_S10x256x1_S1x256x1_3_0_0 : ∀ a, (![3, 0, 0] : Fin 3 → Nat) a + S1x256x1.size a ≤ S10x256x1.size a
  inb_S10x1_S1x1_3_0 : ∀ a, (![3, 0] : Fin 2 → Nat) a + S1x1.size a ≤ S10x1.size a
  inb_S10x256x256_S1x256x256_4_0_0 : ∀ a, (![4, 0, 0] : Fin 3 → Nat) a + S1x256x256.size a ≤ S10x256x256.size a
  inb_S10x256_S1x256_4_0 : ∀ a, (![4, 0] : Fin 2 → Nat) a + S1x256.size a ≤ S10x256.size a
  inb_S10x256x1_S1x256x1_4_0_0 : ∀ a, (![4, 0, 0] : Fin 3 → Nat) a + S1x256x1.size a ≤ S10x256x1.size a
  inb_S10x1_S1x1_4_0 : ∀ a, (![4, 0] : Fin 2 → Nat) a + S1x1.size a ≤ S10x1.size a
  inb_S10x256x256_S1x256x256_5_0_0 : ∀ a, (![5, 0, 0] : Fin 3 → Nat) a + S1x256x256.size a ≤ S10x256x256.size a
  inb_S10x256_S1x256_5_0 : ∀ a, (![5, 0] : Fin 2 → Nat) a + S1x256.size a ≤ S10x256.size a
  inb_S10x256x1_S1x256x1_5_0_0 : ∀ a, (![5, 0, 0] : Fin 3 → Nat) a + S1x256x1.size a ≤ S10x256x1.size a
  inb_S10x1_S1x1_5_0 : ∀ a, (![5, 0] : Fin 2 → Nat) a + S1x1.size a ≤ S10x1.size a
  inb_S10x256x256_S1x256x256_6_0_0 : ∀ a, (![6, 0, 0] : Fin 3 → Nat) a + S1x256x256.size a ≤ S10x256x256.size a
  inb_S10x256_S1x256_6_0 : ∀ a, (![6, 0] : Fin 2 → Nat) a + S1x256.size a ≤ S10x256.size a
  inb_S10x256x1_S1x256x1_6_0_0 : ∀ a, (![6, 0, 0] : Fin 3 → Nat) a + S1x256x1.size a ≤ S10x256x1.size a
  inb_S10x1_S1x1_6_0 : ∀ a, (![6, 0] : Fin 2 → Nat) a + S1x1.size a ≤ S10x1.size a
  inb_S10x256x256_S1x256x256_7_0_0 : ∀ a, (![7, 0, 0] : Fin 3 → Nat) a + S1x256x256.size a ≤ S10x256x256.size a
  inb_S10x256_S1x256_7_0 : ∀ a, (![7, 0] : Fin 2 → Nat) a + S1x256.size a ≤ S10x256.size a
  inb_S10x256x1_S1x256x1_7_0_0 : ∀ a, (![7, 0, 0] : Fin 3 → Nat) a + S1x256x1.size a ≤ S10x256x1.size a
  inb_S10x1_S1x1_7_0 : ∀ a, (![7, 0] : Fin 2 → Nat) a + S1x1.size a ≤ S10x1.size a
  inb_S10x256x256_S1x256x256_8_0_0 : ∀ a, (![8, 0, 0] : Fin 3 → Nat) a + S1x256x256.size a ≤ S10x256x256.size a
  inb_S10x256_S1x256_8_0 : ∀ a, (![8, 0] : Fin 2 → Nat) a + S1x256.size a ≤ S10x256.size a
  inb_S10x256x1_S1x256x1_8_0_0 : ∀ a, (![8, 0, 0] : Fin 3 → Nat) a + S1x256x1.size a ≤ S10x256x1.size a
  inb_S10x1_S1x1_8_0 : ∀ a, (![8, 0] : Fin 2 → Nat) a + S1x1.size a ≤ S10x1.size a
  inb_S10x256x256_S1x256x256_9_0_0 : ∀ a, (![9, 0, 0] : Fin 3 → Nat) a + S1x256x256.size a ≤ S10x256x256.size a
  inb_S10x256_S1x256_9_0 : ∀ a, (![9, 0] : Fin 2 → Nat) a + S1x256.size a ≤ S10x256.size a
  inb_S10x256x1_S1x256x1_9_0_0 : ∀ a, (![9, 0, 0] : Fin 3 → Nat) a + S1x256x1.size a ≤ S10x256x1.size a
  inb_S10x1_S1x1_9_0 : ∀ a, (![9, 0] : Fin 2 → Nat) a + S1x1.size a ≤ S10x1.size a
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .i32 = 32 ∨ (Rect.block (s := S100000x1) S2000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x256x256.size a ≤ S10x256x256.size a
  hwx0_2 : ∀ i : grid0.Coords, EltTy.bits .bf16 = 32 ∨ (Rect.block (s := S10x256x256) S10x256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x256.size a ≤ S10x256.size a
  hwx0_3 : ∀ i : grid0.Coords, EltTy.bits .f32 = 32 ∨ (Rect.block (s := S10x256) S10x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x256x1.size a ≤ S10x256x1.size a
  hwx0_4 : ∀ i : grid0.Coords, EltTy.bits .bf16 = 32 ∨ (Rect.block (s := S10x256x1) S10x256x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x1.size a ≤ S10x1.size a
  hwx0_5 : ∀ i : grid0.Coords, EltTy.bits .f32 = 32 ∨ (Rect.block (s := S10x1) S10x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x1.size a ≤ S100000x1.size a
  hwx0_6 : ∀ i : grid0.Coords, EltTy.bits .f32 = 32 ∨ (Rect.block (s := S100000x1) S2000x1.size (cc0_transform_6 i) (hinb0_6 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S10x256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S10x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S2000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x256 : Shape := ⟨2, ![100000, 256]⟩
abbrev S100000 : Shape := ⟨1, ![100000]⟩
abbrev S10x256x256 : Shape := ⟨3, ![10, 256, 256]⟩
abbrev S10x256 : Shape := ⟨2, ![10, 256]⟩
abbrev S10x256x1 : Shape := ⟨3, ![10, 256, 1]⟩
abbrev S10x1 : Shape := ⟨2, ![10, 1]⟩
abbrev S_ : Shape := ⟨0, ![]⟩
abbrev S100000x1 : Shape := ⟨2, ![100000, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x256x1 : Shape := ⟨3, ![1, 256, 1]⟩
abbrev S256x1 : Shape := ⟨2, ![256, 1]⟩
abbrev S1x1 : Shape := ⟨2, ![1, 1]⟩
abbrev S1 : Shape := ⟨1, ![1]⟩

abbrev nBuf : Space → Nat
  | .hbm => 349
  | .vmem => 0
  | .smem => 0
  | _ => 0

abbrev hbmTy0_0 (i : Nat) : BufTy := match i % 128 with
  | 0 => ⟨S100000x256, .f32⟩
  | 1 => ⟨S100000, .i32⟩
  | 2 => ⟨S10x256x256, .f32⟩
  | 3 => ⟨S10x256, .f32⟩
  | 4 => ⟨S10x256x1, .f32⟩
  | 5 => ⟨S10x1, .f32⟩
  | 6 => ⟨S_, .f32⟩
  | 7 => ⟨S100000x256, .f32⟩
  | 8 => ⟨S_, .i32⟩
  | 9 => ⟨S100000, .i32⟩
  | 10 => ⟨S100000, .i1⟩
  | 11 => ⟨S100000x1, .i1⟩
  | 12 => ⟨S1x256x256, .f32⟩
  | 13 => ⟨S256x256, .f32⟩
  | 14 => ⟨S100000x256, .f32⟩
  | 15 => ⟨S1x256, .f32⟩
  | 16 => ⟨S256, .f32⟩
  | 17 => ⟨S1x256, .f32⟩
  | 18 => ⟨S100000x256, .f32⟩
  | 19 => ⟨S100000x256, .f32⟩
  | 20 => ⟨S_, .f32⟩
  | 21 => ⟨S100000x256, .i1⟩
  | 22 => ⟨S100000x256, .f32⟩
  | 23 => ⟨S100000x256, .f32⟩
  | 24 => ⟨S100000x256, .f32⟩
  | 25 => ⟨S_, .i32⟩
  | 26 => ⟨S100000, .i32⟩
  | 27 => ⟨S100000, .i1⟩
  | 28 => ⟨S100000x1, .i1⟩
  | 29 => ⟨S1x256x256, .f32⟩
  | 30 => ⟨S256x256, .f32⟩
  | 31 => ⟨S100000x256, .f32⟩
  | 32 => ⟨S1x256, .f32⟩
  | 33 => ⟨S256, .f32⟩
  | 34 => ⟨S1x256, .f32⟩
  | 35 => ⟨S100000x256, .f32⟩
  | 36 => ⟨S100000x256, .f32⟩
  | 37 => ⟨S_, .f32⟩
  | 38 => ⟨S100000x256, .i1⟩
  | 39 => ⟨S100000x256, .f32⟩
  | 40 => ⟨S100000x256, .f32⟩
  | 41 => ⟨S100000x256, .f32⟩
  | 42 => ⟨S_, .i32⟩
  | 43 => ⟨S100000, .i32⟩
  | 44 => ⟨S100000, .i1⟩
  | 45 => ⟨S100000x1, .i1⟩
  | 46 => ⟨S1x256x256, .f32⟩
  | 47 => ⟨S256x256, .f32⟩
  | 48 => ⟨S100000x256, .f32⟩
  | 49 => ⟨S1x256, .f32⟩
  | 50 => ⟨S256, .f32⟩
  | 51 => ⟨S1x256, .f32⟩
  | 52 => ⟨S100000x256, .f32⟩
  | 53 => ⟨S100000x256, .f32⟩
  | 54 => ⟨S_, .f32⟩
  | 55 => ⟨S100000x256, .i1⟩
  | 56 => ⟨S100000x256, .f32⟩
  | 57 => ⟨S100000x256, .f32⟩
  | 58 => ⟨S100000x256, .f32⟩
  | 59 => ⟨S_, .i32⟩
  | 60 => ⟨S100000, .i32⟩
  | 61 => ⟨S100000, .i1⟩
  | 62 => ⟨S100000x1, .i1⟩
  | 63 => ⟨S1x256x256, .f32⟩
  | 64 => ⟨S256x256, .f32⟩
  | 65 => ⟨S100000x256, .f32⟩
  | 66 => ⟨S1x256, .f32⟩
  | 67 => ⟨S256, .f32⟩
  | 68 => ⟨S1x256, .f32⟩
  | 69 => ⟨S100000x256, .f32⟩
  | 70 => ⟨S100000x256, .f32⟩
  | 71 => ⟨S_, .f32⟩
  | 72 => ⟨S100000x256, .i1⟩
  | 73 => ⟨S100000x256, .f32⟩
  | 74 => ⟨S100000x256, .f32⟩
  | 75 => ⟨S100000x256, .f32⟩
  | 76 => ⟨S_, .i32⟩
  | 77 => ⟨S100000, .i32⟩
  | 78 => ⟨S100000, .i1⟩
  | 79 => ⟨S100000x1, .i1⟩
  | 80 => ⟨S1x256x256, .f32⟩
  | 81 => ⟨S256x256, .f32⟩
  | 82 => ⟨S100000x256, .f32⟩
  | 83 => ⟨S1x256, .f32⟩
  | 84 => ⟨S256, .f32⟩
  | 85 => ⟨S1x256, .f32⟩
  | 86 => ⟨S100000x256, .f32⟩
  | 87 => ⟨S100000x256, .f32⟩
  | 88 => ⟨S_, .f32⟩
  | 89 => ⟨S100000x256, .i1⟩
  | 90 => ⟨S100000x256, .f32⟩
  | 91 => ⟨S100000x256, .f32⟩
  | 92 => ⟨S100000x256, .f32⟩
  | 93 => ⟨S_, .i32⟩
  | 94 => ⟨S100000, .i32⟩
  | 95 => ⟨S100000, .i1⟩
  | 96 => ⟨S100000x1, .i1⟩
  | 97 => ⟨S1x256x256, .f32⟩
  | 98 => ⟨S256x256, .f32⟩
  | 99 => ⟨S100000x256, .f32⟩
  | 100 => ⟨S1x256, .f32⟩
  | 101 => ⟨S256, .f32⟩
  | 102 => ⟨S1x256, .f32⟩
  | 103 => ⟨S100000x256, .f32⟩
  | 104 => ⟨S100000x256, .f32⟩
  | 105 => ⟨S_, .f32⟩
  | 106 => ⟨S100000x256, .i1⟩
  | 107 => ⟨S100000x256, .f32⟩
  | 108 => ⟨S100000x256, .f32⟩
  | 109 => ⟨S100000x256, .f32⟩
  | 110 => ⟨S_, .i32⟩
  | 111 => ⟨S100000, .i32⟩
  | 112 => ⟨S100000, .i1⟩
  | 113 => ⟨S100000x1, .i1⟩
  | 114 => ⟨S1x256x256, .f32⟩
  | 115 => ⟨S256x256, .f32⟩
  | 116 => ⟨S100000x256, .f32⟩
  | 117 => ⟨S1x256, .f32⟩
  | 118 => ⟨S256, .f32⟩
  | 119 => ⟨S1x256, .f32⟩
  | 120 => ⟨S100000x256, .f32⟩
  | 121 => ⟨S100000x256, .f32⟩
  | 122 => ⟨S_, .f32⟩
  | 123 => ⟨S100000x256, .i1⟩
  | 124 => ⟨S100000x256, .f32⟩
  | 125 => ⟨S100000x256, .f32⟩
  | 126 => ⟨S100000x256, .f32⟩
  | 127 => ⟨S_, .i32⟩
  | _ => ⟨S100000x256, .f32⟩

abbrev hbmTy0_1 (i : Nat) : BufTy := match i % 128 with
  | 0 => ⟨S100000, .i32⟩
  | 1 => ⟨S100000, .i1⟩
  | 2 => ⟨S100000x1, .i1⟩
  | 3 => ⟨S1x256x256, .f32⟩
  | 4 => ⟨S256x256, .f32⟩
  | 5 => ⟨S100000x256, .f32⟩
  | 6 => ⟨S1x256, .f32⟩
  | 7 => ⟨S256, .f32⟩
  | 8 => ⟨S1x256, .f32⟩
  | 9 => ⟨S100000x256, .f32⟩
  | 10 => ⟨S100000x256, .f32⟩
  | 11 => ⟨S_, .f32⟩
  | 12 => ⟨S100000x256, .i1⟩
  | 13 => ⟨S100000x256, .f32⟩
  | 14 => ⟨S100000x256, .f32⟩
  | 15 => ⟨S100000x256, .f32⟩
  | 16 => ⟨S_, .i32⟩
  | 17 => ⟨S100000, .i32⟩
  | 18 => ⟨S100000, .i1⟩
  | 19 => ⟨S100000x1, .i1⟩
  | 20 => ⟨S1x256x256, .f32⟩
  | 21 => ⟨S256x256, .f32⟩
  | 22 => ⟨S100000x256, .f32⟩
  | 23 => ⟨S1x256, .f32⟩
  | 24 => ⟨S256, .f32⟩
  | 25 => ⟨S1x256, .f32⟩
  | 26 => ⟨S100000x256, .f32⟩
  | 27 => ⟨S100000x256, .f32⟩
  | 28 => ⟨S_, .f32⟩
  | 29 => ⟨S100000x256, .i1⟩
  | 30 => ⟨S100000x256, .f32⟩
  | 31 => ⟨S100000x256, .f32⟩
  | 32 => ⟨S100000x256, .f32⟩
  | 33 => ⟨S_, .i32⟩
  | 34 => ⟨S100000, .i32⟩
  | 35 => ⟨S100000, .i1⟩
  | 36 => ⟨S100000x1, .i1⟩
  | 37 => ⟨S1x256x256, .f32⟩
  | 38 => ⟨S256x256, .f32⟩
  | 39 => ⟨S100000x256, .f32⟩
  | 40 => ⟨S1x256, .f32⟩
  | 41 => ⟨S256, .f32⟩
  | 42 => ⟨S1x256, .f32⟩
  | 43 => ⟨S100000x256, .f32⟩
  | 44 => ⟨S100000x256, .f32⟩
  | 45 => ⟨S_, .f32⟩
  | 46 => ⟨S100000x256, .i1⟩
  | 47 => ⟨S100000x256, .f32⟩
  | 48 => ⟨S100000x256, .f32⟩
  | 49 => ⟨S100000x256, .f32⟩
  | 50 => ⟨S100000x256, .f32⟩
  | 51 => ⟨S100000x256, .f32⟩
  | 52 => ⟨S_, .f32⟩
  | 53 => ⟨S100000x256, .f32⟩
  | 54 => ⟨S100000x256, .f32⟩
  | 55 => ⟨S_, .f32⟩
  | 56 => ⟨S100000x256, .f32⟩
  | 57 => ⟨S100000x256, .f32⟩
  | 58 => ⟨S100000x256, .f32⟩
  | 59 => ⟨S_, .f32⟩
  | 60 => ⟨S100000x1, .f32⟩
  | 61 => ⟨S_, .i32⟩
  | 62 => ⟨S100000, .i32⟩
  | 63 => ⟨S100000, .i1⟩
  | 64 => ⟨S100000x1, .i1⟩
  | 65 => ⟨S1x256x1, .f32⟩
  | 66 => ⟨S256x1, .f32⟩
  | 67 => ⟨S100000x1, .f32⟩
  | 68 => ⟨S1x1, .f32⟩
  | 69 => ⟨S1, .f32⟩
  | 70 => ⟨S1x1, .f32⟩
  | 71 => ⟨S100000x1, .f32⟩
  | 72 => ⟨S100000x1, .f32⟩
  | 73 => ⟨S_, .f32⟩
  | 74 => ⟨S100000x1, .f32⟩
  | 75 => ⟨S100000x1, .f32⟩
  | 76 => ⟨S100000x1, .f32⟩
  | 77 => ⟨S_, .i32⟩
  | 78 => ⟨S100000, .i32⟩
  | 79 => ⟨S100000, .i1⟩
  | 80 => ⟨S100000x1, .i1⟩
  | 81 => ⟨S1x256x1, .f32⟩
  | 82 => ⟨S256x1, .f32⟩
  | 83 => ⟨S100000x1, .f32⟩
  | 84 => ⟨S1x1, .f32⟩
  | 85 => ⟨S1, .f32⟩
  | 86 => ⟨S1x1, .f32⟩
  | 87 => ⟨S100000x1, .f32⟩
  | 88 => ⟨S100000x1, .f32⟩
  | 89 => ⟨S_, .f32⟩
  | 90 => ⟨S100000x1, .f32⟩
  | 91 => ⟨S100000x1, .f32⟩
  | 92 => ⟨S100000x1, .f32⟩
  | 93 => ⟨S_, .i32⟩
  | 94 => ⟨S100000, .i32⟩
  | 95 => ⟨S100000, .i1⟩
  | 96 => ⟨S100000x1, .i1⟩
  | 97 => ⟨S1x256x1, .f32⟩
  | 98 => ⟨S256x1, .f32⟩
  | 99 => ⟨S100000x1, .f32⟩
  | 100 => ⟨S1x1, .f32⟩
  | 101 => ⟨S1, .f32⟩
  | 102 => ⟨S1x1, .f32⟩
  | 103 => ⟨S100000x1, .f32⟩
  | 104 => ⟨S100000x1, .f32⟩
  | 105 => ⟨S_, .f32⟩
  | 106 => ⟨S100000x1, .f32⟩
  | 107 => ⟨S100000x1, .f32⟩
  | 108 => ⟨S100000x1, .f32⟩
  | 109 => ⟨S_, .i32⟩
  | 110 => ⟨S100000, .i32⟩
  | 111 => ⟨S100000, .i1⟩
  | 112 => ⟨S100000x1, .i1⟩
  | 113 => ⟨S1x256x1, .f32⟩
  | 114 => ⟨S256x1, .f32⟩
  | 115 => ⟨S100000x1, .f32⟩
  | 116 => ⟨S1x1, .f32⟩
  | 117 => ⟨S1, .f32⟩
  | 118 => ⟨S1x1, .f32⟩
  | 119 => ⟨S100000x1, .f32⟩
  | 120 => ⟨S100000x1, .f32⟩
  | 121 => ⟨S_, .f32⟩
  | 122 => ⟨S100000x1, .f32⟩
  | 123 => ⟨S100000x1, .f32⟩
  | 124 => ⟨S100000x1, .f32⟩
  | 125 => ⟨S_, .i32⟩
  | 126 => ⟨S100000, .i32⟩
  | 127 => ⟨S100000, .i1⟩
  | _ => ⟨S100000x256, .f32⟩

abbrev hbmTy0_2 (i : Nat) : BufTy := match i % 128 with
  | 0 => ⟨S100000x1, .i1⟩
  | 1 => ⟨S1x256x1, .f32⟩
  | 2 => ⟨S256x1, .f32⟩
  | 3 => ⟨S100000x1, .f32⟩
  | 4 => ⟨S1x1, .f32⟩
  | 5 => ⟨S1, .f32⟩
  | 6 => ⟨S1x1, .f32⟩
  | 7 => ⟨S100000x1, .f32⟩
  | 8 => ⟨S100000x1, .f32⟩
  | 9 => ⟨S_, .f32⟩
  | 10 => ⟨S100000x1, .f32⟩
  | 11 => ⟨S100000x1, .f32⟩
  | 12 => ⟨S100000x1, .f32⟩
  | 13 => ⟨S_, .i32⟩
  | 14 => ⟨S100000, .i32⟩
  | 15 => ⟨S100000, .i1⟩
  | 16 => ⟨S100000x1, .i1⟩
  | 17 => ⟨S1x256x1, .f32⟩
  | 18 => ⟨S256x1, .f32⟩
  | 19 => ⟨S100000x1, .f32⟩
  | 20 => ⟨S1x1, .f32⟩
  | 21 => ⟨S1, .f32⟩
  | 22 => ⟨S1x1, .f32⟩
  | 23 => ⟨S100000x1, .f32⟩
  | 24 => ⟨S100000x1, .f32⟩
  | 25 => ⟨S_, .f32⟩
  | 26 => ⟨S100000x1, .f32⟩
  | 27 => ⟨S100000x1, .f32⟩
  | 28 => ⟨S100000x1, .f32⟩
  | 29 => ⟨S_, .i32⟩
  | 30 => ⟨S100000, .i32⟩
  | 31 => ⟨S100000, .i1⟩
  | 32 => ⟨S100000x1, .i1⟩
  | 33 => ⟨S1x256x1, .f32⟩
  | 34 => ⟨S256x1, .f32⟩
  | 35 => ⟨S100000x1, .f32⟩
  | 36 => ⟨S1x1, .f32⟩
  | 37 => ⟨S1, .f32⟩
  | 38 => ⟨S1x1, .f32⟩
  | 39 => ⟨S100000x1, .f32⟩
  | 40 => ⟨S100000x1, .f32⟩
  | 41 => ⟨S_, .f32⟩
  | 42 => ⟨S100000x1, .f32⟩
  | 43 => ⟨S100000x1, .f32⟩
  | 44 => ⟨S100000x1, .f32⟩
  | 45 => ⟨S_, .i32⟩
  | 46 => ⟨S100000, .i32⟩
  | 47 => ⟨S100000, .i1⟩
  | 48 => ⟨S100000x1, .i1⟩
  | 49 => ⟨S1x256x1, .f32⟩
  | 50 => ⟨S256x1, .f32⟩
  | 51 => ⟨S100000x1, .f32⟩
  | 52 => ⟨S1x1, .f32⟩
  | 53 => ⟨S1, .f32⟩
  | 54 => ⟨S1x1, .f32⟩
  | 55 => ⟨S100000x1, .f32⟩
  | 56 => ⟨S100000x1, .f32⟩
  | 57 => ⟨S_, .f32⟩
  | 58 => ⟨S100000x1, .f32⟩
  | 59 => ⟨S100000x1, .f32⟩
  | 60 => ⟨S100000x1, .f32⟩
  | 61 => ⟨S_, .i32⟩
  | 62 => ⟨S100000, .i32⟩
  | 63 => ⟨S100000, .i1⟩
  | 64 => ⟨S100000x1, .i1⟩
  | 65 => ⟨S1x256x1, .f32⟩
  | 66 => ⟨S256x1, .f32⟩
  | 67 => ⟨S100000x1, .f32⟩
  | 68 => ⟨S1x1, .f32⟩
  | 69 => ⟨S1, .f32⟩
  | 70 => ⟨S1x1, .f32⟩
  | 71 => ⟨S100000x1, .f32⟩
  | 72 => ⟨S100000x1, .f32⟩
  | 73 => ⟨S_, .f32⟩
  | 74 => ⟨S100000x1, .f32⟩
  | 75 => ⟨S100000x1, .f32⟩
  | 76 => ⟨S100000x1, .f32⟩
  | 77 => ⟨S_, .i32⟩
  | 78 => ⟨S100000, .i32⟩
  | 79 => ⟨S100000, .i1⟩
  | 80 => ⟨S100000x1, .i1⟩
  | 81 => ⟨S1x256x1, .f32⟩
  | 82 => ⟨S256x1, .f32⟩
  | 83 => ⟨S100000x1, .f32⟩
  | 84 => ⟨S1x1, .f32⟩
  | 85 => ⟨S1, .f32⟩
  | 86 => ⟨S1x1, .f32⟩
  | 87 => ⟨S100000x1, .f32⟩
  | 88 => ⟨S100000x1, .f32⟩
  | 89 => ⟨S_, .f32⟩
  | 90 => ⟨S100000x1, .f32⟩
  | 91 => ⟨S100000x1, .f32⟩
  | 92 => ⟨S100000x1, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_call2_v0 : Ref sig .tc := ⟨.hbm, 55, rfl⟩
abbrev main_call2_v1 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_call3_v0 : Ref sig .tc := ⟨.hbm, 72, rfl⟩
abbrev main_call3_v1 : Ref sig .tc := ⟨.hbm, 73, rfl⟩
abbrev main_v51 : Ref sig .tc := ⟨.hbm, 74, rfl⟩
abbrev main_v52 : Ref sig .tc := ⟨.hbm, 75, rfl⟩
abbrev main_c_7 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_8 : Ref sig .tc := ⟨.hbm, 88, rfl⟩
abbrev main_call4_v0 : Ref sig .tc := ⟨.hbm, 89, rfl⟩
abbrev main_call4_v1 : Ref sig .tc := ⟨.hbm, 90, rfl⟩
abbrev main_v64 : Ref sig .tc := ⟨.hbm, 91, rfl⟩
abbrev main_v65 : Ref sig .tc := ⟨.hbm, 92, rfl⟩
abbrev main_c_9 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_10 : Ref sig .tc := ⟨.hbm, 105, rfl⟩
abbrev main_call5_v0 : Ref sig .tc := ⟨.hbm, 106, rfl⟩
abbrev main_call5_v1 : Ref sig .tc := ⟨.hbm, 107, rfl⟩
abbrev main_v77 : Ref sig .tc := ⟨.hbm, 108, rfl⟩
abbrev main_v78 : Ref sig .tc := ⟨.hbm, 109, rfl⟩
abbrev main_c_11 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_12 : Ref sig .tc := ⟨.hbm, 122, rfl⟩
abbrev main_call6_v0 : Ref sig .tc := ⟨.hbm, 123, rfl⟩
abbrev main_call6_v1 : Ref sig .tc := ⟨.hbm, 124, rfl⟩
abbrev main_v90 : Ref sig .tc := ⟨.hbm, 125, rfl⟩
abbrev main_v91 : Ref sig .tc := ⟨.hbm, 126, rfl⟩
abbrev main_c_13 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_14 : Ref sig .tc := ⟨.hbm, 139, rfl⟩
abbrev main_call7_v0 : Ref sig .tc := ⟨.hbm, 140, rfl⟩
abbrev main_call7_v1 : Ref sig .tc := ⟨.hbm, 141, rfl⟩
abbrev main_v103 : Ref sig .tc := ⟨.hbm, 142, rfl⟩
abbrev main_v104 : Ref sig .tc := ⟨.hbm, 143, rfl⟩
abbrev main_c_15 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_16 : Ref sig .tc := ⟨.hbm, 156, rfl⟩
abbrev main_call8_v0 : Ref sig .tc := ⟨.hbm, 157, rfl⟩
abbrev main_call8_v1 : Ref sig .tc := ⟨.hbm, 158, rfl⟩
abbrev main_v116 : Ref sig .tc := ⟨.hbm, 159, rfl⟩
abbrev main_v117 : Ref sig .tc := ⟨.hbm, 160, rfl⟩
abbrev main_c_17 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_18 : Ref sig .tc := ⟨.hbm, 173, rfl⟩
abbrev main_call9_v0 : Ref sig .tc := ⟨.hbm, 174, rfl⟩
abbrev main_call9_v1 : Ref sig .tc := ⟨.hbm, 175, rfl⟩
abbrev main_v129 : Ref sig .tc := ⟨.hbm, 176, rfl⟩
abbrev main_v130 : Ref sig .tc := ⟨.hbm, 177, rfl⟩
abbrev main_call10_v0 : Ref sig .tc := ⟨.hbm, 178, rfl⟩
abbrev main_call10_v1 : Ref sig .tc := ⟨.hbm, 179, rfl⟩
abbrev main_call10_cst : Ref sig .tc := ⟨.hbm, 180, rfl⟩
abbrev main_call10_v2 : Ref sig .tc := ⟨.hbm, 181, rfl⟩
abbrev main_call10_v3 : Ref sig .tc := ⟨.hbm, 182, rfl⟩
abbrev main_call10_cst_0 : Ref sig .tc := ⟨.hbm, 183, rfl⟩
abbrev main_call10_v4 : Ref sig .tc := ⟨.hbm, 184, rfl⟩
abbrev main_call10_v5 : Ref sig .tc := ⟨.hbm, 185, rfl⟩
abbrev main_v131 : Ref sig .tc := ⟨.hbm, 186, rfl⟩
abbrev main_cst_19 : Ref sig .tc := ⟨.hbm, 187, rfl⟩
abbrev main_v132 : Ref sig .tc := ⟨.hbm, 188, rfl⟩
abbrev main_c_20 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_cst_21 : Ref sig .tc := ⟨.hbm, 201, rfl⟩
abbrev main_call11_v0 : Ref sig .tc := ⟨.hbm, 202, rfl⟩
abbrev main_v144 : Ref sig .tc := ⟨.hbm, 203, rfl⟩
abbrev main_v145 : Ref sig .tc := ⟨.hbm, 204, rfl⟩
abbrev main_c_22 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_cst_23 : Ref sig .tc := ⟨.hbm, 217, rfl⟩
abbrev main_call12_v0 : Ref sig .tc := ⟨.hbm, 218, rfl⟩
abbrev main_v157 : Ref sig .tc := ⟨.hbm, 219, rfl⟩
abbrev main_v158 : Ref sig .tc := ⟨.hbm, 220, rfl⟩
abbrev main_c_24 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_cst_25 : Ref sig .tc := ⟨.hbm, 233, rfl⟩
abbrev main_call13_v0 : Ref sig .tc := ⟨.hbm, 234, rfl⟩
abbrev main_v170 : Ref sig .tc := ⟨.hbm, 235, rfl⟩
abbrev main_v171 : Ref sig .tc := ⟨.hbm, 236, rfl⟩
abbrev main_c_26 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_cst_27 : Ref sig .tc := ⟨.hbm, 249, rfl⟩
abbrev main_call14_v0 : Ref sig .tc := ⟨.hbm, 250, rfl⟩
abbrev main_v183 : Ref sig .tc := ⟨.hbm, 251, rfl⟩
abbrev main_v184 : Ref sig .tc := ⟨.hbm, 252, rfl⟩
abbrev main_c_28 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_cst_29 : Ref sig .tc := ⟨.hbm, 265, rfl⟩
abbrev main_call15_v0 : Ref sig .tc := ⟨.hbm, 266, rfl⟩
abbrev main_v196 : Ref sig .tc := ⟨.hbm, 267, rfl⟩
abbrev main_v197 : Ref sig .tc := ⟨.hbm, 268, rfl⟩
abbrev main_c_30 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_cst_31 : Ref sig .tc := ⟨.hbm, 281, rfl⟩
abbrev main_call16_v0 : Ref sig .tc := ⟨.hbm, 282, rfl⟩
abbrev main_v209 : Ref sig .tc := ⟨.hbm, 283, rfl⟩
abbrev main_v210 : Ref sig .tc := ⟨.hbm, 284, rfl⟩
abbrev main_c_32 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_cst_33 : Ref sig .tc := ⟨.hbm, 297, rfl⟩
abbrev main_call17_v0 : Ref sig .tc := ⟨.hbm, 298, rfl⟩
abbrev main_v222 : Ref sig .tc := ⟨.hbm, 299, rfl⟩
abbrev main_v223 : Ref sig .tc := ⟨.hbm, 300, rfl⟩
abbrev main_c_34 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_cst_35 : Ref sig .tc := ⟨.hbm, 313, rfl⟩
abbrev main_call18_v0 : Ref sig .tc := ⟨.hbm, 314, rfl⟩
abbrev main_v235 : Ref sig .tc := ⟨.hbm, 315, rfl⟩
abbrev main_v236 : Ref sig .tc := ⟨.hbm, 316, rfl⟩
abbrev main_c_36 : Ref sig .tc := ⟨.hbm, 317, rfl⟩
abbrev main_v237 : Ref sig .tc := ⟨.hbm, 318, rfl⟩
abbrev main_v238 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_v244 : Ref sig .tc := ⟨.hbm, 325, rfl⟩
abbrev main_v245 : Ref sig .tc := ⟨.hbm, 326, rfl⟩
abbrev main_v246 : Ref sig .tc := ⟨.hbm, 327, rfl⟩
abbrev main_v247 : Ref sig .tc := ⟨.hbm, 328, rfl⟩
abbrev main_cst_37 : Ref sig .tc := ⟨.hbm, 329, rfl⟩
abbrev main_call19_v0 : Ref sig .tc := ⟨.hbm, 330, rfl⟩
abbrev main_v248 : Ref sig .tc := ⟨.hbm, 331, rfl⟩
abbrev main_v249 : Ref sig .tc := ⟨.hbm, 332, rfl⟩
abbrev main_c_38 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_v255 : Ref sig .tc := ⟨.hbm, 339, rfl⟩
abbrev main_v256 : Ref sig .tc := ⟨.hbm, 340, rfl⟩
abbrev main_v257 : Ref sig .tc := ⟨.hbm, 341, rfl⟩
abbrev main_v258 : Ref sig .tc := ⟨.hbm, 342, rfl⟩
abbrev main_v259 : Ref sig .tc := ⟨.hbm, 343, rfl⟩
abbrev main_v260 : Ref sig .tc := ⟨.hbm, 344, rfl⟩
abbrev main_cst_39 : Ref sig .tc := ⟨.hbm, 345, rfl⟩
abbrev main_call20_v0 : Ref sig .tc := ⟨.hbm, 346, rfl⟩
abbrev main_v261 : Ref sig .tc := ⟨.hbm, 347, rfl⟩
abbrev main_v262 : Ref sig .tc := ⟨.hbm, 348, rfl⟩

abbrev nD : Nat := 1
abbrev τ : Topo := Topo.v7x

variable {F : FTy → Type} [FloatOps F]

class Facts₀ : Prop where
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  slices_S10x256x256_S1x256x256_0_0_0 : S10x256x256.Slices ![0, 0, 0] S1x256x256
  shapeCasts_S1x256x256_S256x256 : S1x256x256.ShapeCasts S256x256
  slices_S10x256_S1x256_0_0 : S10x256.Slices ![0, 0] S1x256
  shapeCasts_S1x256_S256 : S1x256.ShapeCasts S256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S100000x1_S100000x256_0_1 : S100000x1.BroadcastsInDim S100000x256 (![0, 1] : Fin 2 → Fin S100000x256.rank)
  slices_S10x256x256_S1x256x256_1_0_0 : S10x256x256.Slices ![1, 0, 0] S1x256x256
  slices_S10x256_S1x256_1_0 : S10x256.Slices ![1, 0] S1x256
  slices_S10x256x256_S1x256x256_2_0_0 : S10x256x256.Slices ![2, 0, 0] S1x256x256
  slices_S10x256_S1x256_2_0 : S10x256.Slices ![2, 0] S1x256
  slices_S10x256x256_S1x256x256_3_0_0 : S10x256x256.Slices ![3, 0, 0] S1x256x256
  slices_S10x256_S1x256_3_0 : S10x256.Slices ![3, 0] S1x256
  slices_S10x256x256_S1x256x256_4_0_0 : S10x256x256.Slices ![4, 0, 0] S1x256x256
  slices_S10x256_S1x256_4_0 : S10x256.Slices ![4, 0] S1x256
  slices_S10x256x256_S1x256x256_5_0_0 : S10x256x256.Slices ![5, 0, 0] S1x256x256
  slices_S10x256_S1x256_5_0 : S10x256.Slices ![5, 0] S1x256
  slices_S10x256x256_S1x256x256_6_0_0 : S10x256x256.Slices ![6, 0, 0] S1x256x256
  slices_S10x256_S1x256_6_0 : S10x256.Slices ![6, 0] S1x256
  slices_S10x256x256_S1x256x256_7_0_0 : S10x256x256.Slices ![7, 0, 0] S1x256x256
  slices_S10x256_S1x256_7_0 : S10x256.Slices ![7, 0] S1x256
  slices_S10x256x256_S1x256x256_8_0_0 : S10x256x256.Slices ![8, 0, 0] S1x256x256
  slices_S10x256_S1x256_8_0 : S10x256.Slices ![8, 0] S1x256
  slices_S10x256x256_S1x256x256_9_0_0 : S10x256x256.Slices ![9, 0, 0] S1x256x256
  slices_S10x256_S1x256_9_0 : S10x256.Slices ![9, 0] S1x256
  bcast_S_S100000x1 : S_.BroadcastsInDim S100000x1 (![] : Fin 0 → Fin S100000x1.rank)
  slices_S10x256x1_S1x256x1_0_0_0 : S10x256x1.Slices ![0, 0, 0] S1x256x1
  shapeCasts_S1x256x1_S256x1 : S1x256x1.ShapeCasts S256x1
  slices_S10x1_S1x1_0_0 : S10x1.Slices ![0, 0] S1x1
  shapeCasts_S1x1_S1 : S1x1.ShapeCasts S1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  slices_S10x256x1_S1x256x1_1_0_0 : S10x256x1.Slices ![1, 0, 0] S1x256x1
  slices_S10x1_S1x1_1_0 : S10x1.Slices ![1, 0] S1x1
  slices_S10x256x1_S1x256x1_2_0_0 : S10x256x1.Slices ![2, 0, 0] S1x256x1
  slices_S10x1_S1x1_2_0 : S10x1.Slices ![2, 0] S1x1
  slices_S10x256x1_S1x256x1_3_0_0 : S10x256x1.Slices ![3, 0, 0] S1x256x1
  slices_S10x1_S1x1_3_0 : S10x1.Slices ![3, 0] S1x1
  slices_S10x256x1_S1x256x1_4_0_0 : S10x256x1.Slices ![4, 0, 0] S1x256x1
  slices_S10x1_S1x1_4_0 : S10x1.Slices ![4, 0] S1x1
  slices_S10x256x1_S1x256x1_5_0_0 : S10x256x1.Slices ![5, 0, 0] S1x256x1
  slices_S10x1_S1x1_5_0 : S10x1.Slices ![5, 0] S1x1
  slices_S10x256x1_S1x256x1_6_0_0 : S10x256x1.Slices ![6, 0, 0] S1x256x1
  slices_S10x1_S1x1_6_0 : S10x1.Slices ![6, 0] S1x1
  slices_S10x256x1_S1x256x1_7_0_0 : S10x256x1.Slices ![7, 0, 0] S1x256x1
  slices_S10x1_S1x1_7_0 : S10x1.Slices ![7, 0] S1x1
  slices_S10x256x1_S1x256x1_8_0_0 : S10x256x1.Slices ![8, 0, 0] S1x256x1
  slices_S10x1_S1x1_8_0 : S10x1.Slices ![8, 0] S1x1
  slices_S10x256x1_S1x256x1_9_0_0 : S10x256x1.Slices ![9, 0, 0] S1x256x1
  slices_S10x1_S1x1_9_0 : S10x1.Slices ![9, 0] S1x1
  dot_S100000x256_S256x256_S100000x256_1_0_0_1_n_n_wf : DotDims.WF S100000x256 S256x256 S100000x256 [1] [0] [0] [1] [] []
  dot_S100000x256_S256x1_S100000x1_1_0_0_1_n_n_wf : DotDims.WF S100000x256 S256x1 S100000x1 [1] [0] [0] [1] [] []

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.RoutedMlp.lean ====
/-
  A two-layer perceptron whose weights are chosen by an integer species, over the extended reals, for ONE row.

  There are ten experts. Expert e maps a row xr (256 entries) to
      head e (pre e) = (∑ k, silu (pre e k) · W2 e k) + b2 e,     pre e k = (∑ j, xr j · W1 e j k) + b1 e k,
  with silu y = y · logistic y. The row's species word s selects the expert: a term is kept when s equals the
  expert's number and replaced by zero otherwise, and the ten terms are added up from zero (`routed`).

  Two arrangements of the same computation are compared. `out` routes once, at the end: every expert runs both
  layers on the row and the selected result is kept. `outRef` routes twice: the hidden row is the routed sum of
  the ten first layers, the activation is applied to it, and the second layers of that one hidden row are routed
  again. They agree for every species word and every extended-real input (`outRef_eq_out`): a term of the outer
  sum survives only when s is that expert's number, and then the inner routed sum is that expert's first layer,
  because adding the zeros of the other nine terms changes nothing. No distributivity or cancellation is used, so
  no finiteness is needed; when s is none of the ten numbers both sides are zero.
-/
import Idealize.ShloMosaic.PureOps.Ideal
import Idealize.ShloMosaic.PureOps.Ideal.Laws

noncomputable section

namespace Cert.RoutedMlp

open Idealize.ShloMosaic

/-- The masked term: `v` when the species word `s` is `e`, zero otherwise (a select on an integer comparison). -/
def pick (s e : BitVec 32) (v : EReal) : EReal := Scalar.select (IntOp.cmpi .eq s e) v 0

theorem pick_eq (s e : BitVec 32) (v : EReal) : pick s e v = if s = e then v else 0 := by
  unfold pick Scalar.select IntOp.cmpi
  by_cases h : s = e
  · subst h; simp
  · have hb : (s == e) = false := by simpa using h
    simp [hb, h]

/-- A masked term only looks at its value when the mask is true. -/
theorem pick_congr {s e : BitVec 32} {v v' : EReal} (h : s = e → v = v') : pick s e v = pick s e v' := by
  rw [pick_eq, pick_eq]
  by_cases hs : s = e
  · rw [if_pos hs, if_pos hs, h hs]
  · rw [if_neg hs, if_neg hs]

/-- The routed sum: the ten masked terms added up from zero, expert 0 first. -/
def routed (s : BitVec 32) (t : Fin 10 → EReal) : EReal :=
  0 + pick s 0#32 (t 0) + pick s 1#32 (t 1) + pick s 2#32 (t 2) + pick s 3#32 (t 3) + pick s 4#32 (t 4)
    + pick s 5#32 (t 5) + pick s 6#32 (t 6) + pick s 7#32 (t 7) + pick s 8#32 (t 8) + pick s 9#32 (t 9)

/-- Two routed sums agree as soon as their terms agree at the expert the species names (if it names one). -/
theorem routed_congr {s : BitVec 32} {t t' : Fin 10 → EReal}
    (h : ∀ e : Fin 10, s = BitVec.ofNat 32 e.val → t e = t' e) : routed s t = routed s t' := by
  have e0 : pick s 0#32 (t 0) = pick s 0#32 (t' 0) := pick_congr (h 0)
  have e1 : pick s 1#32 (t 1) = pick s 1#32 (t' 1) := pick_congr (h 1)
  have e2 : pick s 2#32 (t 2) = pick s 2#32 (t' 2) := pick_congr (h 2)
  have e3 : pick s 3#32 (t 3) = pick s 3#32 (t' 3) := pick_congr (h 3)
  have e4 : pick s 4#32 (t 4) = pick s 4#32 (t' 4) := pick_congr (h 4)
  have e5 : pick s 5#32 (t 5) = pick s 5#32 (t' 5) := pick_congr (h 5)
  have e6 : pick s 6#32 (t 6) = pick s 6#32 (t' 6) := pick_congr (h 6)
  have e7 : pick s 7#32 (t 7) = pick s 7#32 (t' 7) := pick_congr (h 7)
  have e8 : pick s 8#32 (t 8) = pick s 8#32 (t' 8) := pick_congr (h 8)
  have e9 : pick s 9#32 (t 9) = pick s 9#32 (t' 9) := pick_congr (h 9)
  unfold routed
  rw [e0, e1, e2, e3, e4, e5, e6, e7, e8, e9]

/-- When the species is expert e's number the routed sum is the e-th term: the other nine terms are zero. -/
theorem routed_self (t : Fin 10 → EReal) (e : Fin 10) : routed (BitVec.ofNat 32 e.val) t = t e := by
  fin_cases e <;> simp [routed, pick_eq]

/-- The activation: y · logistic y. -/
def silu (y : EReal) : EReal := y * Ideal.logistic y

/-- Expert e's first layer on the row `xr`, entry k. -/
def pre (xr : Fin 256 → EReal) (W1 : Fin 10 → Fin 256 → Fin 256 → EReal) (b1 : Fin 10 → Fin 256 → EReal)
    (e : Fin 10) (k : Fin 256) : EReal :=
  (∑ j : Fin 256, xr j * W1 e j k) + b1 e k

/-- Expert e's second layer on the hidden row `h`, the activation applied first. -/
def head (W2 : Fin 10 → Fin 256 → EReal) (b2 : Fin 10 → EReal) (e : Fin 10) (h : Fin 256 → EReal) : EReal :=
  (∑ k : Fin 256, silu (h k) * W2 e k) + b2 e

/-- Routing once: every expert's two layers on the row, the species' expert kept. -/
def out (xr : Fin 256 → EReal) (s : BitVec 32) (W1 : Fin 10 → Fin 256 → Fin 256 → EReal) (b1 : Fin 10 → Fin 256 → EReal)
    (W2 : Fin 10 → Fin 256 → EReal) (b2 : Fin 10 → EReal) : EReal :=
  routed s fun e => head W2 b2 e (pre xr W1 b1 e)

/-- Routing twice: the routed hidden row, then the routed second layers of it. -/
def outRef (xr : Fin 256 → EReal) (s : BitVec 32) (W1 : Fin 10 → Fin 256 → Fin 256 → EReal) (b1 : Fin 10 → Fin 256 → EReal)
    (W2 : Fin 10 → Fin 256 → EReal) (b2 : Fin 10 → EReal) : EReal :=
  routed s fun e => head W2 b2 e fun k => routed s fun e' => pre xr W1 b1 e' k

/-- The two arrangements agree, for every species word and all extended-real inputs. -/
theorem outRef_eq_out (xr : Fin 256 → EReal) (s : BitVec 32) (W1 : Fin 10 → Fin 256 → Fin 256 → EReal)
    (b1 : Fin 10 → Fin 256 → EReal) (W2 : Fin 10 → Fin 256 → EReal) (b2 : Fin 10 → EReal) :
    outRef xr s W1 b1 W2 b2 = out xr s W1 b1 W2 b2 := by
  unfold outRef out
  refine routed_congr fun e he => ?_
  refine congrArg (head W2 b2 e) (funext fun k => ?_)
  rw [he]
  exact routed_self (fun e' => pre xr W1 b1 e' k) e

end Cert.RoutedMlp

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.LibTileMask.lean ====
import Idealize.ShloMosaic.Lib.ValueIdx
import Idealize.ShloMosaic.Lib.ValueLayout
import Idealize.ShloMosaic.Lib.Pipeline.Value
noncomputable section
namespace Cert.TileMask
open Idealize.ShloMosaic Idealize.ShloMosaic.ValueIdx

/-- A natural number below 2^31, written as a 32-bit word and read back signed, is itself. -/
private theorem toInt_ofNat_small (m : ℕ) (h : m < 2 ^ 31) : (BitVec.ofNat 32 m).toInt = (m : ℤ) := by
  have hm : m % 2 ^ 32 = m := Nat.mod_eq_of_lt (by omega)
  rw [BitVec.toInt_eq_toNat_cond, BitVec.toNat_ofNat, hm]
  split
  · rfl
  · omega

/-- In tile v of width W, the test "global column v·W + j is below n" (a signed 32-bit comparison of v·W + iota against n, all below 2^31) reads 1 exactly when v·W + j < n. -/
theorem col_lt_apply {a b : ℕ} (hio : (⟨2, ![a, b]⟩ : Shape).Iotas .tc 32 [(1 : Fin 2)]) (v W n : ℕ)
    (hv : v * W + b < 2 ^ 31) (hn : n < 2 ^ 31) (p : Fin a) (j : Fin b) :
    cmpi .slt (addi (broadcast ⟨2, ![a, b]⟩ (Scalar.muli (BitVec.ofNat 32 v) (BitVec.ofNat 32 W))) (iota .tc ⟨2, ![a, b]⟩ 32 [1] hio))
        (broadcast ⟨2, ![a, b]⟩ (BitVec.ofNat 32 n)) (ix2 p j)
      = if v * W + j.val < n then 1#1 else 0#1 := by
  have hj := j.isLt
  -- at the index (p, j) the comparison is the signed comparison of the words v·W + (iota at (p, j)) and n
  show IntOp.cmpi .slt (IntOp.addi (Scalar.muli (BitVec.ofNat 32 v) (BitVec.ofNat 32 W))
      (iota .tc ⟨2, ![a, b]⟩ 32 [1] hio (ix2 p j))) (BitVec.ofNat 32 n) = _
  -- the iota along axis 1 reads the column coordinate j
  rw [iota_single_apply]
  show BitVec.ofBool ((BitVec.ofNat 32 v * BitVec.ofNat 32 W + BitVec.ofNat 32 j.val).slt (BitVec.ofNat 32 n)) = _
  -- the word arithmetic is the arithmetic of naturals, and both sides read signed are the naturals themselves
  rw [← BitVec.ofNat_mul, ← BitVec.ofNat_add, BitVec.slt, toInt_ofNat_small _ (by omega), toInt_ofNat_small _ hn]
  by_cases h : v * W + j.val < n
  · have h' : ((v * W + j.val : ℕ) : ℤ) < (n : ℤ) := by exact_mod_cast h
    rw [if_pos h, decide_eq_true h']
    rfl
  · have h' : ¬ ((v * W + j.val : ℕ) : ℤ) < (n : ℤ) := by exact_mod_cast h
    rw [if_neg h, decide_eq_false h']
    rfl

/-- A vector [b] cast to a row [1, b] and spread down the rows to [a, b] reads, at (p, j), the vector's entry j. -/
theorem row_bcast_apply {α : Type} {a b : ℕ} (x : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (j : Fin b) :
    broadcastTo ⟨2, ![a, b]⟩ (shapeCast ⟨2, ![1, b]⟩ x hc) hb (ix2 p j) = x (ix1 j) := by
  rw [broadcastTo_1b_ab_apply, shapeCast_a_1a_apply]

/-- The column test at 1008 rows, tiles of 4096 columns, fewer than 13 tiles and 50257 columns in all. -/
example (v : ℕ) (hv : v < 13) (p : Fin 1008) (j : Fin 4096) :
    cmpi .slt (addi (broadcast ⟨2, ![1008, 4096]⟩ (Scalar.muli (BitVec.ofNat 32 v) 4096#32))
        (iota .tc ⟨2, ![1008, 4096]⟩ 32 [1] (by decide))) (broadcast ⟨2, ![1008, 4096]⟩ 50257#32) (ix2 p j)
      = if v * 4096 + j.val < 50257 then 1#1 else 0#1 :=
  col_lt_apply (by decide) v 4096 50257 (by omega) (by norm_num) p j

end Cert.TileMask
end
-- ==== Proof.KernelRow.lean ====
/-
  One row of the idealized kernel's output block.

  The body works on a tile of 2000 atoms: the tile's features x0 ([2000, 256]), its species words x1 ([2000, 1]) and the
  whole weight arrays. For each of the ten experts it forms, for every row of the tile at once,
      (∑ k, silu ((∑ j, x0(p,j) · W1(e,j,k)) + b1(e,k)) · W2(e,k,0)) + b2(e,0)
  (two matrix products into zero accumulators, each followed by its bias spread down the rows, with the activation
  y · logistic y in between; the changes of float format are the identity on extended reals), keeps it where the row's
  species word is e and puts zero elsewhere, and adds the ten kept terms up from zero. The block is stored whole.

  `tileOut` is one expert's term for the tile and `keep` one masked accumulation; the stored value is ten `keep`s
  (`stored_eq_steps`, by unfolding the body's named values). Read at row p (`tileOut_apply`, `keep_apply`) they are the
  specification's `head` of `pre` and its `pick`, so row p of the block is `RoutedMlp.out` of row p of the tile
  (`row_fact`). Expert e's slices of the weight arrays are loads at offset e along the leading axis (`ld_w1` …).
-/
import proofs.«129769_j56959856280416_1_alg».proof.Proof.Gen.KernelIdeal.Frame
import proofs.«129769_j56959856280416_1_alg».proof.Proof.RoutedMlp
import proofs.«129769_j56959856280416_1_alg».proof.Proof.LibDenseLayer
import proofs.«129769_j56959856280416_1_alg».proof.Proof.LibTileMask
import Idealize.ShloMosaic.Lib.ValueIdx
import Idealize.ShloMosaic.Lib.ValueLayout
import Idealize.ShloMosaic.Lib.Pipeline.Value
import Idealize.ShloMosaic.PureOps.Ideal.Laws

noncomputable section

namespace Cert.KernelRow

open Cert.KernelIdeal Cert.KernelIdeal.Gen
open Idealize.ShloMosaic Idealize.ShloMosaic.ValueIdx

variable {F : FTy → Type} [FloatOps F]

/-! ## The body's two building blocks, at any float instance -/

/-- One expert's term for the whole tile: the second layer of the activated first layer. `xb` is the tile's features,
    `W`, `b` the expert's first-layer weights and bias, `W2`, `b2` its second-layer ones. -/
def expertOut (xb : FVec F S2000x256 .bf16) (W : FVec F S256x256 .bf16) (b : FVec F S256 .f32) (W2 : FVec F S256x1 .bf16)
    (b2 : FVec F S1 .f32) : FVec F S2000x1 .f32 :=
  addf (matmul dot_S2000x256_S256x1_S2000x1_1_0_0_1_n_n none
      (truncf .bf16
        (mulf
          (addf (matmul dot_S2000x256_S256x256_S2000x256_1_0_0_1_n_n none xb W (constant S2000x256 .f32 0x00000000#32))
            (broadcastTo S2000x256 (shapeCast S1x256 b shapeCasts_S256_S1x256) broadcasts_S1x256_S2000x256))
          (logistic
            (addf (matmul dot_S2000x256_S256x256_S2000x256_1_0_0_1_n_n none xb W (constant S2000x256 .f32 0x00000000#32))
              (broadcastTo S2000x256 (shapeCast S1x256 b shapeCasts_S256_S1x256) broadcasts_S1x256_S2000x256))))
        bitsLt_bf16_f32)
      W2 (constant S2000x1 .f32 0x00000000#32))
    (broadcastTo S2000x1 (shapeCast S1x1 b2 shapeCasts_S1_S1x1) broadcasts_S1x1_S2000x1)

/-- The same from the loaded slices, which carry a leading axis of size one. -/
def tileOut (x0 : Vec F S2000x256 .f32) (B2 : Vec F S1x256x256 .bf16) (B3 : Vec F S1x256 .f32) (B4 : Vec F S1x256x1 .bf16)
    (B5 : Vec F S1x1 .f32) : FVec F S2000x1 .f32 :=
  expertOut (truncf .bf16 (View.ld x0 r0_0) bitsLt_bf16_f32) (shapeCast S256x256 B2 shapeCasts_S1x256x256_S256x256)
    (shapeCast S256 B3 shapeCasts_S1x256_S256) (shapeCast S256x1 B4 shapeCasts_S1x256x1_S256x1) (shapeCast S1 B5 shapeCasts_S1x1_S1)

/-- The tile's species words as loaded. -/
def species (x1 : Vec F S2000x1 .i32) : IVec S2000x1 32 := shapeCast S2000x1 (View.ld x1 r0_1) shapeCasts_S2000x1_S2000x1

/-- One masked accumulation: `acc` plus `o` where the species word is `e`, plus zero elsewhere. -/
def keep (sp : IVec S2000x1 32) (e : BitVec 32) (acc o : FVec F S2000x1 .f32) : FVec F S2000x1 .f32 :=
  addf acc (select (cmpi .eq sp (broadcast S2000x1 e)) o (broadcast S2000x1 (Scalar.ofBits .f32 0x00000000#32)))

/-- What the body stores is the ten masked accumulations from zero, expert 0 first. -/
theorem stored_eq_steps (x0 : Vec Ideal S2000x256 .f32) (x1 : Vec Ideal S2000x1 .i32) (x2 : Vec Ideal S10x256x256 .bf16)
    (x3 : Vec Ideal S10x256 .f32) (x4 : Vec Ideal S10x256x1 .bf16) (x5 : Vec Ideal S10x1 .f32) :
    out0_6 (F := Ideal) x0 x1 x2 x3 x4 x5 =
      (keep (species x1) 9#32 (keep (species x1) 8#32 (keep (species x1) 7#32 (keep (species x1) 6#32 (keep (species x1) 5#32 (keep (species x1) 4#32 (keep (species x1) 3#32 (keep (species x1) 2#32 (keep (species x1) 1#32 (keep (species x1) 0#32 (broadcast S2000x1 (Scalar.ofBits .f32 0x00000000#32))
      (tileOut x0 (View.ld x2 r0_2) (View.ld x3 r0_3) (View.ld x4 r0_4) (View.ld x5 r0_5)))
      (tileOut x0 (View.ld x2 r0_6) (View.ld x3 r0_7) (View.ld x4 r0_8) (View.ld x5 r0_9)))
      (tileOut x0 (View.ld x2 r0_10) (View.ld x3 r0_11) (View.ld x4 r0_12) (View.ld x5 r0_13)))
      (tileOut x0 (View.ld x2 r0_14) (View.ld x3 r0_15) (View.ld x4 r0_16) (View.ld x5 r0_17)))
      (tileOut x0 (View.ld x2 r0_18) (View.ld x3 r0_19) (View.ld x4 r0_20) (View.ld x5 r0_21)))
      (tileOut x0 (View.ld x2 r0_22) (View.ld x3 r0_23) (View.ld x4 r0_24) (View.ld x5 r0_25)))
      (tileOut x0 (View.ld x2 r0_26) (View.ld x3 r0_27) (View.ld x4 r0_28) (View.ld x5 r0_29)))
      (tileOut x0 (View.ld x2 r0_30) (View.ld x3 r0_31) (View.ld x4 r0_32) (View.ld x5 r0_33)))
      (tileOut x0 (View.ld x2 r0_34) (View.ld x3 r0_35) (View.ld x4 r0_36) (View.ld x5 r0_37)))
      (tileOut x0 (View.ld x2 r0_38) (View.ld x3 r0_39) (View.ld x4 r0_40) (View.ld x5 r0_41))) := by
  unfold out0_6
  rw [View.canon_unit_zero (show (![0, 0] : Fin 2 → Nat) = fun _ => 0 from funext fun a => by
    match a with | ⟨0, _⟩ => rfl | ⟨1, _⟩ => rfl)]
  rfl

/-! ## The two matrix products' index maps -/

theorem d1_l0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
theorem d1_l1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem d1_r0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem d1_r1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

theorem d2_l0 (i : S2000x1.Idx) (q : dot_S2000x256_S256x1_S2000x1_1_0_0_1_n_n.contr.Idx) : (dot_S2000x256_S256x1_S2000x1_1_0_0_1_n_n.lhsIdx i q 0).val = (i 0).val := by
  unfold DotDims.lhsIdx
  rw [dif_neg (show ¬(0 : Fin S2000x256.rank) ∈ dot_S2000x256_S256x1_S2000x1_1_0_0_1_n_n.lhsBatch by decide),
    dif_pos (show (0 : Fin S2000x256.rank) ∈ dot_S2000x256_S256x1_S2000x1_1_0_0_1_n_n.lhsNonContracting by decide)]
  rfl
theorem d2_l1 (i : S2000x1.Idx) (q : dot_S2000x256_S256x1_S2000x1_1_0_0_1_n_n.contr.Idx) : (dot_S2000x256_S256x1_S2000x1_1_0_0_1_n_n.lhsIdx i q 1).val = (q ⟨0, by decide⟩).val :=
  dot_S2000x256_S256x1_S2000x1_1_0_0_1_n_n.lhsIdx_val_of_single rfl i q
theorem d2_r0 (i : S2000x1.Idx) (q : dot_S2000x256_S256x1_S2000x1_1_0_0_1_n_n.contr.Idx) : (dot_S2000x256_S256x1_S2000x1_1_0_0_1_n_n.rhsIdx i q 0).val = (q ⟨0, by decide⟩).val :=
  dot_S2000x256_S256x1_S2000x1_1_0_0_1_n_n.rhsIdx_val_of_single rfl i q
theorem d2_r1 (i : S2000x1.Idx) (q : dot_S2000x256_S256x1_S2000x1_1_0_0_1_n_n.contr.Idx) : (dot_S2000x256_S256x1_S2000x1_1_0_0_1_n_n.rhsIdx i q 1).val = (i 1).val := by
  unfold DotDims.rhsIdx
  rw [dif_neg (show ¬(1 : Fin S256x1.rank) ∈ dot_S2000x256_S256x1_S2000x1_1_0_0_1_n_n.rhsBatch by decide),
    dif_pos (show (1 : Fin S256x1.rank) ∈ dot_S2000x256_S256x1_S2000x1_1_0_0_1_n_n.rhsNonContracting by decide)]
  rfl

/-! ## Read at a row, on the extended reals -/

/-- The first layer before the activation, at (p, k): row p of the features against column k of the weights, plus the bias. -/
theorem hidden_apply (xb : FVec Ideal S2000x256 .bf16) (W : FVec Ideal S256x256 .bf16) (b : FVec Ideal S256 .f32) (p : Fin 2000) (k : Fin 256) :
    addf (matmul dot_S2000x256_S256x256_S2000x256_1_0_0_1_n_n none xb W (constant S2000x256 .f32 0x00000000#32))
        (broadcastTo S2000x256 (shapeCast S1x256 b shapeCasts_S256_S1x256) broadcasts_S1x256_S2000x256) (ix2 p k)
      = (∑ j : Fin 256, xb (ix2 p j) * W (ix2 j k)) + b (ix1 k) := by
  rw [addf_apply]
  refine congr (congrArg _ ?_) ?_
  · exact Cert.DenseLayer.matmul_rows_cols dot_S2000x256_S256x256_S2000x256_1_0_0_1_n_n rfl rfl d1_l0 d1_l1 d1_r0 d1_r1 none xb W p k
  · exact Cert.TileMask.row_bcast_apply b shapeCasts_S256_S1x256 broadcasts_S1x256_S2000x256 p k

/-- One expert's term at row p. -/
theorem expertOut_apply (xb : FVec Ideal S2000x256 .bf16) (W : FVec Ideal S256x256 .bf16) (b : FVec Ideal S256 .f32)
    (W2 : FVec Ideal S256x1 .bf16) (b2 : FVec Ideal S1 .f32) (p : Fin 2000) :
    expertOut xb W b W2 b2 (ix2 p 0)
      = (∑ k : Fin 256, Cert.RoutedMlp.silu ((∑ j : Fin 256, xb (ix2 p j) * W (ix2 j k)) + b (ix1 k)) * W2 (ix2 k 0)) + b2 (ix1 0) := by
  unfold expertOut
  rw [addf_apply]
  refine congr (congrArg _ ?_) ?_
  · refine (Cert.DenseLayer.matmul_rows_cols dot_S2000x256_S256x1_S2000x1_1_0_0_1_n_n rfl rfl d2_l0 d2_l1 d2_r0 d2_r1 none _ W2 p 0).trans ?_
    refine Finset.sum_congr rfl fun k _ => ?_
    refine congrArg (· * W2 (ix2 k 0)) ?_
    rw [truncf_apply, mulf_apply]
    show _ * Ideal.logistic _ = _
    rw [hidden_apply]
    rfl
  · exact Cert.TileMask.row_bcast_apply b2 shapeCasts_S1_S1x1 broadcasts_S1x1_S2000x1 p 0

/-- One masked accumulation at an index. -/
theorem keep_apply (sp : IVec S2000x1 32) (e : BitVec 32) (acc o : FVec Ideal S2000x1 .f32) (i : S2000x1.Idx) :
    keep sp e acc o i = acc i + Cert.RoutedMlp.pick (sp i) e (o i) := by
  unfold keep Cert.RoutedMlp.pick
  show acc i + Scalar.select (IntOp.cmpi .eq (sp i) e) (o i) (Ideal.ofBits .f32 0x00000000#32) = _
  rw [Ideal.ofBits_zero_f32]

/-! ## Expert e's slices: loads at offset e along the leading axis -/

theorem ld_w1 {Val : EltTy → Type} {e' : EltTy} (x : S10x256x256.Idx → Val e') (off : Fin 3 → Nat) (inb : ∀ a, off a + S1x256x256.size a ≤ S10x256x256.size a)
    (e : Fin 10) (h0 : off 0 = e.val) (h1 : off 1 = 0) (h2 : off 2 = 0) (j k : Fin 256) :
    View.ld x (Rect.unit (s := S10x256x256) off S1x256x256.size inb) (ix3 0 j k) = x (ix3 e j k) := by
  show x _ = x _
  refine congrArg x (funext fun a => Fin.ext ?_)
  match a with
  | ⟨0, _⟩ => show off 0 + 1 * 0 = e.val; omega
  | ⟨1, _⟩ => show off 1 + 1 * j.val = j.val; omega
  | ⟨2, _⟩ => show off 2 + 1 * k.val = k.val; omega

theorem ld_b1 {Val : EltTy → Type} {e' : EltTy} (x : S10x256.Idx → Val e') (off : Fin 2 → Nat) (inb : ∀ a, off a + S1x256.size a ≤ S10x256.size a)
    (e : Fin 10) (h0 : off 0 = e.val) (h1 : off 1 = 0) (k : Fin 256) :
    View.ld x (Rect.unit (s := S10x256) off S1x256.size inb) (ix2 0 k) = x (ix2 e k) := by
  show x _ = x _
  refine congrArg x (funext fun a => Fin.ext ?_)
  match a with
  | ⟨0, _⟩ => show off 0 + 1 * 0 = e.val; omega
  | ⟨1, _⟩ => show off 1 + 1 * k.val = k.val; omega

theorem ld_w2 {Val : EltTy → Type} {e' : EltTy} (x : S10x256x1.Idx → Val e') (off : Fin 3 → Nat) (inb : ∀ a, off a + S1x256x1.size a ≤ S10x256x1.size a)
    (e : Fin 10) (h0 : off 0 = e.val) (h1 : off 1 = 0) (h2 : off 2 = 0) (k : Fin 256) :
    View.ld x (Rect.unit (s := S10x256x1) off S1x256x1.size inb) (ix3 0 k 0) = x (ix3 e k 0) := by
  show x _ = x _
  refine congrArg x (funext fun a => Fin.ext ?_)
  match a with
  | ⟨0, _⟩ => show off 0 + 1 * 0 = e.val; omega
  | ⟨1, _⟩ => show off 1 + 1 * k.val = k.val; omega
  | ⟨2, _⟩ => show off 2 + 1 * 0 = 0; omega

theorem ld_b2 {Val : EltTy → Type} {e' : EltTy} (x : S10x1.Idx → Val e') (off : Fin 2 → Nat) (inb : ∀ a, off a + S1x1.size a ≤ S10x1.size a)
    (e : Fin 10) (h0 : off 0 = e.val) (h1 : off 1 = 0) :
    View.ld x (Rect.unit (s := S10x1) off S1x1.size inb) (ix2 0 0) = x (ix2 e 0) := by
  show x _ = x _
  refine congrArg x (funext fun a => Fin.ext ?_)
  match a with
  | ⟨0, _⟩ => show off 0 + 1 * 0 = e.val; omega
  | ⟨1, _⟩ => show off 1 + 1 * 0 = 0; omega

/-- Expert e's term at row p, from slices that are expert e's rows of the weight arrays: the specification's second
    layer of its first layer, on row p of the tile. -/
theorem tileOut_apply (x0 : Vec Ideal S2000x256 .f32) (x2 : Vec Ideal S10x256x256 .bf16) (x3 : Vec Ideal S10x256 .f32)
    (x4 : Vec Ideal S10x256x1 .bf16) (x5 : Vec Ideal S10x1 .f32) (e : Fin 10)
    (B2 : Vec Ideal S1x256x256 .bf16) (B3 : Vec Ideal S1x256 .f32) (B4 : Vec Ideal S1x256x1 .bf16) (B5 : Vec Ideal S1x1 .f32)
    (h2 : ∀ j k : Fin 256, B2 (ix3 0 j k) = x2 (ix3 e j k)) (h3 : ∀ k : Fin 256, B3 (ix2 0 k) = x3 (ix2 e k))
    (h4 : ∀ k : Fin 256, B4 (ix3 0 k 0) = x4 (ix3 e k 0)) (h5 : B5 (ix2 0 0) = x5 (ix2 e 0)) (p : Fin 2000) :
    tileOut x0 B2 B3 B4 B5 (ix2 p 0)
      = Cert.RoutedMlp.head (fun e k => x4 (ix3 e k 0)) (fun e => x5 (ix2 e 0)) e
          (Cert.RoutedMlp.pre (fun j => x0 (ix2 p j)) (fun e j k => x2 (ix3 e j k)) (fun e k => x3 (ix2 e k)) e) := by
  unfold tileOut Cert.RoutedMlp.head Cert.RoutedMlp.pre
  rw [expertOut_apply]
  have hx : ∀ j : Fin 256, (truncf .bf16 (View.ld x0 r0_0) bitsLt_bf16_f32 : FVec Ideal S2000x256 .bf16) (ix2 p j) = x0 (ix2 p j) := fun j => by
    rw [truncf_apply, View.ld_unit_zero (show (![0, 0] : Fin 2 → Nat) = fun _ => 0 from funext fun a => by
      match a with | ⟨0, _⟩ => rfl | ⟨1, _⟩ => rfl)]
  have hW : ∀ j k : Fin 256, shapeCast S256x256 B2 shapeCasts_S1x256x256_S256x256 (ix2 j k) = x2 (ix3 e j k) := fun j k => by
    rw [shapeCast_1ab_ab_apply]; exact h2 j k
  have hb : ∀ k : Fin 256, shapeCast S256 B3 shapeCasts_S1x256_S256 (ix1 k) = x3 (ix2 e k) := fun k => by
    rw [shapeCast_1a_a_apply]; exact h3 k
  have hW2 : ∀ k : Fin 256, shapeCast S256x1 B4 shapeCasts_S1x256x1_S256x1 (ix2 k 0) = x4 (ix3 e k 0) := fun k => by
    rw [shapeCast_1ab_ab_apply]; exact h4 k
  have hb2 : shapeCast S1 B5 shapeCasts_S1x1_S1 (ix1 0) = x5 (ix2 e 0) := by
    rw [shapeCast_1a_a_apply]; exact h5
  simp only [hx, hW, hb, hW2, hb2]

/-! ## Row p of the stored block -/

/-- Row p of what the body stores is the routed two-layer perceptron of row p of the tile. -/
theorem row_fact (x0 : Vec Ideal S2000x256 .f32) (x1 : Vec Ideal S2000x1 .i32) (x2 : Vec Ideal S10x256x256 .bf16)
    (x3 : Vec Ideal S10x256 .f32) (x4 : Vec Ideal S10x256x1 .bf16) (x5 : Vec Ideal S10x1 .f32) (p : Fin 2000) :
    out0_6 (F := Ideal) x0 x1 x2 x3 x4 x5 (ix2 p 0)
      = Cert.RoutedMlp.out (fun j => x0 (ix2 p j)) (x1 (ix2 p 0)) (fun e j k => x2 (ix3 e j k)) (fun e k => x3 (ix2 e k))
          (fun e k => x4 (ix3 e k 0)) (fun e => x5 (ix2 e 0)) := by
  have hz : (![0, 0] : Fin 2 → Nat) = fun _ => 0 := funext fun a => by
    match a with | ⟨0, _⟩ => rfl | ⟨1, _⟩ => rfl
  have hs : species x1 (ix2 p 0) = x1 (ix2 p 0) :=
    (congrFun (shapeCast_self (s := S2000x1) (View.ld x1 r0_1) shapeCasts_S2000x1_S2000x1) (ix2 p 0)).trans
      (congrFun (View.ld_unit_zero (S := S2000x1) hz _ x1) (ix2 p 0))
  have t0 := tileOut_apply x0 x2 x3 x4 x5 0 (View.ld x2 r0_2) (View.ld x3 r0_3) (View.ld x4 r0_4) (View.ld x5 r0_5)
    (fun j k => ld_w1 x2 _ _ 0 rfl rfl rfl j k) (fun k => ld_b1 x3 _ _ 0 rfl rfl k) (fun k => ld_w2 x4 _ _ 0 rfl rfl rfl k) (ld_b2 x5 _ _ 0 rfl rfl) p
  have t1 := tileOut_apply x0 x2 x3 x4 x5 1 (View.ld x2 r0_6) (View.ld x3 r0_7) (View.ld x4 r0_8) (View.ld x5 r0_9)
    (fun j k => ld_w1 x2 _ _ 1 rfl rfl rfl j k) (fun k => ld_b1 x3 _ _ 1 rfl rfl k) (fun k => ld_w2 x4 _ _ 1 rfl rfl rfl k) (ld_b2 x5 _ _ 1 rfl rfl) p
  have t2 := tileOut_apply x0 x2 x3 x4 x5 2 (View.ld x2 r0_10) (View.ld x3 r0_11) (View.ld x4 r0_12) (View.ld x5 r0_13)
    (fun j k => ld_w1 x2 _ _ 2 rfl rfl rfl j k) (fun k => ld_b1 x3 _ _ 2 rfl rfl k) (fun k => ld_w2 x4 _ _ 2 rfl rfl rfl k) (ld_b2 x5 _ _ 2 rfl rfl) p
  have t3 := tileOut_apply x0 x2 x3 x4 x5 3 (View.ld x2 r0_14) (View.ld x3 r0_15) (View.ld x4 r0_16) (View.ld x5 r0_17)
    (fun j k => ld_w1 x2 _ _ 3 rfl rfl rfl j k) (fun k => ld_b1 x3 _ _ 3 rfl rfl k) (fun k => ld_w2 x4 _ _ 3 rfl rfl rfl k) (ld_b2 x5 _ _ 3 rfl rfl) p
  have t4 := tileOut_apply x0 x2 x3 x4 x5 4 (View.ld x2 r0_18) (View.ld x3 r0_19) (View.ld x4 r0_20) (View.ld x5 r0_21)
    (fun j k => ld_w1 x2 _ _ 4 rfl rfl rfl j k) (fun k => ld_b1 x3 _ _ 4 rfl rfl k) (fun k => ld_w2 x4 _ _ 4 rfl rfl rfl k) (ld_b2 x5 _ _ 4 rfl rfl) p
  have t5 := tileOut_apply x0 x2 x3 x4 x5 5 (View.ld x2 r0_22) (View.ld x3 r0_23) (View.ld x4 r0_24) (View.ld x5 r0_25)
    (fun j k => ld_w1 x2 _ _ 5 rfl rfl rfl j k) (fun k => ld_b1 x3 _ _ 5 rfl rfl k) (fun k => ld_w2 x4 _ _ 5 rfl rfl rfl k) (ld_b2 x5 _ _ 5 rfl rfl) p
  have t6 := tileOut_apply x0 x2 x3 x4 x5 6 (View.ld x2 r0_26) (View.ld x3 r0_27) (View.ld x4 r0_28) (View.ld x5 r0_29)
    (fun j k => ld_w1 x2 _ _ 6 rfl rfl rfl j k) (fun k => ld_b1 x3 _ _ 6 rfl rfl k) (fun k => ld_w2 x4 _ _ 6 rfl rfl rfl k) (ld_b2 x5 _ _ 6 rfl rfl) p
  have t7 := tileOut_apply x0 x2 x3 x4 x5 7 (View.ld x2 r0_30) (View.ld x3 r0_31) (View.ld x4 r0_32) (View.ld x5 r0_33)
    (fun j k => ld_w1 x2 _ _ 7 rfl rfl rfl j k) (fun k => ld_b1 x3 _ _ 7 rfl rfl k) (fun k => ld_w2 x4 _ _ 7 rfl rfl rfl k) (ld_b2 x5 _ _ 7 rfl rfl) p
  have t8 := tileOut_apply x0 x2 x3 x4 x5 8 (View.ld x2 r0_34) (View.ld x3 r0_35) (View.ld x4 r0_36) (View.ld x5 r0_37)
    (fun j k => ld_w1 x2 _ _ 8 rfl rfl rfl j k) (fun k => ld_b1 x3 _ _ 8 rfl rfl k) (fun k => ld_w2 x4 _ _ 8 rfl rfl rfl k) (ld_b2 x5 _ _ 8 rfl rfl) p
  have t9 := tileOut_apply x0 x2 x3 x4 x5 9 (View.ld x2 r0_38) (View.ld x3 r0_39) (View.ld x4 r0_40) (View.ld x5 r0_41)
    (fun j k => ld_w1 x2 _ _ 9 rfl rfl rfl j k) (fun k => ld_b1 x3 _ _ 9 rfl rfl k) (fun k => ld_w2 x4 _ _ 9 rfl rfl rfl k) (ld_b2 x5 _ _ 9 rfl rfl) p
  rw [stored_eq_steps]
  simp only [keep_apply, hs, t0, t1, t2, t3, t4, t5, t6, t7, t8, t9]
  unfold Cert.RoutedMlp.out Cert.RoutedMlp.routed
  rw [broadcast_apply]
  show Ideal.ofBits .f32 0x00000000#32 + _ + _ + _ + _ + _ + _ + _ + _ + _ + _ = _
  rw [Ideal.ofBits_zero_f32]

end Cert.KernelRow

end
-- ==== Proof.KernelArray.lean ====
/-
  From blocks to the array, for the idealized kernel.

  The kernel runs over fifty row blocks of 2000 atoms. At block t it reads rows 2000·t … 2000·t + 1999 of the
  feature array and of the species column, and the four weight arrays whole; it writes rows 2000·t … 2000·t + 1999
  of the result column. The species column is the species vector laid out as one column (row r of the column is
  entry r of the vector), and the two weight arrays that pass through a format change are, over the extended reals,
  the argument arrays themselves.

  Given what the body leaves at one row of its block (`RowFact`: the routed two-layer perceptron of that row of the
  block), row r of the result array is therefore the routed perceptron of row r of the ARGUMENT arrays: row r lies
  in block r / 2000 at position r % 2000, and the fifty blocks cover the 100000 rows.
-/
import proofs.«129769_j56959856280416_1_alg».proof.Proof.Gen.KernelIdeal.Value
import proofs.«129769_j56959856280416_1_alg».proof.Proof.RoutedMlp
import Idealize.ShloMosaic.Lib.ValueIdx
import Idealize.ShloMosaic.Lib.Pipeline.Value

noncomputable section

namespace Cert.KernelArray

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- What the body leaves at row p of its block: the routed perceptron of row p of the feature block at the species
    word of row p, with the weight blocks' entries. A hypothesis here; it is proved from the body's operations. -/
def RowFact : Prop := ∀ (x0 : Vec Ideal S2000x256 .f32) (x1 : Vec Ideal S2000x1 .i32) (x2 : Vec Ideal S10x256x256 .bf16) (x3 : Vec Ideal S10x256 .f32)
    (x4 : Vec Ideal S10x256x1 .bf16) (x5 : Vec Ideal S10x1 .f32) (p : Fin 2000),
    out0_6 (F := Ideal) x0 x1 x2 x3 x4 x5 (ix2 p 0)
      = Cert.RoutedMlp.out (fun j => x0 (ix2 p j)) (x1 (ix2 p 0)) (fun e j k => x2 (ix3 e j k)) (fun e k => x3 (ix2 e k)) (fun e k => x4 (ix3 e k 0)) (fun e => x5 (ix2 e 0))

/-- The result column as one function of the six argument arrays: row r is the routed perceptron of row r of the
    features at entry r of the species vector. -/
def column (A0 : S100000x256.Idx → EReal) (A1 : S100000.Idx → BitVec 32) (A2 : S10x256x256.Idx → EReal) (A3 : S10x256.Idx → EReal)
    (A4 : S10x256x1.Idx → EReal) (A5 : S10x1.Idx → EReal) : S100000x1.Idx → EReal :=
  fun i => Cert.RoutedMlp.out (fun j => A0 (ix2 (i 0) j)) (A1 (ix1 (i 0))) (fun e j k => A2 (ix3 e j k)) (fun e k => A3 (ix2 e k))
    (fun e k => A4 (ix3 e k 0)) (fun e => A5 (ix2 e 0))

/-! ## One row of one block -/

/-- A row of the result block is the routed perceptron of the matching row of the arrays, as soon as the feature
    block's row and the species block's entry are the arrays' at that row and the weight blocks are the weight arrays. -/
theorem block_row (hrow : RowFact) (x0 : Vec Ideal S2000x256 .f32) (x1 : Vec Ideal S2000x1 .i32) (x2 : Vec Ideal S10x256x256 .bf16)
    (x3 : Vec Ideal S10x256 .f32) (x4 : Vec Ideal S10x256x1 .bf16) (x5 : Vec Ideal S10x1 .f32)
    (A0 : S100000x256.Idx → EReal) (A1 : S100000.Idx → BitVec 32) (A2 : S10x256x256.Idx → EReal) (A3 : S10x256.Idx → EReal)
    (A4 : S10x256x1.Idx → EReal) (A5 : S10x1.Idx → EReal) (j : S2000x1.Idx) (i : S100000x1.Idx)
    (h0 : ∀ q : Fin 256, x0 (ix2 (j 0) q) = A0 (ix2 (i 0) q)) (h1 : x1 (ix2 (j 0) 0) = A1 (ix1 (i 0)))
    (h2 : ∀ (e : Fin 10) (a b : Fin 256), x2 (ix3 e a b) = A2 (ix3 e a b)) (h3 : ∀ (e : Fin 10) (k : Fin 256), x3 (ix2 e k) = A3 (ix2 e k))
    (h4 : ∀ (e : Fin 10) (k : Fin 256), x4 (ix3 e k 0) = A4 (ix3 e k 0)) (h5 : ∀ e : Fin 10, x5 (ix2 e 0) = A5 (ix2 e 0)) :
    out0_6 (F := Ideal) x0 x1 x2 x3 x4 x5 j = column A0 A1 A2 A3 A4 A5 i := by
  obtain ⟨p, rfl⟩ : ∃ p : Fin 2000, j = ix2 p 0 :=
    ⟨j 0, (eq_ix2 j).trans (congrArg (ix2 (j 0)) (Fin.ext (by have := idx2_lt1 j; show (j 1).val = 0; omega)))⟩
  have h0' : ∀ q : Fin 256, x0 (ix2 p q) = A0 (ix2 (i 0) q) := h0
  have h1' : x1 (ix2 p 0) = A1 (ix1 (i 0)) := h1
  rw [hrow]
  unfold column
  simp only [h0', h1', h2, h3, h4, h5]

/-! ## The blocks the fifty points read and write -/

/-- The block indices, decided over the fifty points: the feature, species and result windows sit at row block t,
    the four weight windows at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The arrays the region finds -/

/-- The species column the region finds is the species vector laid out as one column. -/
theorem V_species (c : Dev nD) : (V m c main_v0 : S100000x1.Idx → BitVec 32)
    = shapeCast S100000x1 (m ((c : Thread nD τ).loc main_arg1) : S100000.Idx → BitVec 32) shapeCasts_S100000_S100000x1 := by
  dsimp only [Gen.V, Gen.hostOps0]; after_results; rfl

/-- The first layer's weights the region finds are the argument's: the format change is the identity on extended reals. -/
theorem V_weights1 (c : Dev nD) : (V m c main_v1 : S10x256x256.Idx → EReal)
    = (m ((c : Thread nD τ).loc main_arg2) : S10x256x256.Idx → EReal) := by
  dsimp only [Gen.V, Gen.hostOps0]; after_results; rfl

/-- So are the second layer's weights. -/
theorem V_weights2 (c : Dev nD) : (V m c main_v2 : S10x256x1.Idx → EReal)
    = (m ((c : Thread nD τ).loc main_arg4) : S10x256x1.Idx → EReal) := by
  dsimp only [Gen.V, Gen.hostOps0]; after_results; rfl

/-! ## Each input block, read where the point's block sits -/

/-- Row x of the feature block at point t is row 2000·t + x of the feature array. -/
theorem features_block (c : Dev nD) (t : Fin cfg0.N) (x : S2000x256.Idx) (k : S100000x256.Idx)
    (hk0 : (k 0).val = 2000 * t.val + (x 0).val) (hk1 : (k 1).val = (x 1).val) :
    (iblk m c 0 t : Vec Ideal S2000x256 .f32) x = (m ((c : Thread nD τ).loc main_arg0) : S100000x256.Idx → EReal) k := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 2000 + 1 * (x 0).val = (k 0).val; rw [e0, hk0]; omega
  | ⟨1, _⟩ => show win0_0.index t 1 * 256 + 1 * (x 1).val = (k 1).val; rw [e1, hk1]; omega

/-- Entry x of the species block at point t is entry 2000·t + x of the species vector. -/
theorem species_block (c : Dev nD) (t : Fin cfg0.N) (x : S2000x1.Idx) (k : S100000.Idx)
    (hk : (k 0).val = 2000 * t.val + (x 0).val) :
    (iblk m c 1 t : Vec Ideal S2000x1 .i32) x = (m ((c : Thread nD τ).loc main_arg1) : S100000.Idx → BitVec 32) k := by
  obtain ⟨-, -, e0, e1, -⟩ := idx_facts t
  have hx1 : (x 1).val < 1 := idx2_lt1 x
  unfold iblk
  rw [View.read_apply]
  show V m c main_v0 _ = m (c.tc.loc main_arg1) _
  rw [V_species]
  refine shapeCast_apply _ _ _ k ?_
  rw [Shape.rowMajor_val_one, Shape.rowMajor_val_two]
  show (k 0).val = (win0_1.index t 0 * 2000 + 1 * (x 0).val) * 1 + (win0_1.index t 1 * 1 + 1 * (x 1).val)
  rw [e0, e1, hk]; omega

/-- The first layer's weight block at every point is the whole weight array. -/
theorem weights1_block (c : Dev nD) (t : Fin cfg0.N) (y : S10x256x256.Idx) :
    (iblk m c 2 t : Vec Ideal S10x256x256 .bf16) y = (m ((c : Thread nD τ).loc main_arg2) : S10x256x256.Idx → EReal) y := by
  obtain ⟨-, -, -, -, e0, e1, e2, -⟩ := idx_facts t
  unfold iblk
  rw [View.read_apply]
  show V m c main_v1 _ = m (c.tc.loc main_arg2) _
  rw [V_weights1]
  congr 1
  funext a
  apply Fin.ext
  match a with
  | ⟨0, _⟩ => show win0_2.index t 0 * 10 + 1 * (y 0).val = (y 0).val; rw [e0]; omega
  | ⟨1, _⟩ => show win0_2.index t 1 * 256 + 1 * (y 1).val = (y 1).val; rw [e1]; omega
  | ⟨2, _⟩ => show win0_2.index t 2 * 256 + 1 * (y 2).val = (y 2).val; rw [e2]; omega

/-- The first layer's bias block at every point is the whole bias array. -/
theorem bias1_block (c : Dev nD) (t : Fin cfg0.N) (y : S10x256.Idx) :
    (iblk m c 3 t : Vec Ideal S10x256 .f32) y = (m ((c : Thread nD τ).loc main_arg3) : S10x256.Idx → EReal) y := by
  obtain ⟨-, -, -, -, -, -, -, e0, e1, -⟩ := idx_facts t
  unfold iblk
  rw [View.read_apply]
  show V m c main_arg3 _ = m (c.tc.loc main_arg3) _
  rw [V_main_arg3]
  congr 1
  funext a
  apply Fin.ext
  match a with
  | ⟨0, _⟩ => show win0_3.index t 0 * 10 + 1 * (y 0).val = (y 0).val; rw [e0]; omega
  | ⟨1, _⟩ => show win0_3.index t 1 * 256 + 1 * (y 1).val = (y 1).val; rw [e1]; omega

/-- The second layer's weight block at every point is the whole weight array. -/
theorem weights2_block (c : Dev nD) (t : Fin cfg0.N) (y : S10x256x1.Idx) :
    (iblk m c 4 t : Vec Ideal S10x256x1 .bf16) y = (m ((c : Thread nD τ).loc main_arg4) : S10x256x1.Idx → EReal) y := by
  obtain ⟨-, -, -, -, -, -, -, -, -, e0, e1, e2, -⟩ := idx_facts t
  unfold iblk
  rw [View.read_apply]
  show V m c main_v2 _ = m (c.tc.loc main_arg4) _
  rw [V_weights2]
  congr 1
  funext a
  apply Fin.ext
  match a with
  | ⟨0, _⟩ => show win0_4.index t 0 * 10 + 1 * (y 0).val = (y 0).val; rw [e0]; omega
  | ⟨1, _⟩ => show win0_4.index t 1 * 256 + 1 * (y 1).val = (y 1).val; rw [e1]; omega
  | ⟨2, _⟩ => show win0_4.index t 2 * 1 + 1 * (y 2).val = (y 2).val; rw [e2]; omega

/-- The second layer's bias block at every point is the whole bias array. -/
theorem bias2_block (c : Dev nD) (t : Fin cfg0.N) (y : S10x1.Idx) :
    (iblk m c 5 t : Vec Ideal S10x1 .f32) y = (m ((c : Thread nD τ).loc main_arg5) : S10x1.Idx → EReal) y := by
  obtain ⟨-, -, -, -, -, -, -, -, -, -, -, -, e0, e1, -⟩ := idx_facts t
  unfold iblk
  rw [View.read_apply]
  show V m c main_arg5 _ = m (c.tc.loc main_arg5) _
  rw [V_main_arg5]
  congr 1
  funext a
  apply Fin.ext
  match a with
  | ⟨0, _⟩ => show win0_5.index t 0 * 10 + 1 * (y 0).val = (y 0).val; rw [e0]; omega
  | ⟨1, _⟩ => show win0_5.index t 1 * 1 + 1 * (y 1).val = (y 1).val; rw [e1]; omega

/-! ## What a point writes back, the cover, and the array after the run -/

/-- What point t writes back is block t of the result column of the argument arrays. -/
theorem flushed_eq (hrow : RowFact) (c : Dev nD) (t : Fin cfg0.N) :
    (dats m 0 c).flushed 6 t = ((cfg0.win 6).blk t).view.read (Elt Ideal)
      (column (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Value.flushed6]
  obtain ⟨-, -, -, -, -, -, -, -, -, -, -, -, -, -, e0, e1⟩ := idx_facts t
  funext j
  show out0_6 (iblk m c 0 t) (iblk m c 1 t) (iblk m c 2 t) (iblk m c 3 t) (iblk m c 4 t) (iblk m c 5 t) j
    = column _ _ _ _ _ _ (((cfg0.win 6).blk t).view.emb j)
  refine block_row hrow _ _ _ _ _ _ _ _ _ _ _ _ j _ (fun q => ?_) ?_ (fun e a b => ?_) (fun e k => ?_) (fun e k => ?_) (fun e => ?_)
  · refine features_block m c t _ _ ?_ rfl
    show win0_6.index t 0 * 2000 + 1 * (j 0).val = 2000 * t.val + (j 0).val
    rw [e0]; omega
  · refine species_block m c t _ _ ?_
    show win0_6.index t 0 * 2000 + 1 * (j 0).val = 2000 * t.val + (j 0).val
    rw [e0]; omega
  · exact weights1_block m c t _
  · exact bias1_block m c t _
  · exact weights2_block m c t _
  · exact bias2_block m c t _

/-- An index of the result column is in point t's block iff each coordinate is in the block's range on its axis. -/
theorem mem_block (t : Fin cfg0.N) (i : S100000x1.Idx) :
    i ∈ ((cfg0.win 6).blk t).view.set ↔ ∀ a : Fin 2, win0_6.index t a * S2000x1.size a ≤ (i a).val
      ∧ (i a).val < win0_6.index t a * S2000x1.size a + S2000x1.size a := by
  show i ∈ ((View.whole main_v3).slice (win0_6.rect t)).set ↔ _
  rw [View.set_slice_whole, Rect.mem_set_unit]
  exact Iff.rfl

/-- Row r of the result column is in the block of point r / 2000: the fifty blocks cover the column. -/
theorem covered (i : S100000x1.Idx) :
    ∃ t : Fin cfg0.N, (cfg0.win 6).flush t = true ∧ i ∈ ((cfg0.win 6).blk t).view.set := by
  have hi0 : (i 0).val < 100000 := idx2_lt0 i
  have hi1 : (i 1).val < 1 := idx2_lt1 i
  have hN : cfg0.N = 50 := N_0
  have ht : (i 0).val / 2000 < cfg0.N := by rw [hN]; omega
  obtain ⟨-, -, -, -, -, -, -, -, -, -, -, -, -, -, e0, e1⟩ := idx_facts ⟨(i 0).val / 2000, ht⟩
  refine ⟨⟨(i 0).val / 2000, ht⟩, flush0_6 _, ?_⟩
  rw [mem_block]
  intro a
  match a with
  | ⟨0, _⟩ =>
    show win0_6.index ⟨(i 0).val / 2000, ht⟩ 0 * 2000 ≤ (i 0).val ∧ (i 0).val < win0_6.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win0_6.index ⟨(i 0).val / 2000, ht⟩ 1 * 1 ≤ (i 1).val ∧ (i 1).val < win0_6.index ⟨(i 0).val / 2000, ht⟩ 1 * 1 + 1
    rw [e1]; omega

/-- The result array after the run is the result column of the argument arrays. -/
theorem final (hrow : RowFact) (c : Dev nD) : (dats m 0 c).arrAt 6 cfg0.N
    = column (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushed_eq m hrow c t) covered

/-! ## The run -/

/-- The kernel's run ends with row r of its result array at the routed perceptron of row r of the argument arrays,
    and the argument arrays as launched. -/
theorem run_rows (hrow : RowFact) (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = (fun i : S100000x1.Idx =>
          Cert.RoutedMlp.out (fun j => m ((c : Thread nD τ).loc main_arg0) (ix2 (i 0) j)) (m ((c : Thread nD τ).loc main_arg1) (ix1 (i 0)))
            (fun e j k => m ((c : Thread nD τ).loc main_arg2) (ix3 e j k)) (fun e k => m ((c : Thread nD τ).loc main_arg3) (ix2 e k))
            (fun e k => m ((c : Thread nD τ).loc main_arg4) (ix3 e k 0)) (fun e => m ((c : Thread nD τ).loc main_arg5) (ix2 e 0)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m hrow c), (h c).2⟩) (Value.run_blocks m ρ)

end Cert.KernelArray

end
-- ==== Proof.RefMain.lean ====
/-
  The reference program is its 343 operations in order.

  The printed program is six parts run one after the other; a call of an outlined function (a select against zero, the
  activation) stands for the function's own operations on the call's buffers. Each part is the sequence of its operations
  (`partK_eq`, by unfolding the part and the called bodies), and a sequence of sequences is the sequence of the
  concatenation (`seq_append`), so the whole program is the sequence of `ops`, the 26 short lists of Proof/RefOps.lean
  in order.
-/
import proofs.«129769_j56959856280416_1_alg».proof.Proof.RefOps
import Idealize.ShloMosaic.Lib.StableHlo.Run

noncomputable section

namespace Cert.RefMain

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- All 343 operations, in order: the 26 short lists one after the other. -/
abbrev ops : List (HloOp τ sig (Elt F)) := ops_0_19 ++ (ops_19_36 ++ (ops_36_53 ++ (ops_53_66 ++ (ops_66_70 ++ (ops_70_87 ++ (ops_87_104 ++ (ops_104_121 ++ (ops_121_134 ++ (ops_134_138 ++ (ops_138_155 ++ (ops_155_172 ++ (ops_172_181 ++ (ops_181_199 ++ (ops_199_209 ++ (ops_209_215 ++ (ops_215_231 ++ (ops_231_247 ++ (ops_247_263 ++ (ops_263_273 ++ (ops_273_279 ++ (ops_279_295 ++ (ops_295_311 ++ (ops_311_327 ++ (ops_327_337 ++ (ops_337_343)))))))))))))))))))))))))

/-- The operations of the printed program's part 0 (operations 0 … 65). -/
abbrev part0 : List (HloOp τ sig (Elt F)) := ops_0_19 ++ (ops_19_36 ++ (ops_36_53 ++ (ops_53_66)))

set_option maxRecDepth 8192 in
set_option maxHeartbeats 4000000 in
theorem part0_eq (d : Dev nD) : main_part0 (F := F) d = seq part0 := rfl

/-- The operations of the printed program's part 1 (operations 66 … 133). -/
abbrev part1 : List (HloOp τ sig (Elt F)) := ops_66_70 ++ (ops_70_87 ++ (ops_87_104 ++ (ops_104_121 ++ (ops_121_134))))

set_option maxRecDepth 8192 in
set_option maxHeartbeats 4000000 in
theorem part1_eq (d : Dev nD) : main_part1 (F := F) d = seq part1 := rfl

/-- The operations of the printed program's part 2 (operations 134 … 208). -/
abbrev part2 : List (HloOp τ sig (Elt F)) := ops_134_138 ++ (ops_138_155 ++ (ops_155_172 ++ (ops_172_181 ++ (ops_181_199 ++ (ops_199_209)))))

set_option maxRecDepth 8192 in
set_option maxHeartbeats 4000000 in
theorem part2_eq (d : Dev nD) : main_part2 (F := F) d = seq part2 := rfl

/-- The operations of the printed program's part 3 (operations 209 … 272). -/
abbrev part3 : List (HloOp τ sig (Elt F)) := ops_209_215 ++ (ops_215_231 ++ (ops_231_247 ++ (ops_247_263 ++ (ops_263_273))))

set_option maxRecDepth 8192 in
set_option maxHeartbeats 4000000 in
theorem part3_eq (d : Dev nD) : main_part3 (F := F) d = seq part3 := rfl

/-- The operations of the printed program's part 4 (operations 273 … 336). -/
abbrev part4 : List (HloOp τ sig (Elt F)) := ops_273_279 ++ (ops_279_295 ++ (ops_295_311 ++ (ops_311_327 ++ (ops_327_337))))

set_option maxRecDepth 8192 in
set_option maxHeartbeats 4000000 in
theorem part4_eq (d : Dev nD) : main_part4 (F := F) d = seq part4 := rfl

/-- The operations of the printed program's part 5 (operations 337 … 342). -/
abbrev part5 : List (HloOp τ sig (Elt F)) := ops_337_343

set_option maxRecDepth 8192 in
set_option maxHeartbeats 4000000 in
theorem part5_eq (d : Dev nD) : main_part5 (F := F) d = seq part5 := rfl

/-- The program is the sequence of its operations. -/
theorem main_eq (d : Dev nD) : main (F := F) d = seq ops := by
  show (main_part0 (F := F) d >>= fun _ => main_part1 (F := F) d >>= fun _ => main_part2 (F := F) d >>= fun _ =>
    main_part3 (F := F) d >>= fun _ => main_part4 (F := F) d >>= fun _ => main_part5 (F := F) d) = _
  rw [part0_eq, part1_eq, part2_eq, part3_eq, part4_eq, part5_eq]
  simp only [ops, part0, part1, part2, part3, part4, part5, seq_append, bind_assoc]

/-- A property of every operation of two lists is one of every operation of their concatenation. -/
theorem forall_append {p : HloOp τ sig (Elt F) → Prop} (A B : List (HloOp τ sig (Elt F))) :
    (A ++ B).Forall p ↔ A.Forall p ∧ B.Forall p := by
  simp only [List.forall_iff_forall_mem, List.mem_append, or_imp, forall_and]

/-- Every operation's buffers are TensorCore buffers of the signature. -/
theorem ops_sub : (ops (F := F)).Forall fun op => op.bufs ⊆ tcRefs τ sig := by
  simp only [ops, forall_append]
  exact ⟨ops_0_19_sub, ops_19_36_sub, ops_36_53_sub, ops_53_66_sub, ops_66_70_sub, ops_70_87_sub, ops_87_104_sub, ops_104_121_sub, ops_121_134_sub, ops_134_138_sub, ops_138_155_sub, ops_155_172_sub, ops_172_181_sub, ops_181_199_sub, ops_199_209_sub, ops_209_215_sub, ops_215_231_sub, ops_231_247_sub, ops_247_263_sub, ops_263_273_sub, ops_273_279_sub, ops_279_295_sub, ops_295_311_sub, ops_311_327_sub, ops_327_337_sub, ops_337_343_sub⟩

end Cert.RefMain

end
-- ==== Proof.RefBlocks1.lean ====
/-
  The reference's first layer and activation, one expert's operations at a time.

  Each block of operations is given what the arrays it reads hold before it — the six arguments and the running sum —
  and says what they hold after it: the arguments unchanged, the running sum at its next stage, each stage the named
  value of Proof/ReadStages.lean. A block's own intermediate buffers are not read after it. The last block is the
  activation, which turns the routed first layer into the hidden array.
-/
import proofs.«129769_j56959856280416_1_alg».proof.Proof.RefOps
import proofs.«129769_j56959856280416_1_alg».proof.Proof.ReadStages
import Idealize.ShloMosaic.Lib.StableHlo.Run

set_option maxRecDepth 8192

noncomputable section

namespace Cert.RefBlocks

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Expert 0's first-layer operations (operations 0 … 18). -/
abbrev blk_layer1_0 : List (HloOp τ sig (Elt F)) := ops_0_19

/-- Expert 0's first-layer operations (19 of them, the zero the sum starts from among them): the arguments are kept and the running sum advances to its next stage. -/
theorem layer1_0 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5) :
    after (blk_layer1_0 (F := F)) W (Proc.devRef .tc main_arg0) = x0
    ∧ after (blk_layer1_0 (F := F)) W (Proc.devRef .tc main_arg1) = x1
    ∧ after (blk_layer1_0 (F := F)) W (Proc.devRef .tc main_arg2) = x2
    ∧ after (blk_layer1_0 (F := F)) W (Proc.devRef .tc main_arg3) = x3
    ∧ after (blk_layer1_0 (F := F)) W (Proc.devRef .tc main_arg4) = x4
    ∧ after (blk_layer1_0 (F := F)) W (Proc.devRef .tc main_arg5) = x5
    ∧ after (blk_layer1_0 (F := F)) W (Proc.devRef .tc main_v13) = val_main_v13 (F := F) x0 x1 x2 x3 := by
  subst h0 h1 h2 h3 h4 h5
  refine ⟨?_, ?_, ?_, ?_, ?_, ?_, ?_⟩
  · show after [_, _, _, _, _, _, _, _, _, _, _, _, _, _, _, _, _, _, _] W _ = _
    after_results_simp
  · show after [_, _, _, _, _, _, _, _, _, _, _, _, _, _, _, _, _, _, _] W _ = _
    after_results_simp
  · show after [_, _, _, _, _, _, _, _, _, _, _, _, _, _, _, _, _, _, _] W _ = _
    after_results_simp
  · show after [_, _, _, _, _, _, _, _, _, _, _, _, _, _, _, _, _, _, _] W _ = _
    after_results_simp
  · show after [_, _, _, _, _, _, _, _, _, _, _, _, _, _, _, _, _, _, _] W _ = _
    after_results_simp
  · show after [_, _, _, _, _, _, _, _, _, _, _, _, _, _, _, _, _, _, _] W _ = _
    after_results_simp
  · show after [_, _, _, _, _, _, _, _, _, _, _, _, _, _, _, _, _, _, _] W _ = _
    after_results_simp
    rfl

/-- Expert 1's first-layer operations (operations 19 … 35). -/
abbrev blk_layer1_1 : List (HloOp τ sig (Elt F)) := ops_19_36

/-- Expert 1's first-layer operations (17 of them): the arguments are kept and the running sum advances to its next stage. -/
theorem layer1_1 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hacc : W (Proc.devRef .tc main_v13) = val_main_v13 (F := F) x0 x1 x2 x3) :
    after (blk_layer1_1 (F := F)) W (Proc.devRef .tc main_arg0) = x0
    ∧ after (blk_layer1_1 (F := F)) W (Proc.devRef .tc main_arg1) = x1
    ∧ after (blk_layer1_1 (F := F)) W (Proc.devRef .tc main_arg2) = x2
    ∧ after (blk_layer1_1 (F := F)) W (Proc.devRef .tc main_arg3) = x3
    ∧ after (blk_layer1_1 (F := F)) W (Proc.devRef .tc main_arg4) = x4
    ∧ after (blk_layer1_1 (F := F)) W (Proc.devRef .tc main_arg5) = x5
    ∧ after (blk_layer1_1 (F := F)) W (Proc.devRef .tc main_v26) = val_main_v26 (F := F) x0 x1 x2 x3 := by
  subst h0 h1 h2 h3 h4 h5
  refine ⟨?_, ?_, ?_, ?_, ?_, ?_, ?_⟩
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
    rw [hacc]
    rfl

/-- Expert 2's first-layer operations (operations 36 … 52). -/
abbrev blk_layer1_2 : List (HloOp τ sig (Elt F)) := ops_36_53

/-- Expert 2's first-layer operations (17 of them): the arguments are kept and the running sum advances to its next stage. -/
theorem layer1_2 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hacc : W (Proc.devRef .tc main_v26) = val_main_v26 (F := F) x0 x1 x2 x3) :
    after (blk_layer1_2 (F := F)) W (Proc.devRef .tc main_arg0) = x0
    ∧ after (blk_layer1_2 (F := F)) W (Proc.devRef .tc main_arg1) = x1
    ∧ after (blk_layer1_2 (F := F)) W (Proc.devRef .tc main_arg2) = x2
    ∧ after (blk_layer1_2 (F := F)) W (Proc.devRef .tc main_arg3) = x3
    ∧ after (blk_layer1_2 (F := F)) W (Proc.devRef .tc main_arg4) = x4
    ∧ after (blk_layer1_2 (F := F)) W (Proc.devRef .tc main_arg5) = x5
    ∧ after (blk_layer1_2 (F := F)) W (Proc.devRef .tc main_v39) = val_main_v39 (F := F) x0 x1 x2 x3 := by
  subst h0 h1 h2 h3 h4 h5
  refine ⟨?_, ?_, ?_, ?_, ?_, ?_, ?_⟩
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
    rw [hacc]
    rfl

/-- Expert 3's first-layer operations (operations 53 … 69). -/
abbrev blk_layer1_3 : List (HloOp τ sig (Elt F)) := ops_53_66 ++ (ops_66_70)

/-- Expert 3's first-layer operations (17 of them): the arguments are kept and the running sum advances to its next stage. -/
theorem layer1_3 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hacc : W (Proc.devRef .tc main_v39) = val_main_v39 (F := F) x0 x1 x2 x3) :
    after (blk_layer1_3 (F := F)) W (Proc.devRef .tc main_arg0) = x0
    ∧ after (blk_layer1_3 (F := F)) W (Proc.devRef .tc main_arg1) = x1
    ∧ after (blk_layer1_3 (F := F)) W (Proc.devRef .tc main_arg2) = x2
    ∧ after (blk_layer1_3 (F := F)) W (Proc.devRef .tc main_arg3) = x3
    ∧ after (blk_layer1_3 (F := F)) W (Proc.devRef .tc main_arg4) = x4
    ∧ after (blk_layer1_3 (F := F)) W (Proc.devRef .tc main_arg5) = x5
    ∧ after (blk_layer1_3 (F := F)) W (Proc.devRef .tc main_v52) = val_main_v52 (F := F) x0 x1 x2 x3 := by
  subst h0 h1 h2 h3 h4 h5
  refine ⟨?_, ?_, ?_, ?_, ?_, ?_, ?_⟩
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
    rw [hacc]
    rfl

/-- Expert 4's first-layer operations (operations 70 … 86). -/
abbrev blk_layer1_4 : List (HloOp τ sig (Elt F)) := ops_70_87

/-- Expert 4's first-layer operations (17 of them): the arguments are kept and the running sum advances to its next stage. -/
theorem layer1_4 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hacc : W (Proc.devRef .tc main_v52) = val_main_v52 (F := F) x0 x1 x2 x3) :
    after (blk_layer1_4 (F := F)) W (Proc.devRef .tc main_arg0) = x0
    ∧ after (blk_layer1_4 (F := F)) W (Proc.devRef .tc main_arg1) = x1
    ∧ after (blk_layer1_4 (F := F)) W (Proc.devRef .tc main_arg2) = x2
    ∧ after (blk_layer1_4 (F := F)) W (Proc.devRef .tc main_arg3) = x3
    ∧ after (blk_layer1_4 (F := F)) W (Proc.devRef .tc main_arg4) = x4
    ∧ after (blk_layer1_4 (F := F)) W (Proc.devRef .tc main_arg5) = x5
    ∧ after (blk_layer1_4 (F := F)) W (Proc.devRef .tc main_v65) = val_main_v65 (F := F) x0 x1 x2 x3 := by
  subst h0 h1 h2 h3 h4 h5
  refine ⟨?_, ?_, ?_, ?_, ?_, ?_, ?_⟩
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
    rw [hacc]
    rfl

/-- Expert 5's first-layer operations (operations 87 … 103). -/
abbrev blk_layer1_5 : List (HloOp τ sig (Elt F)) := ops_87_104

/-- Expert 5's first-layer operations (17 of them): the arguments are kept and the running sum advances to its next stage. -/
theorem layer1_5 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hacc : W (Proc.devRef .tc main_v65) = val_main_v65 (F := F) x0 x1 x2 x3) :
    after (blk_layer1_5 (F := F)) W (Proc.devRef .tc main_arg0) = x0
    ∧ after (blk_layer1_5 (F := F)) W (Proc.devRef .tc main_arg1) = x1
    ∧ after (blk_layer1_5 (F := F)) W (Proc.devRef .tc main_arg2) = x2
    ∧ after (blk_layer1_5 (F := F)) W (Proc.devRef .tc main_arg3) = x3
    ∧ after (blk_layer1_5 (F := F)) W (Proc.devRef .tc main_arg4) = x4
    ∧ after (blk_layer1_5 (F := F)) W (Proc.devRef .tc main_arg5) = x5
    ∧ after (blk_layer1_5 (F := F)) W (Proc.devRef .tc main_v78) = val_main_v78 (F := F) x0 x1 x2 x3 := by
  subst h0 h1 h2 h3 h4 h5
  refine ⟨?_, ?_, ?_, ?_, ?_, ?_, ?_⟩
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
    rw [hacc]
    rfl

/-- Expert 6's first-layer operations (operations 104 … 120). -/
abbrev blk_layer1_6 : List (HloOp τ sig (Elt F)) := ops_104_121

/-- Expert 6's first-layer operations (17 of them): the arguments are kept and the running sum advances to its next stage. -/
theorem layer1_6 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hacc : W (Proc.devRef .tc main_v78) = val_main_v78 (F := F) x0 x1 x2 x3) :
    after (blk_layer1_6 (F := F)) W (Proc.devRef .tc main_arg0) = x0
    ∧ after (blk_layer1_6 (F := F)) W (Proc.devRef .tc main_arg1) = x1
    ∧ after (blk_layer1_6 (F := F)) W (Proc.devRef .tc main_arg2) = x2
    ∧ after (blk_layer1_6 (F := F)) W (Proc.devRef .tc main_arg3) = x3
    ∧ after (blk_layer1_6 (F := F)) W (Proc.devRef .tc main_arg4) = x4
    ∧ after (blk_layer1_6 (F := F)) W (Proc.devRef .tc main_arg5) = x5
    ∧ after (blk_layer1_6 (F := F)) W (Proc.devRef .tc main_v91) = val_main_v91 (F := F) x0 x1 x2 x3 := by
  subst h0 h1 h2 h3 h4 h5
  refine ⟨?_, ?_, ?_, ?_, ?_, ?_, ?_⟩
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
    rw [hacc]
    rfl

/-- Expert 7's first-layer operations (operations 121 … 137). -/
abbrev blk_layer1_7 : List (HloOp τ sig (Elt F)) := ops_121_134 ++ (ops_134_138)

/-- Expert 7's first-layer operations (17 of them): the arguments are kept and the running sum advances to its next stage. -/
theorem layer1_7 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hacc : W (Proc.devRef .tc main_v91) = val_main_v91 (F := F) x0 x1 x2 x3) :
    after (blk_layer1_7 (F := F)) W (Proc.devRef .tc main_arg0) = x0
    ∧ after (blk_layer1_7 (F := F)) W (Proc.devRef .tc main_arg1) = x1
    ∧ after (blk_layer1_7 (F := F)) W (Proc.devRef .tc main_arg2) = x2
    ∧ after (blk_layer1_7 (F := F)) W (Proc.devRef .tc main_arg3) = x3
    ∧ after (blk_layer1_7 (F := F)) W (Proc.devRef .tc main_arg4) = x4
    ∧ after (blk_layer1_7 (F := F)) W (Proc.devRef .tc main_arg5) = x5
    ∧ after (blk_layer1_7 (F := F)) W (Proc.devRef .tc main_v104) = val_main_v104 (F := F) x0 x1 x2 x3 := by
  subst h0 h1 h2 h3 h4 h5
  refine ⟨?_, ?_, ?_, ?_, ?_, ?_, ?_⟩
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
    rw [hacc]
    rfl

/-- Expert 8's first-layer operations (operations 138 … 154). -/
abbrev blk_layer1_8 : List (HloOp τ sig (Elt F)) := ops_138_155

/-- Expert 8's first-layer operations (17 of them): the arguments are kept and the running sum advances to its next stage. -/
theorem layer1_8 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hacc : W (Proc.devRef .tc main_v104) = val_main_v104 (F := F) x0 x1 x2 x3) :
    after (blk_layer1_8 (F := F)) W (Proc.devRef .tc main_arg0) = x0
    ∧ after (blk_layer1_8 (F := F)) W (Proc.devRef .tc main_arg1) = x1
    ∧ after (blk_layer1_8 (F := F)) W (Proc.devRef .tc main_arg2) = x2
    ∧ after (blk_layer1_8 (F := F)) W (Proc.devRef .tc main_arg3) = x3
    ∧ after (blk_layer1_8 (F := F)) W (Proc.devRef .tc main_arg4) = x4
    ∧ after (blk_layer1_8 (F := F)) W (Proc.devRef .tc main_arg5) = x5
    ∧ after (blk_layer1_8 (F := F)) W (Proc.devRef .tc main_v117) = val_main_v117 (F := F) x0 x1 x2 x3 := by
  subst h0 h1 h2 h3 h4 h5
  refine ⟨?_, ?_, ?_, ?_, ?_, ?_, ?_⟩
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
    rw [hacc]
    rfl

/-- Expert 9's first-layer operations (operations 155 … 171). -/
abbrev blk_layer1_9 : List (HloOp τ sig (Elt F)) := ops_155_172

/-- Expert 9's first-layer operations (17 of them): the arguments are kept and the running sum advances to its next stage. -/
theorem layer1_9 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hacc : W (Proc.devRef .tc main_v117) = val_main_v117 (F := F) x0 x1 x2 x3) :
    after (blk_layer1_9 (F := F)) W (Proc.devRef .tc main_arg0) = x0
    ∧ after (blk_layer1_9 (F := F)) W (Proc.devRef .tc main_arg1) = x1
    ∧ after (blk_layer1_9 (F := F)) W (Proc.devRef .tc main_arg2) = x2
    ∧ after (blk_layer1_9 (F := F)) W (Proc.devRef .tc main_arg3) = x3
    ∧ after (blk_layer1_9 (F := F)) W (Proc.devRef .tc main_arg4) = x4
    ∧ after (blk_layer1_9 (F := F)) W (Proc.devRef .tc main_arg5) = x5
    ∧ after (blk_layer1_9 (F := F)) W (Proc.devRef .tc main_v130) = val_main_v130 (F := F) x0 x1 x2 x3 := by
  subst h0 h1 h2 h3 h4 h5
  refine ⟨?_, ?_, ?_, ?_, ?_, ?_, ?_⟩
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
  · show after [_, _, _, _, _, _, _, _, _, _, _, _, _, _, _, _, _] W _ = _
    after_results_simp
    rw [hacc]
    rfl

/-- The activation's operations (operations 172 … 180). -/
abbrev blk_activation : List (HloOp τ sig (Elt F)) := ops_172_181

/-- The activation's 9 operations: the arguments are kept and the hidden array is the activation of the routed first layer. -/
theorem activation (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hacc : W (Proc.devRef .tc main_v130) = val_main_v130 (F := F) x0 x1 x2 x3) :
    after (blk_activation (F := F)) W (Proc.devRef .tc main_arg0) = x0
    ∧ after (blk_activation (F := F)) W (Proc.devRef .tc main_arg1) = x1
    ∧ after (blk_activation (F := F)) W (Proc.devRef .tc main_arg2) = x2
    ∧ after (blk_activation (F := F)) W (Proc.devRef .tc main_arg3) = x3
    ∧ after (blk_activation (F := F)) W (Proc.devRef .tc main_arg4) = x4
    ∧ after (blk_activation (F := F)) W (Proc.devRef .tc main_arg5) = x5
    ∧ after (blk_activation (F := F)) W (Proc.devRef .tc main_v131) = val_main_v131 (F := F) x0 x1 x2 x3 := by
  subst h0 h1 h2 h3 h4 h5
  refine ⟨?_, ?_, ?_, ?_, ?_, ?_, ?_⟩
  · show after [_, _, _, _, _, _, _, _, _] W _ = _
    after_results_simp
  · show after [_, _, _, _, _, _, _, _, _] W _ = _
    after_results_simp
  · show after [_, _, _, _, _, _, _, _, _] W _ = _
    after_results_simp
  · show after [_, _, _, _, _, _, _, _, _] W _ = _
    after_results_simp
  · show after [_, _, _, _, _, _, _, _, _] W _ = _
    after_results_simp
  · show after [_, _, _, _, _, _, _, _, _] W _ = _
    after_results_simp
  · show after [_, _, _, _, _, _, _, _, _] W _ = _
    after_results_simp
    rw [hacc]
    rfl

end Cert.RefBlocks

end
-- ==== Proof.RefBlocks2.lean ====
/-
  The reference's second layer, one expert's operations at a time.

  As for the first layer, with one more array carried through every block unchanged: the hidden array, which each
  expert's matrix product reads.
-/
import proofs.«129769_j56959856280416_1_alg».proof.Proof.RefOps
import proofs.«129769_j56959856280416_1_alg».proof.Proof.ReadStages
import Idealize.ShloMosaic.Lib.StableHlo.Run

set_option maxRecDepth 8192

noncomputable section

namespace Cert.RefBlocks

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Expert 0's second-layer operations (operations 181 … 198). -/
abbrev blk_layer2_0 : List (HloOp τ sig (Elt F)) := ops_181_199

/-- Expert 0's second-layer operations (18 of them, the zero the sum starts from among them): the arguments and the hidden array are kept and the running sum advances. -/
theorem layer2_0 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hh : W (Proc.devRef .tc main_v131) = val_main_v131 (F := F) x0 x1 x2 x3) :
    after (blk_layer2_0 (F := F)) W (Proc.devRef .tc main_arg0) = x0
    ∧ after (blk_layer2_0 (F := F)) W (Proc.devRef .tc main_arg1) = x1
    ∧ after (blk_layer2_0 (F := F)) W (Proc.devRef .tc main_arg2) = x2
    ∧ after (blk_layer2_0 (F := F)) W (Proc.devRef .tc main_arg3) = x3
    ∧ after (blk_layer2_0 (F := F)) W (Proc.devRef .tc main_arg4) = x4
    ∧ after (blk_layer2_0 (F := F)) W (Proc.devRef .tc main_arg5) = x5
    ∧ after (blk_layer2_0 (F := F)) W (Proc.devRef .tc main_v131) = val_main_v131 (F := F) x0 x1 x2 x3
    ∧ after (blk_layer2_0 (F := F)) W (Proc.devRef .tc main_v145) = val_main_v145 (F := F) x0 x1 x2 x3 x4 x5 := by
  subst h0 h1 h2 h3 h4 h5
  refine ⟨?_, ?_, ?_, ?_, ?_, ?_, ?_, ?_⟩
  · show after [_, _, _, _, _, _, _, _, _, _, _, _, _, _, _, _, _, _] W _ = _
    after_results_simp
  · show after [_, _, _, _, _, _, _, _, _, _, _, _, _, _, _, _, _, _] W _ = _
    after_results_simp
  · show after [_, _, _, _, _, _, _, _, _, _, _, _, _, _, _, _, _, _] W _ = _
    after_results_simp
  · show after [_, _, _, _, _, _, _, _, _, _, _, _, _, _, _, _, _, _] W _ = _
    after_results_simp
  · show after [_, _, _, _, _, _, _, _, _, _, _, _, _, _, _, _, _, _] W _ = _
    after_results_simp
  · show after [_, _, _, _, _, _, _, _, _, _, _, _, _, _, _, _, _, _] W _ = _
    after_results_simp
  · show after [_, _, _, _, _, _, _, _, _, _, _, _, _, _, _, _, _, _] W _ = _
    after_results_simp
    exact hh
  · show after [_, _, _, _, _, _, _, _, _, _, _, _, _, _, _, _, _, _] W _ = _
    after_results_simp
    rw [hh]
    rfl

/-- Expert 1's second-layer operations (operations 199 … 214). -/
abbrev blk_layer2_1 : List (HloOp τ sig (Elt F)) := ops_199_209 ++ (ops_209_215)

/-- Expert 1's second-layer operations (16 of them): the arguments and the hidden array are kept and the running sum advances. -/
theorem layer2_1 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hh : W (Proc.devRef .tc main_v131) = val_main_v131 (F := F) x0 x1 x2 x3) (hacc : W (Proc.devRef .tc main_v145) = val_main_v145 (F := F) x0 x1 x2 x3 x4 x5) :
    after (blk_layer2_1 (F := F)) W (Proc.devRef .tc main_arg0) = x0
    ∧ after (blk_layer2_1 (F := F)) W (Proc.devRef .tc main_arg1) = x1
    ∧ after (blk_layer2_1 (F := F)) W (Proc.devRef .tc main_arg2) = x2
    ∧ after (blk_layer2_1 (F := F)) W (Proc.devRef .tc main_arg3) = x3
    ∧ after (blk_layer2_1 (F := F)) W (Proc.devRef .tc main_arg4) = x4
    ∧ after (blk_layer2_1 (F := F)) W (Proc.devRef .tc main_arg5) = x5
    ∧ after (blk_layer2_1 (F := F)) W (Proc.devRef .tc main_v131) = val_main_v131 (F := F) x0 x1 x2 x3
    ∧ after (blk_layer2_1 (F := F)) W (Proc.devRef .tc main_v158) = val_main_v158 (F := F) x0 x1 x2 x3 x4 x5 := by
  subst h0 h1 h2 h3 h4 h5
  refine ⟨?_, ?_, ?_, ?_, ?_, ?_, ?_, ?_⟩
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
    exact hh
  · show after [_, _, _, _, _, _, _, _, _, _, _, _, _, _, _, _] W _ = _
    after_results_simp
    rw [hacc, hh]
    rfl

/-- Expert 2's second-layer operations (operations 215 … 230). -/
abbrev blk_layer2_2 : List (HloOp τ sig (Elt F)) := ops_215_231

/-- Expert 2's second-layer operations (16 of them): the arguments and the hidden array are kept and the running sum advances. -/
theorem layer2_2 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hh : W (Proc.devRef .tc main_v131) = val_main_v131 (F := F) x0 x1 x2 x3) (hacc : W (Proc.devRef .tc main_v158) = val_main_v158 (F := F) x0 x1 x2 x3 x4 x5) :
    after (blk_layer2_2 (F := F)) W (Proc.devRef .tc main_arg0) = x0
    ∧ after (blk_layer2_2 (F := F)) W (Proc.devRef .tc main_arg1) = x1
    ∧ after (blk_layer2_2 (F := F)) W (Proc.devRef .tc main_arg2) = x2
    ∧ after (blk_layer2_2 (F := F)) W (Proc.devRef .tc main_arg3) = x3
    ∧ after (blk_layer2_2 (F := F)) W (Proc.devRef .tc main_arg4) = x4
    ∧ after (blk_layer2_2 (F := F)) W (Proc.devRef .tc main_arg5) = x5
    ∧ after (blk_layer2_2 (F := F)) W (Proc.devRef .tc main_v131) = val_main_v131 (F := F) x0 x1 x2 x3
    ∧ after (blk_layer2_2 (F := F)) W (Proc.devRef .tc main_v171) = val_main_v171 (F := F) x0 x1 x2 x3 x4 x5 := by
  subst h0 h1 h2 h3 h4 h5
  refine ⟨?_, ?_, ?_, ?_, ?_, ?_, ?_, ?_⟩
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
    exact hh
  · show after [_, _, _, _, _, _, _, _, _, _, _, _, _, _, _, _] W _ = _
    after_results_simp
    rw [hacc, hh]
    rfl

/-- Expert 3's second-layer operations (operations 231 … 246). -/
abbrev blk_layer2_3 : List (HloOp τ sig (Elt F)) := ops_231_247

/-- Expert 3's second-layer operations (16 of them): the arguments and the hidden array are kept and the running sum advances. -/
theorem layer2_3 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hh : W (Proc.devRef .tc main_v131) = val_main_v131 (F := F) x0 x1 x2 x3) (hacc : W (Proc.devRef .tc main_v171) = val_main_v171 (F := F) x0 x1 x2 x3 x4 x5) :
    after (blk_layer2_3 (F := F)) W (Proc.devRef .tc main_arg0) = x0
    ∧ after (blk_layer2_3 (F := F)) W (Proc.devRef .tc main_arg1) = x1
    ∧ after (blk_layer2_3 (F := F)) W (Proc.devRef .tc main_arg2) = x2
    ∧ after (blk_layer2_3 (F := F)) W (Proc.devRef .tc main_arg3) = x3
    ∧ after (blk_layer2_3 (F := F)) W (Proc.devRef .tc main_arg4) = x4
    ∧ after (blk_layer2_3 (F := F)) W (Proc.devRef .tc main_arg5) = x5
    ∧ after (blk_layer2_3 (F := F)) W (Proc.devRef .tc main_v131) = val_main_v131 (F := F) x0 x1 x2 x3
    ∧ after (blk_layer2_3 (F := F)) W (Proc.devRef .tc main_v184) = val_main_v184 (F := F) x0 x1 x2 x3 x4 x5 := by
  subst h0 h1 h2 h3 h4 h5
  refine ⟨?_, ?_, ?_, ?_, ?_, ?_, ?_, ?_⟩
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
    exact hh
  · show after [_, _, _, _, _, _, _, _, _, _, _, _, _, _, _, _] W _ = _
    after_results_simp
    rw [hacc, hh]
    rfl

/-- Expert 4's second-layer operations (operations 247 … 262). -/
abbrev blk_layer2_4 : List (HloOp τ sig (Elt F)) := ops_247_263

/-- Expert 4's second-layer operations (16 of them): the arguments and the hidden array are kept and the running sum advances. -/
theorem layer2_4 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hh : W (Proc.devRef .tc main_v131) = val_main_v131 (F := F) x0 x1 x2 x3) (hacc : W (Proc.devRef .tc main_v184) = val_main_v184 (F := F) x0 x1 x2 x3 x4 x5) :
    after (blk_layer2_4 (F := F)) W (Proc.devRef .tc main_arg0) = x0
    ∧ after (blk_layer2_4 (F := F)) W (Proc.devRef .tc main_arg1) = x1
    ∧ after (blk_layer2_4 (F := F)) W (Proc.devRef .tc main_arg2) = x2
    ∧ after (blk_layer2_4 (F := F)) W (Proc.devRef .tc main_arg3) = x3
    ∧ after (blk_layer2_4 (F := F)) W (Proc.devRef .tc main_arg4) = x4
    ∧ after (blk_layer2_4 (F := F)) W (Proc.devRef .tc main_arg5) = x5
    ∧ after (blk_layer2_4 (F := F)) W (Proc.devRef .tc main_v131) = val_main_v131 (F := F) x0 x1 x2 x3
    ∧ after (blk_layer2_4 (F := F)) W (Proc.devRef .tc main_v197) = val_main_v197 (F := F) x0 x1 x2 x3 x4 x5 := by
  subst h0 h1 h2 h3 h4 h5
  refine ⟨?_, ?_, ?_, ?_, ?_, ?_, ?_, ?_⟩
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
    exact hh
  · show after [_, _, _, _, _, _, _, _, _, _, _, _, _, _, _, _] W _ = _
    after_results_simp
    rw [hacc, hh]
    rfl

/-- Expert 5's second-layer operations (operations 263 … 278). -/
abbrev blk_layer2_5 : List (HloOp τ sig (Elt F)) := ops_263_273 ++ (ops_273_279)

/-- Expert 5's second-layer operations (16 of them): the arguments and the hidden array are kept and the running sum advances. -/
theorem layer2_5 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hh : W (Proc.devRef .tc main_v131) = val_main_v131 (F := F) x0 x1 x2 x3) (hacc : W (Proc.devRef .tc main_v197) = val_main_v197 (F := F) x0 x1 x2 x3 x4 x5) :
    after (blk_layer2_5 (F := F)) W (Proc.devRef .tc main_arg0) = x0
    ∧ after (blk_layer2_5 (F := F)) W (Proc.devRef .tc main_arg1) = x1
    ∧ after (blk_layer2_5 (F := F)) W (Proc.devRef .tc main_arg2) = x2
    ∧ after (blk_layer2_5 (F := F)) W (Proc.devRef .tc main_arg3) = x3
    ∧ after (blk_layer2_5 (F := F)) W (Proc.devRef .tc main_arg4) = x4
    ∧ after (blk_layer2_5 (F := F)) W (Proc.devRef .tc main_arg5) = x5
    ∧ after (blk_layer2_5 (F := F)) W (Proc.devRef .tc main_v131) = val_main_v131 (F := F) x0 x1 x2 x3
    ∧ after (blk_layer2_5 (F := F)) W (Proc.devRef .tc main_v210) = val_main_v210 (F := F) x0 x1 x2 x3 x4 x5 := by
  subst h0 h1 h2 h3 h4 h5
  refine ⟨?_, ?_, ?_, ?_, ?_, ?_, ?_, ?_⟩
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
    exact hh
  · show after [_, _, _, _, _, _, _, _, _, _, _, _, _, _, _, _] W _ = _
    after_results_simp
    rw [hacc, hh]
    rfl

/-- Expert 6's second-layer operations (operations 279 … 294). -/
abbrev blk_layer2_6 : List (HloOp τ sig (Elt F)) := ops_279_295

/-- Expert 6's second-layer operations (16 of them): the arguments and the hidden array are kept and the running sum advances. -/
theorem layer2_6 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hh : W (Proc.devRef .tc main_v131) = val_main_v131 (F := F) x0 x1 x2 x3) (hacc : W (Proc.devRef .tc main_v210) = val_main_v210 (F := F) x0 x1 x2 x3 x4 x5) :
    after (blk_layer2_6 (F := F)) W (Proc.devRef .tc main_arg0) = x0
    ∧ after (blk_layer2_6 (F := F)) W (Proc.devRef .tc main_arg1) = x1
    ∧ after (blk_layer2_6 (F := F)) W (Proc.devRef .tc main_arg2) = x2
    ∧ after (blk_layer2_6 (F := F)) W (Proc.devRef .tc main_arg3) = x3
    ∧ after (blk_layer2_6 (F := F)) W (Proc.devRef .tc main_arg4) = x4
    ∧ after (blk_layer2_6 (F := F)) W (Proc.devRef .tc main_arg5) = x5
    ∧ after (blk_layer2_6 (F := F)) W (Proc.devRef .tc main_v131) = val_main_v131 (F := F) x0 x1 x2 x3
    ∧ after (blk_layer2_6 (F := F)) W (Proc.devRef .tc main_v223) = val_main_v223 (F := F) x0 x1 x2 x3 x4 x5 := by
  subst h0 h1 h2 h3 h4 h5
  refine ⟨?_, ?_, ?_, ?_, ?_, ?_, ?_, ?_⟩
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
    exact hh
  · show after [_, _, _, _, _, _, _, _, _, _, _, _, _, _, _, _] W _ = _
    after_results_simp
    rw [hacc, hh]
    rfl

/-- Expert 7's second-layer operations (operations 295 … 310). -/
abbrev blk_layer2_7 : List (HloOp τ sig (Elt F)) := ops_295_311

/-- Expert 7's second-layer operations (16 of them): the arguments and the hidden array are kept and the running sum advances. -/
theorem layer2_7 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hh : W (Proc.devRef .tc main_v131) = val_main_v131 (F := F) x0 x1 x2 x3) (hacc : W (Proc.devRef .tc main_v223) = val_main_v223 (F := F) x0 x1 x2 x3 x4 x5) :
    after (blk_layer2_7 (F := F)) W (Proc.devRef .tc main_arg0) = x0
    ∧ after (blk_layer2_7 (F := F)) W (Proc.devRef .tc main_arg1) = x1
    ∧ after (blk_layer2_7 (F := F)) W (Proc.devRef .tc main_arg2) = x2
    ∧ after (blk_layer2_7 (F := F)) W (Proc.devRef .tc main_arg3) = x3
    ∧ after (blk_layer2_7 (F := F)) W (Proc.devRef .tc main_arg4) = x4
    ∧ after (blk_layer2_7 (F := F)) W (Proc.devRef .tc main_arg5) = x5
    ∧ after (blk_layer2_7 (F := F)) W (Proc.devRef .tc main_v131) = val_main_v131 (F := F) x0 x1 x2 x3
    ∧ after (blk_layer2_7 (F := F)) W (Proc.devRef .tc main_v236) = val_main_v236 (F := F) x0 x1 x2 x3 x4 x5 := by
  subst h0 h1 h2 h3 h4 h5
  refine ⟨?_, ?_, ?_, ?_, ?_, ?_, ?_, ?_⟩
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
    exact hh
  · show after [_, _, _, _, _, _, _, _, _, _, _, _, _, _, _, _] W _ = _
    after_results_simp
    rw [hacc, hh]
    rfl

/-- Expert 8's second-layer operations (operations 311 … 326). -/
abbrev blk_layer2_8 : List (HloOp τ sig (Elt F)) := ops_311_327

/-- Expert 8's second-layer operations (16 of them): the arguments and the hidden array are kept and the running sum advances. -/
theorem layer2_8 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hh : W (Proc.devRef .tc main_v131) = val_main_v131 (F := F) x0 x1 x2 x3) (hacc : W (Proc.devRef .tc main_v236) = val_main_v236 (F := F) x0 x1 x2 x3 x4 x5) :
    after (blk_layer2_8 (F := F)) W (Proc.devRef .tc main_arg0) = x0
    ∧ after (blk_layer2_8 (F := F)) W (Proc.devRef .tc main_arg1) = x1
    ∧ after (blk_layer2_8 (F := F)) W (Proc.devRef .tc main_arg2) = x2
    ∧ after (blk_layer2_8 (F := F)) W (Proc.devRef .tc main_arg3) = x3
    ∧ after (blk_layer2_8 (F := F)) W (Proc.devRef .tc main_arg4) = x4
    ∧ after (blk_layer2_8 (F := F)) W (Proc.devRef .tc main_arg5) = x5
    ∧ after (blk_layer2_8 (F := F)) W (Proc.devRef .tc main_v131) = val_main_v131 (F := F) x0 x1 x2 x3
    ∧ after (blk_layer2_8 (F := F)) W (Proc.devRef .tc main_v249) = val_main_v249 (F := F) x0 x1 x2 x3 x4 x5 := by
  subst h0 h1 h2 h3 h4 h5
  refine ⟨?_, ?_, ?_, ?_, ?_, ?_, ?_, ?_⟩
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
    exact hh
  · show after [_, _, _, _, _, _, _, _, _, _, _, _, _, _, _, _] W _ = _
    after_results_simp
    rw [hacc, hh]
    rfl

/-- Expert 9's second-layer operations (operations 327 … 342). -/
abbrev blk_layer2_9 : List (HloOp τ sig (Elt F)) := ops_327_337 ++ (ops_337_343)

/-- Expert 9's second-layer operations (16 of them): the arguments and the hidden array are kept and the running sum advances. -/
theorem layer2_9 (W : Valuation τ sig (Elt F)) (x0 : (⟨S100000x256, .f32⟩ : BufTy).Contents (Elt F)) (x1 : (⟨S100000, .i32⟩ : BufTy).Contents (Elt F)) (x2 : (⟨S10x256x256, .f32⟩ : BufTy).Contents (Elt F)) (x3 : (⟨S10x256, .f32⟩ : BufTy).Contents (Elt F)) (x4 : (⟨S10x256x1, .f32⟩ : BufTy).Contents (Elt F)) (x5 : (⟨S10x1, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5)
    (hh : W (Proc.devRef .tc main_v131) = val_main_v131 (F := F) x0 x1 x2 x3) (hacc : W (Proc.devRef .tc main_v249) = val_main_v249 (F := F) x0 x1 x2 x3 x4 x5) :
    after (blk_layer2_9 (F := F)) W (Proc.devRef .tc main_arg0) = x0
    ∧ after (blk_layer2_9 (F := F)) W (Proc.devRef .tc main_arg1) = x1
    ∧ after (blk_layer2_9 (F := F)) W (Proc.devRef .tc main_arg2) = x2
    ∧ after (blk_layer2_9 (F := F)) W (Proc.devRef .tc main_arg3) = x3
    ∧ after (blk_layer2_9 (F := F)) W (Proc.devRef .tc main_arg4) = x4
    ∧ after (blk_layer2_9 (F := F)) W (Proc.devRef .tc main_arg5) = x5
    ∧ after (blk_layer2_9 (F := F)) W (Proc.devRef .tc main_v131) = val_main_v131 (F := F) x0 x1 x2 x3
    ∧ after (blk_layer2_9 (F := F)) W (Proc.devRef .tc main_v262) = val_main_v262 (F := F) x0 x1 x2 x3 x4 x5 := by
  subst h0 h1 h2 h3 h4 h5
  refine ⟨?_, ?_, ?_, ?_, ?_, ?_, ?_, ?_⟩
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
  · show after [_, _, _, _, _, _, _, _, _, _, _, _, _, _, _, _] W _ = _
    after_results_simp
    exact hh
  · show after [_, _, _, _, _, _, _, _, _, _, _, _, _, _, _, _] W _ = _
    after_results_simp
    rw [hacc, hh]
    rfl

end Cert.RefBlocks

end
-- ==== Proof.RefRun.lean ====
/-
  The reference program's run.

  The reference is a straight line of 343 host operations (Proof/RefMain.lean). Between two experts' blocks of
  operations only a few arrays are still read later: the six arguments, the running sum, and in the second layer the
  hidden array. So the contents after the whole line are computed block by block (`after_append`): each block's theorem
  (Proof/RefBlocks1.lean, Proof/RefBlocks2.lean) takes what those arrays hold before the block and says what they hold
  after it. Chaining the 21 blocks gives the arguments unchanged and the result buffer at the last stage of the second
  layer's running sum, the named value `val_main_v262` of the arguments (`contents_after`). The run (`run`) then reads
  every buffer after the line off `StableHlo.run_seq`.
-/
import proofs.«129769_j56959856280416_1_alg».proof.Proof.RefMain
import proofs.«129769_j56959856280416_1_alg».proof.Proof.RefBlocks1
import proofs.«129769_j56959856280416_1_alg».proof.Proof.RefBlocks2
import Idealize.ShloMosaic.Lib.StableHlo.Run

set_option maxRecDepth 8192

noncomputable section

namespace Cert.RefRun

open Cert.ReferenceIdeal Cert.ReferenceIdeal.Gen Cert.ReferenceIdeal.ValueP Cert.ReferenceIdeal.ReadP Cert.RefMain Cert.RefBlocks
open Idealize.ShloMosaic Idealize.ShloMosaic.TcCoe Idealize.SL.Sem Idealize.ShloMosaic.StableHlo

variable {F : FTy → Type} [FloatOps F]

/-- The contents after two lines run one after the other: the second line's, from the first line's. -/
theorem after_append (A B : List (HloOp τ sig (Elt F))) (V : Valuation τ sig (Elt F)) :
    after (A ++ B) V = after B (after A V) := by
  induction A generalizing V with
  | nil => rfl
  | cons op A ih => exact ih (op.result V)

/-- After the whole line the arguments are as launched and the result buffer holds the last stage of the second layer's
    running sum, as a function of the arguments. -/
theorem contents_after (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3)
    ∧ after (ops (F := F)) V (Proc.devRef .tc main_arg4) = V (Proc.devRef .tc main_arg4)
    ∧ after (ops (F := F)) V (Proc.devRef .tc main_arg5) = V (Proc.devRef .tc main_arg5)
    ∧ after (ops (F := F)) V (Proc.devRef .tc main_v262)
        = val_main_v262 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  have s0 := layer1_0 (F := F) V _ _ _ _ _ _ rfl rfl rfl rfl rfl rfl
  have s1 := layer1_1 (F := F) _ _ _ _ _ _ _ s0.1 s0.2.1 s0.2.2.1 s0.2.2.2.1 s0.2.2.2.2.1 s0.2.2.2.2.2.1 s0.2.2.2.2.2.2
  have s2 := layer1_2 (F := F) _ _ _ _ _ _ _ s1.1 s1.2.1 s1.2.2.1 s1.2.2.2.1 s1.2.2.2.2.1 s1.2.2.2.2.2.1 s1.2.2.2.2.2.2
  have s3 := layer1_3 (F := F) _ _ _ _ _ _ _ s2.1 s2.2.1 s2.2.2.1 s2.2.2.2.1 s2.2.2.2.2.1 s2.2.2.2.2.2.1 s2.2.2.2.2.2.2
  have s4 := layer1_4 (F := F) _ _ _ _ _ _ _ s3.1 s3.2.1 s3.2.2.1 s3.2.2.2.1 s3.2.2.2.2.1 s3.2.2.2.2.2.1 s3.2.2.2.2.2.2
  have s5 := layer1_5 (F := F) _ _ _ _ _ _ _ s4.1 s4.2.1 s4.2.2.1 s4.2.2.2.1 s4.2.2.2.2.1 s4.2.2.2.2.2.1 s4.2.2.2.2.2.2
  have s6 := layer1_6 (F := F) _ _ _ _ _ _ _ s5.1 s5.2.1 s5.2.2.1 s5.2.2.2.1 s5.2.2.2.2.1 s5.2.2.2.2.2.1 s5.2.2.2.2.2.2
  have s7 := layer1_7 (F := F) _ _ _ _ _ _ _ s6.1 s6.2.1 s6.2.2.1 s6.2.2.2.1 s6.2.2.2.2.1 s6.2.2.2.2.2.1 s6.2.2.2.2.2.2
  have s8 := layer1_8 (F := F) _ _ _ _ _ _ _ s7.1 s7.2.1 s7.2.2.1 s7.2.2.2.1 s7.2.2.2.2.1 s7.2.2.2.2.2.1 s7.2.2.2.2.2.2
  have s9 := layer1_9 (F := F) _ _ _ _ _ _ _ s8.1 s8.2.1 s8.2.2.1 s8.2.2.2.1 s8.2.2.2.2.1 s8.2.2.2.2.2.1 s8.2.2.2.2.2.2
  have s10 := activation (F := F) _ _ _ _ _ _ _ s9.1 s9.2.1 s9.2.2.1 s9.2.2.2.1 s9.2.2.2.2.1 s9.2.2.2.2.2.1 s9.2.2.2.2.2.2
  have s11 := layer2_0 (F := F) _ _ _ _ _ _ _ s10.1 s10.2.1 s10.2.2.1 s10.2.2.2.1 s10.2.2.2.2.1 s10.2.2.2.2.2.1 s10.2.2.2.2.2.2
  have s12 := layer2_1 (F := F) _ _ _ _ _ _ _ s11.1 s11.2.1 s11.2.2.1 s11.2.2.2.1 s11.2.2.2.2.1 s11.2.2.2.2.2.1 s11.2.2.2.2.2.2.1 s11.2.2.2.2.2.2.2
  have s13 := layer2_2 (F := F) _ _ _ _ _ _ _ s12.1 s12.2.1 s12.2.2.1 s12.2.2.2.1 s12.2.2.2.2.1 s12.2.2.2.2.2.1 s12.2.2.2.2.2.2.1 s12.2.2.2.2.2.2.2
  have s14 := layer2_3 (F := F) _ _ _ _ _ _ _ s13.1 s13.2.1 s13.2.2.1 s13.2.2.2.1 s13.2.2.2.2.1 s13.2.2.2.2.2.1 s13.2.2.2.2.2.2.1 s13.2.2.2.2.2.2.2
  have s15 := layer2_4 (F := F) _ _ _ _ _ _ _ s14.1 s14.2.1 s14.2.2.1 s14.2.2.2.1 s14.2.2.2.2.1 s14.2.2.2.2.2.1 s14.2.2.2.2.2.2.1 s14.2.2.2.2.2.2.2
  have s16 := layer2_5 (F := F) _ _ _ _ _ _ _ s15.1 s15.2.1 s15.2.2.1 s15.2.2.2.1 s15.2.2.2.2.1 s15.2.2.2.2.2.1 s15.2.2.2.2.2.2.1 s15.2.2.2.2.2.2.2
  have s17 := layer2_6 (F := F) _ _ _ _ _ _ _ s16.1 s16.2.1 s16.2.2.1 s16.2.2.2.1 s16.2.2.2.2.1 s16.2.2.2.2.2.1 s16.2.2.2.2.2.2.1 s16.2.2.2.2.2.2.2
  have s18 := layer2_7 (F := F) _ _ _ _ _ _ _ s17.1 s17.2.1 s17.2.2.1 s17.2.2.2.1 s17.2.2.2.2.1 s17.2.2.2.2.2.1 s17.2.2.2.2.2.2.1 s17.2.2.2.2.2.2.2
  have s19 := layer2_8 (F := F) _ _ _ _ _ _ _ s18.1 s18.2.1 s18.2.2.1 s18.2.2.2.1 s18.2.2.2.2.1 s18.2.2.2.2.2.1 s18.2.2.2.2.2.2.1 s18.2.2.2.2.2.2.2
  have s20 := layer2_9 (F := F) _ _ _ _ _ _ _ s19.1 s19.2.1 s19.2.2.1 s19.2.2.2.1 s19.2.2.2.2.1 s19.2.2.2.2.2.1 s19.2.2.2.2.2.2.1 s19.2.2.2.2.2.2.2
  have hsplit : after (ops (F := F)) V = (after (blk_layer2_9 (F := F)) (after (blk_layer2_8 (F := F)) (after (blk_layer2_7 (F := F)) (after (blk_layer2_6 (F := F)) (after (blk_layer2_5 (F := F)) (after (blk_layer2_4 (F := F)) (after (blk_layer2_3 (F := F)) (after (blk_layer2_2 (F := F)) (after (blk_layer2_1 (F := F)) (after (blk_layer2_0 (F := F)) (after (blk_activation (F := F)) (after (blk_layer1_9 (F := F)) (after (blk_layer1_8 (F := F)) (after (blk_layer1_7 (F := F)) (after (blk_layer1_6 (F := F)) (after (blk_layer1_5 (F := F)) (after (blk_layer1_4 (F := F)) (after (blk_layer1_3 (F := F)) (after (blk_layer1_2 (F := F)) (after (blk_layer1_1 (F := F)) (after (blk_layer1_0 (F := F)) V))))))))))))))))))))) := by
    simp only [ops, blk_layer1_0, blk_layer1_1, blk_layer1_2, blk_layer1_3, blk_layer1_4, blk_layer1_5, blk_layer1_6, blk_layer1_7, blk_layer1_8, blk_layer1_9, blk_activation, blk_layer2_0, blk_layer2_1, blk_layer2_2, blk_layer2_3, blk_layer2_4, blk_layer2_5, blk_layer2_6, blk_layer2_7, blk_layer2_8, blk_layer2_9, after_append]
  rw [hsplit]
  exact ⟨s20.1, s20.2.1, s20.2.2.1, s20.2.2.2.1, s20.2.2.2.2.1, s20.2.2.2.2.2.1, s20.2.2.2.2.2.2.2⟩

/-- On every device, from any memory with zero counters: every weakly fair execution of the reference terminates with its
    result buffer at the last stage, a function of the argument buffers, and the argument buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v262) = val_main_v262 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      have S := contents_after (F := F) (launchContents m c)
      ⟨(h c main_v262).trans S.2.2.2.2.2.2, (h c main_arg0).trans S.1, (h c main_arg1).trans S.2.1, (h c main_arg2).trans S.2.2.1,
        (h c main_arg3).trans S.2.2.2.1, (h c main_arg4).trans S.2.2.2.2.1, (h c main_arg5).trans S.2.2.2.2.2.1⟩)
    (run_seq scopedRefs_eq scopedSems_eq defs main (fun _ => ops) main_eq (fun _ => ops_sub) m ρ)

end Cert.RefRun

end
-- ==== Proof.RefRouted.lean ====
/-
  The reference program, read at one index of its result, is the two-layer perceptron that routes twice.

  The reference is a straight line of 343 array operations. For each of the ten experts e the first layer takes the
  e-th slice of the weights and of the biases, multiplies the whole input by it (a contraction over the 256 input
  entries), adds the bias row, keeps the rows whose species word equals e and puts zero elsewhere, and adds the result
  to a running sum that starts from zero. The activation y · (1 / (1 + exp (−y))) is then applied to the sum, and the
  second layer repeats the same ten steps on the activated array with the second weights (one output column) and
  biases. Read at row p, column q, every layout operation (slice, reshape, broadcast) is a re-indexing whose index
  arithmetic on the literal extents is checked here, so that:

    * expert e's first layer at (p, q) is  pre (row p of the input) W1 b1 e q               (pre_e),
    * its mask at (p, q) is the comparison of the species word of row p with e               (mask_e),
    * the running sum after the ten masked terms is the routed sum of the ten first layers   (hidden_pre),
    * the activation of it is  silu  of that routed sum, the quotient being the logistic     (hidden),
    * expert e's second layer at row p is  head W2 b2 e  of that hidden row                   (head_e),
    * and the last running sum is the routed sum of the ten heads, which is  outRef           (ref_value).

  The weights and biases are read in curried form: W1 e j k is the first weights at (e, j, k), b1 e k the first
  biases at (e, k), W2 e k the second weights at (e, k, 0), b2 e the second biases at (e, 0).
-/
import proofs.«129769_j56959856280416_1_alg».proof.Proof.ReadStages
import proofs.«129769_j56959856280416_1_alg».proof.Proof.RoutedMlp
import Idealize.ShloMosaic.Lib.ValueIdx
import Idealize.ShloMosaic.Lib.IdealHost
import Idealize.ShloMosaic.PureOps.Ideal.Laws

noncomputable section

namespace Cert.RefRouted

open Cert.ReferenceIdeal Cert.ReferenceIdeal.ReadP Idealize.ShloMosaic Idealize.ShloMosaic.ValueIdx
open Cert.RoutedMlp

/-- Row p of the input. -/
abbrev xrow (x0 : (⟨S100000x256, .f32⟩ : BufTy).Contents (Elt Ideal)) (p : Fin 100000) : Fin 256 → EReal := fun j => x0 (ix2 p j)
/-- The first layer's weights, curried. -/
abbrev w1 (x2 : (⟨S10x256x256, .f32⟩ : BufTy).Contents (Elt Ideal)) : Fin 10 → Fin 256 → Fin 256 → EReal := fun e j k => x2 (ix3 e j k)
/-- The first layer's biases, curried. -/
abbrev b1 (x3 : (⟨S10x256, .f32⟩ : BufTy).Contents (Elt Ideal)) : Fin 10 → Fin 256 → EReal := fun e k => x3 (ix2 e k)
/-- The second layer's weights (one output column), curried. -/
abbrev w2 (x4 : (⟨S10x256x1, .f32⟩ : BufTy).Contents (Elt Ideal)) : Fin 10 → Fin 256 → EReal := fun e k => x4 (ix3 e k 0)
/-- The second layer's biases, curried. -/
abbrev b2 (x5 : (⟨S10x1, .f32⟩ : BufTy).Contents (Elt Ideal)) : Fin 10 → EReal := fun e => x5 (ix2 e 0)

section Stages

variable (x0 : (⟨S100000x256, .f32⟩ : BufTy).Contents (Elt Ideal)) (x1 : (⟨S100000, .i32⟩ : BufTy).Contents (Elt Ideal)) (x2 : (⟨S10x256x256, .f32⟩ : BufTy).Contents (Elt Ideal)) (x3 : (⟨S10x256, .f32⟩ : BufTy).Contents (Elt Ideal)) (x4 : (⟨S10x256x1, .f32⟩ : BufTy).Contents (Elt Ideal)) (x5 : (⟨S10x1, .f32⟩ : BufTy).Contents (Elt Ideal))

/-! ## The first layer, expert by expert -/

/-- Expert 0's first layer at (p, q): the contraction reads input row p against slice 0 of the weights, column q,
    and the broadcast bias reads slice 0 of the biases at q. -/
theorem pre_0 (p : Fin 100000) (q : Fin 256) :
    val_main_v11 (F := Ideal) x0 x2 x3 (ix2 p q) = pre (xrow x0 p) (w1 x2) (b1 x3) 0 q := by
  have hl : ∀ k : Fin 256, lidx_main_v6 (ix2 p q) k = ix2 p k := fun k => funext fun a => Fin.ext (by
    match a with
    | ⟨0, _⟩ => rfl
    | ⟨1, _⟩ => rfl)
  have hr : ∀ k : Fin 256, idx_main_v4 (idx_main_v5 (ridx_main_v6 (ix2 p q) k)) = ix3 (0 : Fin 10) k q := fun k => funext fun a => Fin.ext (by
    have hk : k.val < 256 := k.isLt
    have hq : q.val < 256 := q.isLt
    match a with
    | ⟨0, _⟩ => rfl
    | ⟨1, _⟩ => show (k.val * 256 + q.val) / 256 % 256 = k.val; omega
    | ⟨2, _⟩ => show (k.val * 256 + q.val) % 256 = q.val; omega)
  have hb : idx_main_v7 (idx_main_v8 (idx_main_v9 (idx_main_v10 (ix2 p q)))) = ix2 (0 : Fin 10) q := funext fun a => Fin.ext (by
    have hq : q.val < 256 := q.isLt
    match a with
    | ⟨0, _⟩ => rfl
    | ⟨1, _⟩ => show q.val % 256 = q.val; omega)
  rw [val_main_v11_apply, val_main_v6_apply, val_main_v10_apply, val_main_v9_apply, val_main_v8_apply, val_main_v7_apply, hb]
  simp only [val_main_v5_apply, val_main_v4_apply, hl, hr]
  rfl

/-- Expert 0's mask at (p, q) compares the species word of row p with 0. -/
theorem mask_0 (p : Fin 100000) (q : Fin 256) :
    val_main_call0_v0 (F := Ideal) x1 (ix2 p q) = IntOp.cmpi .eq (x1 (ix1 p)) 0#32 := by
  have h : idx_main_v3 (idx_main_call0_v0 (ix2 p q)) = ix1 p := funext fun a => Fin.ext (by
    match a with
    | ⟨0, _⟩ => rfl)
  rw [val_main_call0_v0_apply, val_main_v3_apply, val_main_v2_apply, val_main_v1_apply, val_main_c_apply, h]

/-- Expert 0's masked term at (p, q). -/
theorem term_0 (p : Fin 100000) (q : Fin 256) :
    val_main_v12 (F := Ideal) x0 x1 x2 x3 (ix2 p q) = pick (x1 (ix1 p)) 0#32 (pre (xrow x0 p) (w1 x2) (b1 x3) 0 q) := by
  rw [val_main_v12_apply, mask_0, pre_0, val_main_call0_v1_apply, val_main_cst_0_apply, Ideal.ofBits_def, Ideal.ofBits_zero_f32]
  rfl

/-- Expert 1's first layer at (p, q): the contraction reads input row p against slice 1 of the weights, column q,
    and the broadcast bias reads slice 1 of the biases at q. -/
theorem pre_1 (p : Fin 100000) (q : Fin 256) :
    val_main_v24 (F := Ideal) x0 x2 x3 (ix2 p q) = pre (xrow x0 p) (w1 x2) (b1 x3) 1 q := by
  have hl : ∀ k : Fin 256, lidx_main_v19 (ix2 p q) k = ix2 p k := fun k => funext fun a => Fin.ext (by
    match a with
    | ⟨0, _⟩ => rfl
    | ⟨1, _⟩ => rfl)
  have hr : ∀ k : Fin 256, idx_main_v17 (idx_main_v18 (ridx_main_v19 (ix2 p q) k)) = ix3 (1 : Fin 10) k q := fun k => funext fun a => Fin.ext (by
    have hk : k.val < 256 := k.isLt
    have hq : q.val < 256 := q.isLt
    match a with
    | ⟨0, _⟩ => rfl
    | ⟨1, _⟩ => show (k.val * 256 + q.val) / 256 % 256 = k.val; omega
    | ⟨2, _⟩ => show (k.val * 256 + q.val) % 256 = q.val; omega)
  have hb : idx_main_v20 (idx_main_v21 (idx_main_v22 (idx_main_v23 (ix2 p q)))) = ix2 (1 : Fin 10) q := funext fun a => Fin.ext (by
    have hq : q.val < 256 := q.isLt
    match a with
    | ⟨0, _⟩ => rfl
    | ⟨1, _⟩ => show q.val % 256 = q.val; omega)
  rw [val_main_v24_apply, val_main_v19_apply, val_main_v23_apply, val_main_v22_apply, val_main_v21_apply, val_main_v20_apply, hb]
  simp only [val_main_v18_apply, val_main_v17_apply, hl, hr]
  rfl

/-- Expert 1's mask at (p, q) compares the species word of row p with 1. -/
theorem mask_1 (p : Fin 100000) (q : Fin 256) :
    val_main_call1_v0 (F := Ideal) x1 (ix2 p q) = IntOp.cmpi .eq (x1 (ix1 p)) 1#32 := by
  have h : idx_main_v16 (idx_main_call1_v0 (ix2 p q)) = ix1 p := funext fun a => Fin.ext (by
    match a with
    | ⟨0, _⟩ => rfl)
  rw [val_main_call1_v0_apply, val_main_v16_apply, val_main_v15_apply, val_main_v14_apply, val_main_c_1_apply, h]

/-- Expert 1's masked term at (p, q). -/
theorem term_1 (p : Fin 100000) (q : Fin 256) :
    val_main_v25 (F := Ideal) x0 x1 x2 x3 (ix2 p q) = pick (x1 (ix1 p)) 1#32 (pre (xrow x0 p) (w1 x2) (b1 x3) 1 q) := by
  rw [val_main_v25_apply, mask_1, pre_1, val_main_call1_v1_apply, val_main_cst_2_apply, Ideal.ofBits_def, Ideal.ofBits_zero_f32]
  rfl

/-- Expert 2's first layer at (p, q): the contraction reads input row p against slice 2 of the weights, column q,
    and the broadcast bias reads slice 2 of the biases at q. -/
theorem pre_2 (p : Fin 100000) (q : Fin 256) :
    val_main_v37 (F := Ideal) x0 x2 x3 (ix2 p q) = pre (xrow x0 p) (w1 x2) (b1 x3) 2 q := by
  have hl : ∀ k : Fin 256, lidx_main_v32 (ix2 p q) k = ix2 p k := fun k => funext fun a => Fin.ext (by
    match a with
    | ⟨0, _⟩ => rfl
    | ⟨1, _⟩ => rfl)
  have hr : ∀ k : Fin 256, idx_main_v30 (idx_main_v31 (ridx_main_v32 (ix2 p q) k)) = ix3 (2 : Fin 10) k q := fun k => funext fun a => Fin.ext (by
    have hk : k.val < 256 := k.isLt
    have hq : q.val < 256 := q.isLt
    match a with
    | ⟨0, _⟩ => rfl
    | ⟨1, _⟩ => show (k.val * 256 + q.val) / 256 % 256 = k.val; omega
    | ⟨2, _⟩ => show (k.val * 256 + q.val) % 256 = q.val; omega)
  have hb : idx_main_v33 (idx_main_v34 (idx_main_v35 (idx_main_v36 (ix2 p q)))) = ix2 (2 : Fin 10) q := funext fun a => Fin.ext (by
    have hq : q.val < 256 := q.isLt
    match a with
    | ⟨0, _⟩ => rfl
    | ⟨1, _⟩ => show q.val % 256 = q.val; omega)
  rw [val_main_v37_apply, val_main_v32_apply, val_main_v36_apply, val_main_v35_apply, val_main_v34_apply, val_main_v33_apply, hb]
  simp only [val_main_v31_apply, val_main_v30_apply, hl, hr]
  rfl

/-- Expert 2's mask at (p, q) compares the species word of row p with 2. -/
theorem mask_2 (p : Fin 100000) (q : Fin 256) :
    val_main_call2_v0 (F := Ideal) x1 (ix2 p q) = IntOp.cmpi .eq (x1 (ix1 p)) 2#32 := by
  have h : idx_main_v29 (idx_main_call2_v0 (ix2 p q)) = ix1 p := funext fun a => Fin.ext (by
    match a with
    | ⟨0, _⟩ => rfl)
  rw [val_main_call2_v0_apply, val_main_v29_apply, val_main_v28_apply, val_main_v27_apply, val_main_c_3_apply, h]

/-- Expert 2's masked term at (p, q). -/
theorem term_2 (p : Fin 100000) (q : Fin 256) :
    val_main_v38 (F := Ideal) x0 x1 x2 x3 (ix2 p q) = pick (x1 (ix1 p)) 2#32 (pre (xrow x0 p) (w1 x2) (b1 x3) 2 q) := by
  rw [val_main_v38_apply, mask_2, pre_2, val_main_call2_v1_apply, val_main_cst_4_apply, Ideal.ofBits_def, Ideal.ofBits_zero_f32]
  rfl

/-- Expert 3's first layer at (p, q): the contraction reads input row p against slice 3 of the weights, column q,
    and the broadcast bias reads slice 3 of the biases at q. -/
theorem pre_3 (p : Fin 100000) (q : Fin 256) :
    val_main_v50 (F := Ideal) x0 x2 x3 (ix2 p q) = pre (xrow x0 p) (w1 x2) (b1 x3) 3 q := by
  have hl : ∀ k : Fin 256, lidx_main_v45 (ix2 p q) k = ix2 p k := fun k => funext fun a => Fin.ext (by
    match a with
    | ⟨0, _⟩ => rfl
    | ⟨1, _⟩ => rfl)
  have hr : ∀ k : Fin 256, idx_main_v43 (idx_main_v44 (ridx_main_v45 (ix2 p q) k)) = ix3 (3 : Fin 10) k q := fun k => funext fun a => Fin.ext (by
    have hk : k.val < 256 := k.isLt
    have hq : q.val < 256 := q.isLt
    match a with
    | ⟨0, _⟩ => rfl
    | ⟨1, _⟩ => show (k.val * 256 + q.val) / 256 % 256 = k.val; omega
    | ⟨2, _⟩ => show (k.val * 256 + q.val) % 256 = q.val; omega)
  have hb : idx_main_v46 (idx_main_v47 (idx_main_v48 (idx_main_v49 (ix2 p q)))) = ix2 (3 : Fin 10) q := funext fun a => Fin.ext (by
    have hq : q.val < 256 := q.isLt
    match a with
    | ⟨0, _⟩ => rfl
    | ⟨1, _⟩ => show q.val % 256 = q.val; omega)
  rw [val_main_v50_apply, val_main_v45_apply, val_main_v49_apply, val_main_v48_apply, val_main_v47_apply, val_main_v46_apply, hb]
  simp only [val_main_v44_apply, val_main_v43_apply, hl, hr]
  rfl

/-- Expert 3's mask at (p, q) compares the species word of row p with 3. -/
theorem mask_3 (p : Fin 100000) (q : Fin 256) :
    val_main_call3_v0 (F := Ideal) x1 (ix2 p q) = IntOp.cmpi .eq (x1 (ix1 p)) 3#32 := by
  have h : idx_main_v42 (idx_main_call3_v0 (ix2 p q)) = ix1 p := funext fun a => Fin.ext (by
    match a with
    | ⟨0, _⟩ => rfl)
  rw [val_main_call3_v0_apply, val_main_v42_apply, val_main_v41_apply, val_main_v40_apply, val_main_c_5_apply, h]

/-- Expert 3's masked term at (p, q). -/
theorem term_3 (p : Fin 100000) (q : Fin 256) :
    val_main_v51 (F := Ideal) x0 x1 x2 x3 (ix2 p q) = pick (x1 (ix1 p)) 3#32 (pre (xrow x0 p) (w1 x2) (b1 x3) 3 q) := by
  rw [val_main_v51_apply, mask_3, pre_3, val_main_call3_v1_apply, val_main_cst_6_apply, Ideal.ofBits_def, Ideal.ofBits_zero_f32]
  rfl

/-- Expert 4's first layer at (p, q): the contraction reads input row p against slice 4 of the weights, column q,
    and the broadcast bias reads slice 4 of the biases at q. -/
theorem pre_4 (p : Fin 100000) (q : Fin 256) :
    val_main_v63 (F := Ideal) x0 x2 x3 (ix2 p q) = pre (xrow x0 p) (w1 x2) (b1 x3) 4 q := by
  have hl : ∀ k : Fin 256, lidx_main_v58 (ix2 p q) k = ix2 p k := fun k => funext fun a => Fin.ext (by
    match a with
    | ⟨0, _⟩ => rfl
    | ⟨1, _⟩ => rfl)
  have hr : ∀ k : Fin 256, idx_main_v56 (idx_main_v57 (ridx_main_v58 (ix2 p q) k)) = ix3 (4 : Fin 10) k q := fun k => funext fun a => Fin.ext (by
    have hk : k.val < 256 := k.isLt
    have hq : q.val < 256 := q.isLt
    match a with
    | ⟨0, _⟩ => rfl
    | ⟨1, _⟩ => show (k.val * 256 + q.val) / 256 % 256 = k.val; omega
    | ⟨2, _⟩ => show (k.val * 256 + q.val) % 256 = q.val; omega)
  have hb : idx_main_v59 (idx_main_v60 (idx_main_v61 (idx_main_v62 (ix2 p q)))) = ix2 (4 : Fin 10) q := funext fun a => Fin.ext (by
    have hq : q.val < 256 := q.isLt
    match a with
    | ⟨0, _⟩ => rfl
    | ⟨1, _⟩ => show q.val % 256 = q.val; omega)
  rw [val_main_v63_apply, val_main_v58_apply, val_main_v62_apply, val_main_v61_apply, val_main_v60_apply, val_main_v59_apply, hb]
  simp only [val_main_v57_apply, val_main_v56_apply, hl, hr]
  rfl

/-- Expert 4's mask at (p, q) compares the species word of row p with 4. -/
theorem mask_4 (p : Fin 100000) (q : Fin 256) :
    val_main_call4_v0 (F := Ideal) x1 (ix2 p q) = IntOp.cmpi .eq (x1 (ix1 p)) 4#32 := by
  have h : idx_main_v55 (idx_main_call4_v0 (ix2 p q)) = ix1 p := funext fun a => Fin.ext (by
    match a with
    | ⟨0, _⟩ => rfl)
  rw [val_main_call4_v0_apply, val_main_v55_apply, val_main_v54_apply, val_main_v53_apply, val_main_c_7_apply, h]

/-- Expert 4's masked term at (p, q). -/
theorem term_4 (p : Fin 100000) (q : Fin 256) :
    val_main_v64 (F := Ideal) x0 x1 x2 x3 (ix2 p q) = pick (x1 (ix1 p)) 4#32 (pre (xrow x0 p) (w1 x2) (b1 x3) 4 q) := by
  rw [val_main_v64_apply, mask_4, pre_4, val_main_call4_v1_apply, val_main_cst_8_apply, Ideal.ofBits_def, Ideal.ofBits_zero_f32]
  rfl

/-- Expert 5's first layer at (p, q): the contraction reads input row p against slice 5 of the weights, column q,
    and the broadcast bias reads slice 5 of the biases at q. -/
theorem pre_5 (p : Fin 100000) (q : Fin 256) :
    val_main_v76 (F := Ideal) x0 x2 x3 (ix2 p q) = pre (xrow x0 p) (w1 x2) (b1 x3) 5 q := by
  have hl : ∀ k : Fin 256, lidx_main_v71 (ix2 p q) k = ix2 p k := fun k => funext fun a => Fin.ext (by
    match a with
    | ⟨0, _⟩ => rfl
    | ⟨1, _⟩ => rfl)
  have hr : ∀ k : Fin 256, idx_main_v69 (idx_main_v70 (ridx_main_v71 (ix2 p q) k)) = ix3 (5 : Fin 10) k q := fun k => funext fun a => Fin.ext (by
    have hk : k.val < 256 := k.isLt
    have hq : q.val < 256 := q.isLt
    match a with
    | ⟨0, _⟩ => rfl
    | ⟨1, _⟩ => show (k.val * 256 + q.val) / 256 % 256 = k.val; omega
    | ⟨2, _⟩ => show (k.val * 256 + q.val) % 256 = q.val; omega)
  have hb : idx_main_v72 (idx_main_v73 (idx_main_v74 (idx_main_v75 (ix2 p q)))) = ix2 (5 : Fin 10) q := funext fun a => Fin.ext (by
    have hq : q.val < 256 := q.isLt
    match a with
    | ⟨0, _⟩ => rfl
    | ⟨1, _⟩ => show q.val % 256 = q.val; omega)
  rw [val_main_v76_apply, val_main_v71_apply, val_main_v75_apply, val_main_v74_apply, val_main_v73_apply, val_main_v72_apply, hb]
  simp only [val_main_v70_apply, val_main_v69_apply, hl, hr]
  rfl

/-- Expert 5's mask at (p, q) compares the species word of row p with 5. -/
theorem mask_5 (p : Fin 100000) (q : Fin 256) :
    val_main_call5_v0 (F := Ideal) x1 (ix2 p q) = IntOp.cmpi .eq (x1 (ix1 p)) 5#32 := by
  have h : idx_main_v68 (idx_main_call5_v0 (ix2 p q)) = ix1 p := funext fun a => Fin.ext (by
    match a with
    | ⟨0, _⟩ => rfl)
  rw [val_main_call5_v0_apply, val_main_v68_apply, val_main_v67_apply, val_main_v66_apply, val_main_c_9_apply, h]

/-- Expert 5's masked term at (p, q). -/
theorem term_5 (p : Fin 100000) (q : Fin 256) :
    val_main_v77 (F := Ideal) x0 x1 x2 x3 (ix2 p q) = pick (x1 (ix1 p)) 5#32 (pre (xrow x0 p) (w1 x2) (b1 x3) 5 q) := by
  rw [val_main_v77_apply, mask_5, pre_5, val_main_call5_v1_apply, val_main_cst_10_apply, Ideal.ofBits_def, Ideal.ofBits_zero_f32]
  rfl

/-- Expert 6's first layer at (p, q): the contraction reads input row p against slice 6 of the weights, column q,
    and the broadcast bias reads slice 6 of the biases at q. -/
theorem pre_6 (p : Fin 100000) (q : Fin 256) :
    val_main_v89 (F := Ideal) x0 x2 x3 (ix2 p q) = pre (xrow x0 p) (w1 x2) (b1 x3) 6 q := by
  have hl : ∀ k : Fin 256, lidx_main_v84 (ix2 p q) k = ix2 p k := fun k => funext fun a => Fin.ext (by
    match a with
    | ⟨0, _⟩ => rfl
    | ⟨1, _⟩ => rfl)
  have hr : ∀ k : Fin 256, idx_main_v82 (idx_main_v83 (ridx_main_v84 (ix2 p q) k)) = ix3 (6 : Fin 10) k q := fun k => funext fun a => Fin.ext (by
    have hk : k.val < 256 := k.isLt
    have hq : q.val < 256 := q.isLt
    match a with
    | ⟨0, _⟩ => rfl
    | ⟨1, _⟩ => show (k.val * 256 + q.val) / 256 % 256 = k.val; omega
    | ⟨2, _⟩ => show (k.val * 256 + q.val) % 256 = q.val; omega)
  have hb : idx_main_v85 (idx_main_v86 (idx_main_v87 (idx_main_v88 (ix2 p q)))) = ix2 (6 : Fin 10) q := funext fun a => Fin.ext (by
    have hq : q.val < 256 := q.isLt
    match a with
    | ⟨0, _⟩ => rfl
    | ⟨1, _⟩ => show q.val % 256 = q.val; omega)
  rw [val_main_v89_apply, val_main_v84_apply, val_main_v88_apply, val_main_v87_apply, val_main_v86_apply, val_main_v85_apply, hb]
  simp only [val_main_v83_apply, val_main_v82_apply, hl, hr]
  rfl

/-- Expert 6's mask at (p, q) compares the species word of row p with 6. -/
theorem mask_6 (p : Fin 100000) (q : Fin 256) :
    val_main_call6_v0 (F := Ideal) x1 (ix2 p q) = IntOp.cmpi .eq (x1 (ix1 p)) 6#32 := by
  have h : idx_main_v81 (idx_main_call6_v0 (ix2 p q)) = ix1 p := funext fun a => Fin.ext (by
    match a with
    | ⟨0, _⟩ => rfl)
  rw [val_main_call6_v0_apply, val_main_v81_apply, val_main_v80_apply, val_main_v79_apply, val_main_c_11_apply, h]

/-- Expert 6's masked term at (p, q). -/
theorem term_6 (p : Fin 100000) (q : Fin 256) :
    val_main_v90 (F := Ideal) x0 x1 x2 x3 (ix2 p q) = pick (x1 (ix1 p)) 6#32 (pre (xrow x0 p) (w1 x2) (b1 x3) 6 q) := by
  rw [val_main_v90_apply, mask_6, pre_6, val_main_call6_v1_apply, val_main_cst_12_apply, Ideal.ofBits_def, Ideal.ofBits_zero_f32]
  rfl

/-- Expert 7's first layer at (p, q): the contraction reads input row p against slice 7 of the weights, column q,
    and the broadcast bias reads slice 7 of the biases at q. -/
theorem pre_7 (p : Fin 100000) (q : Fin 256) :
    val_main_v102 (F := Ideal) x0 x2 x3 (ix2 p q) = pre (xrow x0 p) (w1 x2) (b1 x3) 7 q := by
  have hl : ∀ k : Fin 256, lidx_main_v97 (ix2 p q) k = ix2 p k := fun k => funext fun a => Fin.ext (by
    match a with
    | ⟨0, _⟩ => rfl
    | ⟨1, _⟩ => rfl)
  have hr : ∀ k : Fin 256, idx_main_v95 (idx_main_v96 (ridx_main_v97 (ix2 p q) k)) = ix3 (7 : Fin 10) k q := fun k => funext fun a => Fin.ext (by
    have hk : k.val < 256 := k.isLt
    have hq : q.val < 256 := q.isLt
    match a with
    | ⟨0, _⟩ => rfl
    | ⟨1, _⟩ => show (k.val * 256 + q.val) / 256 % 256 = k.val; omega
    | ⟨2, _⟩ => show (k.val * 256 + q.val) % 256 = q.val; omega)
  have hb : idx_main_v98 (idx_main_v99 (idx_main_v100 (idx_main_v101 (ix2 p q)))) = ix2 (7 : Fin 10) q := funext fun a => Fin.ext (by
    have hq : q.val < 256 := q.isLt
    match a with
    | ⟨0, _⟩ => rfl
    | ⟨1, _⟩ => show q.val % 256 = q.val; omega)
  rw [val_main_v102_apply, val_main_v97_apply, val_main_v101_apply, val_main_v100_apply, val_main_v99_apply, val_main_v98_apply, hb]
  simp only [val_main_v96_apply, val_main_v95_apply, hl, hr]
  rfl

/-- Expert 7's mask at (p, q) compares the species word of row p with 7. -/
theorem mask_7 (p : Fin 100000) (q : Fin 256) :
    val_main_call7_v0 (F := Ideal) x1 (ix2 p q) = IntOp.cmpi .eq (x1 (ix1 p)) 7#32 := by
  have h : idx_main_v94 (idx_main_call7_v0 (ix2 p q)) = ix1 p := funext fun a => Fin.ext (by
    match a with
    | ⟨0, _⟩ => rfl)
  rw [val_main_call7_v0_apply, val_main_v94_apply, val_main_v93_apply, val_main_v92_apply, val_main_c_13_apply, h]

/-- Expert 7's masked term at (p, q). -/
theorem term_7 (p : Fin 100000) (q : Fin 256) :
    val_main_v103 (F := Ideal) x0 x1 x2 x3 (ix2 p q) = pick (x1 (ix1 p)) 7#32 (pre (xrow x0 p) (w1 x2) (b1 x3) 7 q) := by
  rw [val_main_v103_apply, mask_7, pre_7, val_main_call7_v1_apply, val_main_cst_14_apply, Ideal.ofBits_def, Ideal.ofBits_zero_f32]
  rfl

/-- Expert 8's first layer at (p, q): the contraction reads input row p against slice 8 of the weights, column q,
    and the broadcast bias reads slice 8 of the biases at q. -/
theorem pre_8 (p : Fin 100000) (q : Fin 256) :
    val_main_v115 (F := Ideal) x0 x2 x3 (ix2 p q) = pre (xrow x0 p) (w1 x2) (b1 x3) 8 q := by
  have hl : ∀ k : Fin 256, lidx_main_v110 (ix2 p q) k = ix2 p k := fun k => funext fun a => Fin.ext (by
    match a with
    | ⟨0, _⟩ => rfl
    | ⟨1, _⟩ => rfl)
  have hr : ∀ k : Fin 256, idx_main_v108 (idx_main_v109 (ridx_main_v110 (ix2 p q) k)) = ix3 (8 : Fin 10) k q := fun k => funext fun a => Fin.ext (by
    have hk : k.val < 256 := k.isLt
    have hq : q.val < 256 := q.isLt
    match a with
    | ⟨0, _⟩ => rfl
    | ⟨1, _⟩ => show (k.val * 256 + q.val) / 256 % 256 = k.val; omega
    | ⟨2, _⟩ => show (k.val * 256 + q.val) % 256 = q.val; omega)
  have hb : idx_main_v111 (idx_main_v112 (idx_main_v113 (idx_main_v114 (ix2 p q)))) = ix2 (8 : Fin 10) q := funext fun a => Fin.ext (by
    have hq : q.val < 256 := q.isLt
    match a with
    | ⟨0, _⟩ => rfl
    | ⟨1, _⟩ => show q.val % 256 = q.val; omega)
  rw [val_main_v115_apply, val_main_v110_apply, val_main_v114_apply, val_main_v113_apply, val_main_v112_apply, val_main_v111_apply, hb]
  simp only [val_main_v109_apply, val_main_v108_apply, hl, hr]
  rfl

/-- Expert 8's mask at (p, q) compares the species word of row p with 8. -/
theorem mask_8 (p : Fin 100000) (q : Fin 256) :
    val_main_call8_v0 (F := Ideal) x1 (ix2 p q) = IntOp.cmpi .eq (x1 (ix1 p)) 8#32 := by
  have h : idx_main_v107 (idx_main_call8_v0 (ix2 p q)) = ix1 p := funext fun a => Fin.ext (by
    match a with
    | ⟨0, _⟩ => rfl)
  rw [val_main_call8_v0_apply, val_main_v107_apply, val_main_v106_apply, val_main_v105_apply, val_main_c_15_apply, h]

/-- Expert 8's masked term at (p, q). -/
theorem term_8 (p : Fin 100000) (q : Fin 256) :
    val_main_v116 (F := Ideal) x0 x1 x2 x3 (ix2 p q) = pick (x1 (ix1 p)) 8#32 (pre (xrow x0 p) (w1 x2) (b1 x3) 8 q) := by
  rw [val_main_v116_apply, mask_8, pre_8, val_main_call8_v1_apply, val_main_cst_16_apply, Ideal.ofBits_def, Ideal.ofBits_zero_f32]
  rfl

/-- Expert 9's first layer at (p, q): the contraction reads input row p against slice 9 of the weights, column q,
    and the broadcast bias reads slice 9 of the biases at q. -/
theorem pre_9 (p : Fin 100000) (q : Fin 256) :
    val_main_v128 (F := Ideal) x0 x2 x3 (ix2 p q) = pre (xrow x0 p) (w1 x2) (b1 x3) 9 q := by
  have hl : ∀ k : Fin 256, lidx_main_v123 (ix2 p q) k = ix2 p k := fun k => funext fun a => Fin.ext (by
    match a with
    | ⟨0, _⟩ => rfl
    | ⟨1, _⟩ => rfl)
  have hr : ∀ k : Fin 256, idx_main_v121 (idx_main_v122 (ridx_main_v123 (ix2 p q) k)) = ix3 (9 : Fin 10) k q := fun k => funext fun a => Fin.ext (by
    have hk : k.val < 256 := k.isLt
    have hq : q.val < 256 := q.isLt
    match a with
    | ⟨0, _⟩ => rfl
    | ⟨1, _⟩ => show (k.val * 256 + q.val) / 256 % 256 = k.val; omega
    | ⟨2, _⟩ => show (k.val * 256 + q.val) % 256 = q.val; omega)
  have hb : idx_main_v124 (idx_main_v125 (idx_main_v126 (idx_main_v127 (ix2 p q)))) = ix2 (9 : Fin 10) q := funext fun a => Fin.ext (by
    have hq : q.val < 256 := q.isLt
    match a with
    | ⟨0, _⟩ => rfl
    | ⟨1, _⟩ => show q.val % 256 = q.val; omega)
  rw [val_main_v128_apply, val_main_v123_apply, val_main_v127_apply, val_main_v126_apply, val_main_v125_apply, val_main_v124_apply, hb]
  simp only [val_main_v122_apply, val_main_v121_apply, hl, hr]
  rfl

/-- Expert 9's mask at (p, q) compares the species word of row p with 9. -/
theorem mask_9 (p : Fin 100000) (q : Fin 256) :
    val_main_call9_v0 (F := Ideal) x1 (ix2 p q) = IntOp.cmpi .eq (x1 (ix1 p)) 9#32 := by
  have h : idx_main_v120 (idx_main_call9_v0 (ix2 p q)) = ix1 p := funext fun a => Fin.ext (by
    match a with
    | ⟨0, _⟩ => rfl)
  rw [val_main_call9_v0_apply, val_main_v120_apply, val_main_v119_apply, val_main_v118_apply, val_main_c_17_apply, h]

/-- Expert 9's masked term at (p, q). -/
theorem term_9 (p : Fin 100000) (q : Fin 256) :
    val_main_v129 (F := Ideal) x0 x1 x2 x3 (ix2 p q) = pick (x1 (ix1 p)) 9#32 (pre (xrow x0 p) (w1 x2) (b1 x3) 9 q) := by
  rw [val_main_v129_apply, mask_9, pre_9, val_main_call9_v1_apply, val_main_cst_18_apply, Ideal.ofBits_def, Ideal.ofBits_zero_f32]
  rfl

/-! ## The hidden row -/

/-- The running sum after the ten masked first layers is their routed sum. -/
theorem hidden_pre (p : Fin 100000) (q : Fin 256) :
    val_main_v130 (F := Ideal) x0 x1 x2 x3 (ix2 p q)
      = routed (x1 (ix1 p)) fun e => pre (xrow x0 p) (w1 x2) (b1 x3) e q := by
  rw [val_main_v130_apply, val_main_v117_apply, val_main_v104_apply, val_main_v91_apply, val_main_v78_apply, val_main_v65_apply, val_main_v52_apply, val_main_v39_apply, val_main_v26_apply, val_main_v13_apply, val_main_v0_apply, val_main_cst_apply,
    term_0, term_1, term_2, term_3, term_4, term_5, term_6, term_7, term_8, term_9, Ideal.ofBits_def, Ideal.ofBits_zero_f32]
  rfl

/-- The activation of the running sum: the quotient 1 / (1 + exp (−y)) is the logistic of y, so y times it is silu y. -/
theorem hidden (p : Fin 100000) (q : Fin 256) :
    val_main_v131 (F := Ideal) x0 x1 x2 x3 (ix2 p q)
      = silu (routed (x1 (ix1 p)) fun e => pre (xrow x0 p) (w1 x2) (b1 x3) e q) := by
  rw [val_main_v131_apply, val_main_call10_v5_apply, val_main_call10_v4_apply, val_main_call10_cst_0_apply,
    val_main_call10_v3_apply, val_main_call10_v2_apply, val_main_call10_cst_apply, val_main_call10_v1_apply,
    val_main_call10_v0_apply, hidden_pre, Ideal.ofBits_def, Ideal.ofBits_one_f32]
  rfl

/-! ## The second layer, expert by expert (the result has one column: z is its only column index) -/

/-- Expert 0's second layer at row p: the contraction reads the hidden row against slice 0 of the second weights,
    and the broadcast bias reads slice 0 of the second biases. -/
theorem head_0 (p : Fin 100000) (z : Fin 1) :
    val_main_v143 (F := Ideal) x0 x1 x2 x3 x4 x5 (ix2 p z)
      = head (w2 x4) (b2 x5) 0 fun k => routed (x1 (ix1 p)) fun e => pre (xrow x0 p) (w1 x2) (b1 x3) e k := by
  have hl : ∀ k : Fin 256, lidx_main_v138 (ix2 p z) k = ix2 p k := fun k => funext fun a => Fin.ext (by
    match a with
    | ⟨0, _⟩ => rfl
    | ⟨1, _⟩ => rfl)
  have hr : ∀ k : Fin 256, idx_main_v136 (idx_main_v137 (ridx_main_v138 (ix2 p z) k)) = ix3 (0 : Fin 10) k (0 : Fin 1) := fun k => funext fun a => Fin.ext (by
    have hk : k.val < 256 := k.isLt
    have hz : z.val < 1 := z.isLt
    match a with
    | ⟨0, _⟩ => rfl
    | ⟨1, _⟩ => show (k.val * 1 + z.val) / 1 % 256 = k.val; omega
    | ⟨2, _⟩ => rfl)
  have hb : idx_main_v139 (idx_main_v140 (idx_main_v141 (idx_main_v142 (ix2 p z)))) = ix2 (0 : Fin 10) (0 : Fin 1) := funext fun a => Fin.ext (by
    match a with
    | ⟨0, _⟩ => rfl
    | ⟨1, _⟩ => rfl)
  rw [val_main_v143_apply, val_main_v138_apply, val_main_v142_apply, val_main_v141_apply, val_main_v140_apply, val_main_v139_apply, hb]
  simp only [val_main_v137_apply, val_main_v136_apply, hl, hr, hidden]
  rfl

/-- Expert 0's masked second-layer term at row p. -/
theorem out_0 (p : Fin 100000) (z : Fin 1) :
    val_main_v144 (F := Ideal) x0 x1 x2 x3 x4 x5 (ix2 p z)
      = pick (x1 (ix1 p)) 0#32
          (head (w2 x4) (b2 x5) 0 fun k => routed (x1 (ix1 p)) fun e => pre (xrow x0 p) (w1 x2) (b1 x3) e k) := by
  have h : idx_main_v135 (ix2 p z) = ix1 p := funext fun a => Fin.ext (by
    match a with
    | ⟨0, _⟩ => rfl)
  rw [val_main_v144_apply, val_main_v135_apply, val_main_v134_apply, val_main_v133_apply, val_main_c_20_apply, h, head_0, val_main_call11_v0_apply, val_main_cst_21_apply,
    Ideal.ofBits_def, Ideal.ofBits_zero_f32]
  rfl

/-- Expert 1's second layer at row p: the contraction reads the hidden row against slice 1 of the second weights,
    and the broadcast bias reads slice 1 of the second biases. -/
theorem head_1 (p : Fin 100000) (z : Fin 1) :
    val_main_v156 (F := Ideal) x0 x1 x2 x3 x4 x5 (ix2 p z)
      = head (w2 x4) (b2 x5) 1 fun k => routed (x1 (ix1 p)) fun e => pre (xrow x0 p) (w1 x2) (b1 x3) e k := by
  have hl : ∀ k : Fin 256, lidx_main_v151 (ix2 p z) k = ix2 p k := fun k => funext fun a => Fin.ext (by
    match a with
    | ⟨0, _⟩ => rfl
    | ⟨1, _⟩ => rfl)
  have hr : ∀ k : Fin 256, idx_main_v149 (idx_main_v150 (ridx_main_v151 (ix2 p z) k)) = ix3 (1 : Fin 10) k (0 : Fin 1) := fun k => funext fun a => Fin.ext (by
    have hk : k.val < 256 := k.isLt
    have hz : z.val < 1 := z.isLt
    match a with
    | ⟨0, _⟩ => rfl
    | ⟨1, _⟩ => show (k.val * 1 + z.val) / 1 % 256 = k.val; omega
    | ⟨2, _⟩ => rfl)
  have hb : idx_main_v152 (idx_main_v153 (idx_main_v154 (idx_main_v155 (ix2 p z)))) = ix2 (1 : Fin 10) (0 : Fin 1) := funext fun a => Fin.ext (by
    match a with
    | ⟨0, _⟩ => rfl
    | ⟨1, _⟩ => rfl)
  rw [val_main_v156_apply, val_main_v151_apply, val_main_v155_apply, val_main_v154_apply, val_main_v153_apply, val_main_v152_apply, hb]
  simp only [val_main_v150_apply, val_main_v149_apply, hl, hr, hidden]
  rfl

/-- Expert 1's masked second-layer term at row p. -/
theorem out_1 (p : Fin 100000) (z : Fin 1) :
    val_main_v157 (F := Ideal) x0 x1 x2 x3 x4 x5 (ix2 p z)
      = pick (x1 (ix1 p)) 1#32
          (head (w2 x4) (b2 x5) 1 fun k => routed (x1 (ix1 p)) fun e => pre (xrow x0 p) (w1 x2) (b1 x3) e k) := by
  have h : idx_main_v148 (ix2 p z) = ix1 p := funext fun a => Fin.ext (by
    match a with
    | ⟨0, _⟩ => rfl)
  rw [val_main_v157_apply, val_main_v148_apply, val_main_v147_apply, val_main_v146_apply, val_main_c_22_apply, h, head_1, val_main_call12_v0_apply, val_main_cst_23_apply,
    Ideal.ofBits_def, Ideal.ofBits_zero_f32]
  rfl

/-- Expert 2's second layer at row p: the contraction reads the hidden row against slice 2 of the second weights,
    and the broadcast bias reads slice 2 of the second biases. -/
theorem head_2 (p : Fin 100000) (z : Fin 1) :
    val_main_v169 (F := Ideal) x0 x1 x2 x3 x4 x5 (ix2 p z)
      = head (w2 x4) (b2 x5) 2 fun k => routed (x1 (ix1 p)) fun e => pre (xrow x0 p) (w1 x2) (b1 x3) e k := by
  have hl : ∀ k : Fin 256, lidx_main_v164 (ix2 p z) k = ix2 p k := fun k => funext fun a => Fin.ext (by
    match a with
    | ⟨0, _⟩ => rfl
    | ⟨1, _⟩ => rfl)
  have hr : ∀ k : Fin 256, idx_main_v162 (idx_main_v163 (ridx_main_v164 (ix2 p z) k)) = ix3 (2 : Fin 10) k (0 : Fin 1) := fun k => funext fun a => Fin.ext (by
    have hk : k.val < 256 := k.isLt
    have hz : z.val < 1 := z.isLt
    match a with
    | ⟨0, _⟩ => rfl
    | ⟨1, _⟩ => show (k.val * 1 + z.val) / 1 % 256 = k.val; omega
    | ⟨2, _⟩ => rfl)
  have hb : idx_main_v165 (idx_main_v166 (idx_main_v167 (idx_main_v168 (ix2 p z)))) = ix2 (2 : Fin 10) (0 : Fin 1) := funext fun a => Fin.ext (by
    match a with
    | ⟨0, _⟩ => rfl
    | ⟨1, _⟩ => rfl)
  rw [val_main_v169_apply, val_main_v164_apply, val_main_v168_apply, val_main_v167_apply, val_main_v166_apply, val_main_v165_apply, hb]
  simp only [val_main_v163_apply, val_main_v162_apply, hl, hr, hidden]
  rfl

/-- Expert 2's masked second-layer term at row p. -/
theorem out_2 (p : Fin 100000) (z : Fin 1) :
    val_main_v170 (F := Ideal) x0 x1 x2 x3 x4 x5 (ix2 p z)
      = pick (x1 (ix1 p)) 2#32
          (head (w2 x4) (b2 x5) 2 fun k => routed (x1 (ix1 p)) fun e => pre (xrow x0 p) (w1 x2) (b1 x3) e k) := by
  have h : idx_main_v161 (ix2 p z) = ix1 p := funext fun a => Fin.ext (by
    match a with
    | ⟨0, _⟩ => rfl)
  rw [val_main_v170_apply, val_main_v161_apply, val_main_v160_apply, val_main_v159_apply, val_main_c_24_apply, h, head_2, val_main_call13_v0_apply, val_main_cst_25_apply,
    Ideal.ofBits_def, Ideal.ofBits_zero_f32]
  rfl

/-- Expert 3's second layer at row p: the contraction reads the hidden row against slice 3 of the second weights,
    and the broadcast bias reads slice 3 of the second biases. -/
theorem head_3 (p : Fin 100000) (z : Fin 1) :
    val_main_v182 (F := Ideal) x0 x1 x2 x3 x4 x5 (ix2 p z)
      = head (w2 x4) (b2 x5) 3 fun k => routed (x1 (ix1 p)) fun e => pre (xrow x0 p) (w1 x2) (b1 x3) e k := by
  have hl : ∀ k : Fin 256, lidx_main_v177 (ix2 p z) k = ix2 p k := fun k => funext fun a => Fin.ext (by
    match a with
    | ⟨0, _⟩ => rfl
    | ⟨1, _⟩ => rfl)
  have hr : ∀ k : Fin 256, idx_main_v175 (idx_main_v176 (ridx_main_v177 (ix2 p z) k)) = ix3 (3 : Fin 10) k (0 : Fin 1) := fun k => funext fun a => Fin.ext (by
    have hk : k.val < 256 := k.isLt
    have hz : z.val < 1 := z.isLt
    match a with
    | ⟨0, _⟩ => rfl
    | ⟨1, _⟩ => show (k.val * 1 + z.val) / 1 % 256 = k.val; omega
    | ⟨2, _⟩ => rfl)
  have hb : idx_main_v178 (idx_main_v179 (idx_main_v180 (idx_main_v181 (ix2 p z)))) = ix2 (3 : Fin 10) (0 : Fin 1) := funext fun a => Fin.ext (by
    match a with
    | ⟨0, _⟩ => rfl
    | ⟨1, _⟩ => rfl)
  rw [val_main_v182_apply, val_main_v177_apply, val_main_v181_apply, val_main_v180_apply, val_main_v179_apply, val_main_v178_apply, hb]
  simp only [val_main_v176_apply, val_main_v175_apply, hl, hr, hidden]
  rfl

/-- Expert 3's masked second-layer term at row p. -/
theorem out_3 (p : Fin 100000) (z : Fin 1) :
    val_main_v183 (F := Ideal) x0 x1 x2 x3 x4 x5 (ix2 p z)
      = pick (x1 (ix1 p)) 3#32
          (head (w2 x4) (b2 x5) 3 fun k => routed (x1 (ix1 p)) fun e => pre (xrow x0 p) (w1 x2) (b1 x3) e k) := by
  have h : idx_main_v174 (ix2 p z) = ix1 p := funext fun a => Fin.ext (by
    match a with
    | ⟨0, _⟩ => rfl)
  rw [val_main_v183_apply, val_main_v174_apply, val_main_v173_apply, val_main_v172_apply, val_main_c_26_apply, h, head_3, val_main_call14_v0_apply, val_main_cst_27_apply,
    Ideal.ofBits_def, Ideal.ofBits_zero_f32]
  rfl

/-- Expert 4's second layer at row p: the contraction reads the hidden row against slice 4 of the second weights,
    and the broadcast bias reads slice 4 of the second biases. -/
theorem head_4 (p : Fin 100000) (z : Fin 1) :
    val_main_v195 (F := Ideal) x0 x1 x2 x3 x4 x5 (ix2 p z)
      = head (w2 x4) (b2 x5) 4 fun k => routed (x1 (ix1 p)) fun e => pre (xrow x0 p) (w1 x2) (b1 x3) e k := by
  have hl : ∀ k : Fin 256, lidx_main_v190 (ix2 p z) k = ix2 p k := fun k => funext fun a => Fin.ext (by
    match a with
    | ⟨0, _⟩ => rfl
    | ⟨1, _⟩ => rfl)
  have hr : ∀ k : Fin 256, idx_main_v188 (idx_main_v189 (ridx_main_v190 (ix2 p z) k)) = ix3 (4 : Fin 10) k (0 : Fin 1) := fun k => funext fun a => Fin.ext (by
    have hk : k.val < 256 := k.isLt
    have hz : z.val < 1 := z.isLt
    match a with
    | ⟨0, _⟩ => rfl
    | ⟨1, _⟩ => show (k.val * 1 + z.val) / 1 % 256 = k.val; omega
    | ⟨2, _⟩ => rfl)
  have hb : idx_main_v191 (idx_main_v192 (idx_main_v193 (idx_main_v194 (ix2 p z)))) = ix2 (4 : Fin 10) (0 : Fin 1) := funext fun a => Fin.ext (by
    match a with
    | ⟨0, _⟩ => rfl
    | ⟨1, _⟩ => rfl)
  rw [val_main_v195_apply, val_main_v190_apply, val_main_v194_apply, val_main_v193_apply, val_main_v192_apply, val_main_v191_apply, hb]
  simp only [val_main_v189_apply, val_main_v188_apply, hl, hr, hidden]
  rfl

/-- Expert 4's masked second-layer term at row p. -/
theorem out_4 (p : Fin 100000) (z : Fin 1) :
    val_main_v196 (F := Ideal) x0 x1 x2 x3 x4 x5 (ix2 p z)
      = pick (x1 (ix1 p)) 4#32
          (head (w2 x4) (b2 x5) 4 fun k => routed (x1 (ix1 p)) fun e => pre (xrow x0 p) (w1 x2) (b1 x3) e k) := by
  have h : idx_main_v187 (ix2 p z) = ix1 p := funext fun a => Fin.ext (by
    match a with
    | ⟨0, _⟩ => rfl)
  rw [val_main_v196_apply, val_main_v187_apply, val_main_v186_apply, val_main_v185_apply, val_main_c_28_apply, h, head_4, val_main_call15_v0_apply, val_main_cst_29_apply,
    Ideal.ofBits_def, Ideal.ofBits_zero_f32]
  rfl

/-- Expert 5's second layer at row p: the contraction reads the hidden row against slice 5 of the second weights,
    and the broadcast bias reads slice 5 of the second biases. -/
theorem head_5 (p : Fin 100000) (z : Fin 1) :
    val_main_v208 (F := Ideal) x0 x1 x2 x3 x4 x5 (ix2 p z)
      = head (w2 x4) (b2 x5) 5 fun k => routed (x1 (ix1 p)) fun e => pre (xrow x0 p) (w1 x2) (b1 x3) e k := by
  have hl : ∀ k : Fin 256, lidx_main_v203 (ix2 p z) k = ix2 p k := fun k => funext fun a => Fin.ext (by
    match a with
    | ⟨0, _⟩ => rfl
    | ⟨1, _⟩ => rfl)
  have hr : ∀ k : Fin 256, idx_main_v201 (idx_main_v202 (ridx_main_v203 (ix2 p z) k)) = ix3 (5 : Fin 10) k (0 : Fin 1) := fun k => funext fun a => Fin.ext (by
    have hk : k.val < 256 := k.isLt
    have hz : z.val < 1 := z.isLt
    match a with
    | ⟨0, _⟩ => rfl
    | ⟨1, _⟩ => show (k.val * 1 + z.val) / 1 % 256 = k.val; omega
    | ⟨2, _⟩ => rfl)
  have hb : idx_main_v204 (idx_main_v205 (idx_main_v206 (idx_main_v207 (ix2 p z)))) = ix2 (5 : Fin 10) (0 : Fin 1) := funext fun a => Fin.ext (by
    match a with
    | ⟨0, _⟩ => rfl
    | ⟨1, _⟩ => rfl)
  rw [val_main_v208_apply, val_main_v203_apply, val_main_v207_apply, val_main_v206_apply, val_main_v205_apply, val_main_v204_apply, hb]
  simp only [val_main_v202_apply, val_main_v201_apply, hl, hr, hidden]
  rfl

/-- Expert 5's masked second-layer term at row p. -/
theorem out_5 (p : Fin 100000) (z : Fin 1) :
    val_main_v209 (F := Ideal) x0 x1 x2 x3 x4 x5 (ix2 p z)
      = pick (x1 (ix1 p)) 5#32
          (head (w2 x4) (b2 x5) 5 fun k => routed (x1 (ix1 p)) fun e => pre (xrow x0 p) (w1 x2) (b1 x3) e k) := by
  have h : idx_main_v200 (ix2 p z) = ix1 p := funext fun a => Fin.ext (by
    match a with
    | ⟨0, _⟩ => rfl)
  rw [val_main_v209_apply, val_main_v200_apply, val_main_v199_apply, val_main_v198_apply, val_main_c_30_apply, h, head_5, val_main_call16_v0_apply, val_main_cst_31_apply,
    Ideal.ofBits_def, Ideal.ofBits_zero_f32]
  rfl

/-- Expert 6's second layer at row p: the contraction reads the hidden row against slice 6 of the second weights,
    and the broadcast bias reads slice 6 of the second biases. -/
theorem head_6 (p : Fin 100000) (z : Fin 1) :
    val_main_v221 (F := Ideal) x0 x1 x2 x3 x4 x5 (ix2 p z)
      = head (w2 x4) (b2 x5) 6 fun k => routed (x1 (ix1 p)) fun e => pre (xrow x0 p) (w1 x2) (b1 x3) e k := by
  have hl : ∀ k : Fin 256, lidx_main_v216 (ix2 p z) k = ix2 p k := fun k => funext fun a => Fin.ext (by
    match a with
    | ⟨0, _⟩ => rfl
    | ⟨1, _⟩ => rfl)
  have hr : ∀ k : Fin 256, idx_main_v214 (idx_main_v215 (ridx_main_v216 (ix2 p z) k)) = ix3 (6 : Fin 10) k (0 : Fin 1) := fun k => funext fun a => Fin.ext (by
    have hk : k.val < 256 := k.isLt
    have hz : z.val < 1 := z.isLt
    match a with
    | ⟨0, _⟩ => rfl
    | ⟨1, _⟩ => show (k.val * 1 + z.val) / 1 % 256 = k.val; omega
    | ⟨2, _⟩ => rfl)
  have hb : idx_main_v217 (idx_main_v218 (idx_main_v219 (idx_main_v220 (ix2 p z)))) = ix2 (6 : Fin 10) (0 : Fin 1) := funext fun a => Fin.ext (by
    match a with
    | ⟨0, _⟩ => rfl
    | ⟨1, _⟩ => rfl)
  rw [val_main_v221_apply, val_main_v216_apply, val_main_v220_apply, val_main_v219_apply, val_main_v218_apply, val_main_v217_apply, hb]
  simp only [val_main_v215_apply, val_main_v214_apply, hl, hr, hidden]
  rfl

/-- Expert 6's masked second-layer term at row p. -/
theorem out_6 (p : Fin 100000) (z : Fin 1) :
    val_main_v222 (F := Ideal) x0 x1 x2 x3 x4 x5 (ix2 p z)
      = pick (x1 (ix1 p)) 6#32
          (head (w2 x4) (b2 x5) 6 fun k => routed (x1 (ix1 p)) fun e => pre (xrow x0 p) (w1 x2) (b1 x3) e k) := by
  have h : idx_main_v213 (ix2 p z) = ix1 p := funext fun a => Fin.ext (by
    match a with
    | ⟨0, _⟩ => rfl)
  rw [val_main_v222_apply, val_main_v213_apply, val_main_v212_apply, val_main_v211_apply, val_main_c_32_apply, h, head_6, val_main_call17_v0_apply, val_main_cst_33_apply,
    Ideal.ofBits_def, Ideal.ofBits_zero_f32]
  rfl

/-- Expert 7's second layer at row p: the contraction reads the hidden row against slice 7 of the second weights,
    and the broadcast bias reads slice 7 of the second biases. -/
theorem head_7 (p : Fin 100000) (z : Fin 1) :
    val_main_v234 (F := Ideal) x0 x1 x2 x3 x4 x5 (ix2 p z)
      = head (w2 x4) (b2 x5) 7 fun k => routed (x1 (ix1 p)) fun e => pre (xrow x0 p) (w1 x2) (b1 x3) e k := by
  have hl : ∀ k : Fin 256, lidx_main_v229 (ix2 p z) k = ix2 p k := fun k => funext fun a => Fin.ext (by
    match a with
    | ⟨0, _⟩ => rfl
    | ⟨1, _⟩ => rfl)
  have hr : ∀ k : Fin 256, idx_main_v227 (idx_main_v228 (ridx_main_v229 (ix2 p z) k)) = ix3 (7 : Fin 10) k (0 : Fin 1) := fun k => funext fun a => Fin.ext (by
    have hk : k.val < 256 := k.isLt
    have hz : z.val < 1 := z.isLt
    match a with
    | ⟨0, _⟩ => rfl
    | ⟨1, _⟩ => show (k.val * 1 + z.val) / 1 % 256 = k.val; omega
    | ⟨2, _⟩ => rfl)
  have hb : idx_main_v230 (idx_main_v231 (idx_main_v232 (idx_main_v233 (ix2 p z)))) = ix2 (7 : Fin 10) (0 : Fin 1) := funext fun a => Fin.ext (by
    match a with
    | ⟨0, _⟩ => rfl
    | ⟨1, _⟩ => rfl)
  rw [val_main_v234_apply, val_main_v229_apply, val_main_v233_apply, val_main_v232_apply, val_main_v231_apply, val_main_v230_apply, hb]
  simp only [val_main_v228_apply, val_main_v227_apply, hl, hr, hidden]
  rfl

/-- Expert 7's masked second-layer term at row p. -/
theorem out_7 (p : Fin 100000) (z : Fin 1) :
    val_main_v235 (F := Ideal) x0 x1 x2 x3 x4 x5 (ix2 p z)
      = pick (x1 (ix1 p)) 7#32
          (head (w2 x4) (b2 x5) 7 fun k => routed (x1 (ix1 p)) fun e => pre (xrow x0 p) (w1 x2) (b1 x3) e k) := by
  have h : idx_main_v226 (ix2 p z) = ix1 p := funext fun a => Fin.ext (by
    match a with
    | ⟨0, _⟩ => rfl)
  rw [val_main_v235_apply, val_main_v226_apply, val_main_v225_apply, val_main_v224_apply, val_main_c_34_apply, h, head_7, val_main_call18_v0_apply, val_main_cst_35_apply,
    Ideal.ofBits_def, Ideal.ofBits_zero_f32]
  rfl

/-- Expert 8's second layer at row p: the contraction reads the hidden row against slice 8 of the second weights,
    and the broadcast bias reads slice 8 of the second biases. -/
theorem head_8 (p : Fin 100000) (z : Fin 1) :
    val_main_v247 (F := Ideal) x0 x1 x2 x3 x4 x5 (ix2 p z)
      = head (w2 x4) (b2 x5) 8 fun k => routed (x1 (ix1 p)) fun e => pre (xrow x0 p) (w1 x2) (b1 x3) e k := by
  have hl : ∀ k : Fin 256, lidx_main_v242 (ix2 p z) k = ix2 p k := fun k => funext fun a => Fin.ext (by
    match a with
    | ⟨0, _⟩ => rfl
    | ⟨1, _⟩ => rfl)
  have hr : ∀ k : Fin 256, idx_main_v240 (idx_main_v241 (ridx_main_v242 (ix2 p z) k)) = ix3 (8 : Fin 10) k (0 : Fin 1) := fun k => funext fun a => Fin.ext (by
    have hk : k.val < 256 := k.isLt
    have hz : z.val < 1 := z.isLt
    match a with
    | ⟨0, _⟩ => rfl
    | ⟨1, _⟩ => show (k.val * 1 + z.val) / 1 % 256 = k.val; omega
    | ⟨2, _⟩ => rfl)
  have hb : idx_main_v243 (idx_main_v244 (idx_main_v245 (idx_main_v246 (ix2 p z)))) = ix2 (8 : Fin 10) (0 : Fin 1) := funext fun a => Fin.ext (by
    match a with
    | ⟨0, _⟩ => rfl
    | ⟨1, _⟩ => rfl)
  rw [val_main_v247_apply, val_main_v242_apply, val_main_v246_apply, val_main_v245_apply, val_main_v244_apply, val_main_v243_apply, hb]
  simp only [val_main_v241_apply, val_main_v240_apply, hl, hr, hidden]
  rfl

/-- Expert 8's masked second-layer term at row p. -/
theorem out_8 (p : Fin 100000) (z : Fin 1) :
    val_main_v248 (F := Ideal) x0 x1 x2 x3 x4 x5 (ix2 p z)
      = pick (x1 (ix1 p)) 8#32
          (head (w2 x4) (b2 x5) 8 fun k => routed (x1 (ix1 p)) fun e => pre (xrow x0 p) (w1 x2) (b1 x3) e k) := by
  have h : idx_main_v239 (ix2 p z) = ix1 p := funext fun a => Fin.ext (by
    match a with
    | ⟨0, _⟩ => rfl)
  rw [val_main_v248_apply, val_main_v239_apply, val_main_v238_apply, val_main_v237_apply, val_main_c_36_apply, h, head_8, val_main_call19_v0_apply, val_main_cst_37_apply,
    Ideal.ofBits_def, Ideal.ofBits_zero_f32]
  rfl

/-- Expert 9's second layer at row p: the contraction reads the hidden row against slice 9 of the second weights,
    and the broadcast bias reads slice 9 of the second biases. -/
theorem head_9 (p : Fin 100000) (z : Fin 1) :
    val_main_v260 (F := Ideal) x0 x1 x2 x3 x4 x5 (ix2 p z)
      = head (w2 x4) (b2 x5) 9 fun k => routed (x1 (ix1 p)) fun e => pre (xrow x0 p) (w1 x2) (b1 x3) e k := by
  have hl : ∀ k : Fin 256, lidx_main_v255 (ix2 p z) k = ix2 p k := fun k => funext fun a => Fin.ext (by
    match a with
    | ⟨0, _⟩ => rfl
    | ⟨1, _⟩ => rfl)
  have hr : ∀ k : Fin 256, idx_main_v253 (idx_main_v254 (ridx_main_v255 (ix2 p z) k)) = ix3 (9 : Fin 10) k (0 : Fin 1) := fun k => funext fun a => Fin.ext (by
    have hk : k.val < 256 := k.isLt
    have hz : z.val < 1 := z.isLt
    match a with
    | ⟨0, _⟩ => rfl
    | ⟨1, _⟩ => show (k.val * 1 + z.val) / 1 % 256 = k.val; omega
    | ⟨2, _⟩ => rfl)
  have hb : idx_main_v256 (idx_main_v257 (idx_main_v258 (idx_main_v259 (ix2 p z)))) = ix2 (9 : Fin 10) (0 : Fin 1) := funext fun a => Fin.ext (by
    match a with
    | ⟨0, _⟩ => rfl
    | ⟨1, _⟩ => rfl)
  rw [val_main_v260_apply, val_main_v255_apply, val_main_v259_apply, val_main_v258_apply, val_main_v257_apply, val_main_v256_apply, hb]
  simp only [val_main_v254_apply, val_main_v253_apply, hl, hr, hidden]
  rfl

/-- Expert 9's masked second-layer term at row p. -/
theorem out_9 (p : Fin 100000) (z : Fin 1) :
    val_main_v261 (F := Ideal) x0 x1 x2 x3 x4 x5 (ix2 p z)
      = pick (x1 (ix1 p)) 9#32
          (head (w2 x4) (b2 x5) 9 fun k => routed (x1 (ix1 p)) fun e => pre (xrow x0 p) (w1 x2) (b1 x3) e k) := by
  have h : idx_main_v252 (ix2 p z) = ix1 p := funext fun a => Fin.ext (by
    match a with
    | ⟨0, _⟩ => rfl)
  rw [val_main_v261_apply, val_main_v252_apply, val_main_v251_apply, val_main_v250_apply, val_main_c_38_apply, h, head_9, val_main_call20_v0_apply, val_main_cst_39_apply,
    Ideal.ofBits_def, Ideal.ofBits_zero_f32]
  rfl

end Stages

/-! ## The result -/

/-- The reference's result at an index is the perceptron that routes twice, on that row. -/
theorem ref_value (x0 : (⟨S100000x256, .f32⟩ : BufTy).Contents (Elt Ideal)) (x1 : (⟨S100000, .i32⟩ : BufTy).Contents (Elt Ideal))
    (x2 : (⟨S10x256x256, .f32⟩ : BufTy).Contents (Elt Ideal)) (x3 : (⟨S10x256, .f32⟩ : BufTy).Contents (Elt Ideal))
    (x4 : (⟨S10x256x1, .f32⟩ : BufTy).Contents (Elt Ideal)) (x5 : (⟨S10x1, .f32⟩ : BufTy).Contents (Elt Ideal)) (i : S100000x1.Idx) :
    val_main_v262 (F := Ideal) x0 x1 x2 x3 x4 x5 i
      = Cert.RoutedMlp.outRef (fun j => x0 (ix2 (i 0) j)) (x1 (ix1 (i 0))) (fun e j k => x2 (ix3 e j k)) (fun e k => x3 (ix2 e k))
          (fun e k => x4 (ix3 e k 0)) (fun e => x5 (ix2 e 0)) := by
  obtain ⟨p, z, rfl⟩ : ∃ (p : Fin 100000) (z : Fin 1), i = ix2 p z := ⟨i 0, i 1, eq_ix2 i⟩
  rw [val_main_v262_apply, val_main_v249_apply, val_main_v236_apply, val_main_v223_apply, val_main_v210_apply, val_main_v197_apply, val_main_v184_apply, val_main_v171_apply, val_main_v158_apply, val_main_v145_apply, val_main_v132_apply, val_main_cst_19_apply,
    out_0, out_1, out_2, out_3, out_4, out_5, out_6, out_7, out_8, out_9, Ideal.ofBits_def, Ideal.ofBits_zero_f32]
  rfl

end Cert.RefRouted

end
-- ==== Proof.lean ====
/-
  The certificate of a species-routed two-layer perceptron: a tiled kernel against its plain reference.

  Each atom (row) carries 256 features and an integer species. There are ten experts, each a two-layer perceptron
  256 → 256 → 1 with the activation y · logistic y in between. The kernel, tile by tile of 2000 rows, runs every expert's
  two layers on the tile and keeps, row by row, the result of the expert the row's species names (zero where it names
  none), adding the ten kept terms up from zero. The reference routes twice: the hidden rows are the routed sum of the
  ten first layers, the activation (spelt x · (1 / (1 + exp (−x))), which is x · logistic x by definition) is applied to
  them, and the ten second layers of those hidden rows are routed again.

  On the extended reals the two agree for every species word and every input, finite or not (Proof/RoutedMlp.lean,
  `outRef_eq_out`): a term of the outer routed sum is read only where the species is that expert's number, and there the
  inner routed sum is that expert's first layer, the other nine terms being zeros added to it. So the precondition is
  never opened.

  The pieces. Kernel side: Proof/KernelRow.lean reads one row of what the kernel's body stores; Proof/KernelArray.lean
  carries it from the tile's blocks to the whole result array of the kernel's run (the species column, and the two weight
  arrays whose float format the host changes before the call, read back through those host operations). Reference side:
  Proof/RefMain.lean shows the program is its 343 host operations in order, Proof/RefBlocks1.lean and
  Proof/RefBlocks2.lean advance the contents one expert's operations at a time, Proof/RefRun.lean chains them into the
  run, whose result buffer is a named stage of the arguments, and Proof/RefRouted.lean reads that stage at an index as
  the twice-routed perceptron of the row. The kernels' frames are the generated ones, the reference's frame is its run
  with the result dropped, and the idealization rewrote nothing, so `preserves` is `True`.
-/
import proofs.«129769_j56959856280416_1_alg».proof.Defs
import proofs.«129769_j56959856280416_1_alg».proof.Proof.Gen.Kernel
import proofs.«129769_j56959856280416_1_alg».proof.Proof.Gen.Kernel.Skeleton
import proofs.«129769_j56959856280416_1_alg».proof.Proof.Gen.Kernel.Launch
import proofs.«129769_j56959856280416_1_alg».proof.Proof.Gen.Kernel.Points
import proofs.«129769_j56959856280416_1_alg».proof.Proof.Gen.Kernel.Frame
import proofs.«129769_j56959856280416_1_alg».proof.Proof.Gen.KernelIdeal
import proofs.«129769_j56959856280416_1_alg».proof.Proof.Gen.KernelIdeal.Skeleton
import proofs.«129769_j56959856280416_1_alg».proof.Proof.Gen.KernelIdeal.Launch
import proofs.«129769_j56959856280416_1_alg».proof.Proof.Gen.KernelIdeal.Points
import proofs.«129769_j56959856280416_1_alg».proof.Proof.Gen.KernelIdeal.Frame
import proofs.«129769_j56959856280416_1_alg».proof.Proof.Gen.KernelIdeal.Value
import proofs.«129769_j56959856280416_1_alg».proof.Proof.Gen.ReferenceIdeal
import proofs.«129769_j56959856280416_1_alg».proof.Proof.Gen.Pre_finite_inputs
import proofs.«129769_j56959856280416_1_alg».proof.Proof.RoutedMlp
import proofs.«129769_j56959856280416_1_alg».proof.Proof.KernelRow
import proofs.«129769_j56959856280416_1_alg».proof.Proof.KernelArray
import proofs.«129769_j56959856280416_1_alg».proof.Proof.RefRun
import proofs.«129769_j56959856280416_1_alg».proof.Proof.RefRouted
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.RefRun.run (F := Ideal) m ρ)

/-- Both runs end with the result array at the routed perceptron of each row of the argument arrays: the kernel's by
    its blocks, the reference's stage by stage in the twice-routed arrangement, which is the same function. -/
theorem algebraic : Cert.algebraic_KernelIdeal_ReferenceIdeal := by
  intro m ρ m' ρ' _ hagree
  refine ⟨_, Cert.KernelArray.run_rows Cert.KernelRow.row_fact m ρ, ?_⟩
  refine (θ_run Cert.ReferenceIdeal.defs _ _).mono (fun _ h c => ⟨(h c).1.trans ?_, (h c).2⟩)
    (Cert.RefRun.run (F := Ideal) m' ρ')
  funext i
  rw [Cert.RefRouted.ref_value, Cert.RoutedMlp.outRef_eq_out,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
